-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v107_0)) (v1 : (c : Dev Cert.KernelIdeal.nD) → Buf (Elt Ideal) ((c.tc : Thread Cert.KernelIdeal.nD Cert.KernelIdeal.τ).loc Cert.KernelIdeal.main_v107_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107_0) = v0 c
          ∧ r.2.mem ((c.tc : Thread Cert.KernelIdeal.nD Cert.KernelIdeal.τ).loc Cert.KernelIdeal.main_v107_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S3x2x32x32 : Shape := ⟨4, ![3, 2, 32, 32]⟩
abbrev S3x32 : Shape := ⟨2, ![3, 32]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x2x32x32 : S_.BroadcastsInDim S3x2x32x32 (![] : Fin 0 → Fin S3x2x32x32.rank)
  reducesTo_S3x2x32x32_S_d0_1_2_3 : S3x2x32x32.ReducesTo [0, 1, 2, 3] S_
  bcast_S_S3x32 : S_.BroadcastsInDim S3x32 (![] : Fin 0 → Fin S3x32.rank)
  reducesTo_S3x32_S_d0_1 : S3x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S3x32 .f32) (main_arg6 : FVec F S3x2x32x32 .f32) (main_arg7 : FVec F S3x32 .f32) (main_arg8 : FVec F S32x1 .f32) (main_arg9 : FVec F S1 .f32) (main_v13 : IVec S_ 1) (main_v16 : IVec S3x2x32x32 1) : IVec S_ 1 :=
  let main_c_5 : IVec S_ 1 := constantI S_ 1 1#1
  let main_v17 : IVec S_ 1 := (fun x v => Host.reduce IntOp.andi x v reducesTo_S3x2x32x32_S_d0_1_2_3 h_S_) main_v16 main_c_5
  let main_v18 : IVec S_ 1 := andi main_v13 main_v17
  let main_v19 : FVec F S3x32 .f32 := Host.absf main_arg5
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S3x2x32x32 .f32 := Host.absf main_arg6
  let main_cst_8 : FVec F S_ .f32 := constant S_ .f32 0x7F800000#32
  let main_v25 : FVec F S3x2x32x32 .f32 := broadcastInDim S3x2x32x32 ![] bcast_S_S3x2x32x32 main_cst_8
  let main_v26 : IVec S3x2x32x32 1 := cmpf .olt main_v24 main_v25
  let main_c_9 : IVec S_ 1 := constantI S_ 1 1#1
  let main_v27 : IVec S_ 1 := (fun x v => Host.reduce IntOp.andi x v reducesTo_S3x2x32x32_S_d0_1_2_3 h_S_) main_v26 main_c_9
  let main_v28 : IVec S_ 1 := andi main_v23 main_v27
  let main_v29 : FVec F S3x32 .f32 := Host.absf main_arg7
  let main_cst_10 : FVec F S_ .f32 := constant S_ .f32 0x7F800000#32
  let main_v30 : FVec F S3x32 .f32 := broadcastInDim S3x32 ![] bcast_S_S3x32 main_cst_10
  let main_v31 : IVec S3x32 1 := cmpf .olt main_v29 main_v30
  let main_c_11 : IVec S_ 1 := constantI S_ 1 1#1
  let main_v32 : IVec S_ 1 := (fun x v => Host.reduce IntOp.andi x v reducesTo_S3x32_S_d0_1 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S1600000 .f32) (main_arg3 : FVec F S100000x32 .f32) (main_arg4 : FVec F S3x2x32x32 .f32) (main_arg5 : FVec F S3x32 .f32) (main_arg6 : FVec F S3x2x32x32 .f32) (main_arg7 : FVec F S3x32 .f32) (main_arg8 : FVec F S32x1 .f32) (main_arg9 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x32 .f32 := Host.absf main_arg3
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S3x2x32x32 .f32 := Host.absf main_arg4
  let main_cst_4 : FVec F S_ .f32 := constant S_ .f32 0x7F800000#32
  let main_v15 : FVec F S3x2x32x32 .f32 := broadcastInDim S3x2x32x32 ![] bcast_S_S3x2x32x32 main_cst_4
  let main_v16 : IVec S3x2x32x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S3x2x32x32 : Shape := ⟨4, ![3, 2, 32, 32]⟩
abbrev S3x32 : Shape := ⟨2, ![3, 32]⟩
abbrev S32x1 : Shape := ⟨2, ![32, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x128 : Shape := ⟨2, ![100000, 128]⟩
abbrev S1x1x32x32 : Shape := ⟨4, ![1, 1, 32, 32]⟩
abbrev S32x32 : Shape := ⟨2, ![32, 32]⟩
abbrev S128x32 : Shape := ⟨2, ![128, 32]⟩
abbrev S1x32 : Shape := ⟨2, ![1, 32]⟩
abbrev S32 : Shape := ⟨1, ![32]⟩
abbrev S4000x128 : Shape := ⟨2, ![4000, 128]⟩
abbrev S4000x32 : Shape := ⟨2, ![4000, 32]⟩
abbrev S1600000x32 : Shape := ⟨2, ![1600000, 32]⟩
abbrev S1x1 : Shape := ⟨2, ![1, 1]⟩
abbrev S100000x1 : Shape := ⟨2, ![100000, 1]⟩
abbrev S4000x1 : Shape := ⟨2, ![4000, 1]⟩
abbrev S4000 : Shape := ⟨1, ![4000]⟩

abbrev nBuf : Space → Nat
  | .hbm => 138
  | .vmem => 24
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S100000x32, .f32⟩
  | 4 => ⟨S3x2x32x32, .f32⟩
  | 5 => ⟨S3x32, .f32⟩
  | 6 => ⟨S3x2x32x32, .f32⟩
  | 7 => ⟨S3x32, .f32⟩
  | 8 => ⟨S32x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1600000, .f32⟩
  | 54 => ⟨S100000x64, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x32, .f32⟩
  | 72 => ⟨S100000x32, .f32⟩
  | 73 => ⟨S100000x128, .f32⟩
  | 74 => ⟨S1x1x32x32, .f32⟩
  | 75 => ⟨S32x32, .f32⟩
  | 76 => ⟨S1x1x32x32, .f32⟩
  | 77 => ⟨S32x32, .f32⟩
  | 78 => ⟨S1x1x32x32, .f32⟩
  | 79 => ⟨S32x32, .f32⟩
  | 80 => ⟨S1x1x32x32, .f32⟩
  | 81 => ⟨S32x32, .f32⟩
  | 82 => ⟨S128x32, .f32⟩
  | 83 => ⟨S1x32, .f32⟩
  | 84 => ⟨S32, .f32⟩
  | 85 => ⟨S1x32, .f32⟩
  | 86 => ⟨S32, .f32⟩
  | 87 => ⟨S32, .f32⟩
  | 88 => ⟨S100000x32, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x32, .f32⟩
  | 99 => ⟨S1600000x32, .f32⟩
  | 100 => ⟨S1600000x32, .f32⟩
  | 101 => ⟨S_, .f32⟩
  | 102 => ⟨S100000x32, .f32⟩
  | 103 => ⟨S1600000x1, .i32⟩
  | 104 => ⟨S100000x32, .f32⟩
  | 105 => ⟨S100000x128, .f32⟩
  | 106 => ⟨S1x1x32x32, .f32⟩
  | 107 => ⟨S32x32, .f32⟩
  | 108 => ⟨S1x1x32x32, .f32⟩
  | 109 => ⟨S32x32, .f32⟩
  | 110 => ⟨S1x1x32x32, .f32⟩
  | 111 => ⟨S32x32, .f32⟩
  | 112 => ⟨S1x1x32x32, .f32⟩
  | 113 => ⟨S32x32, .f32⟩
  | 114 => ⟨S128x32, .f32⟩
  | 115 => ⟨S1x32, .f32⟩
  | 116 => ⟨S32, .f32⟩
  | 117 => ⟨S1x32, .f32⟩
  | 118 => ⟨S32, .f32⟩
  | 119 => ⟨S32, .f32⟩
  | 120 => ⟨S1x1x32x32, .f32⟩
  | 121 => ⟨S32x32, .f32⟩
  | 122 => ⟨S1x1x32x32, .f32⟩
  | 123 => ⟨S32x32, .f32⟩
  | 124 => ⟨S1x1x32x32, .f32⟩
  | 125 => ⟨S32x32, .f32⟩
  | 126 => ⟨S1x1x32x32, .f32⟩
  | 127 => ⟨S32x32, .f32⟩
  | _ => ⟨S100000x32, .f32⟩

abbrev hbmTy0_1 (i : Nat) : BufTy := match i % 128 with
  | 0 => ⟨S128x32, .f32⟩
  | 1 => ⟨S1x32, .f32⟩
  | 2 => ⟨S32, .f32⟩
  | 3 => ⟨S1x32, .f32⟩
  | 4 => ⟨S32, .f32⟩
  | 5 => ⟨S32, .f32⟩
  | 6 => ⟨S1x32, .f32⟩
  | 7 => ⟨S1x1, .f32⟩
  | 8 => ⟨S100000x1, .f32⟩
  | 9 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x32, .f32⟩
  | .local _ .vmem, ⟨3, _⟩ => ⟨S4000x32, .f32⟩
  | .local _ .vmem, ⟨4, _⟩ => ⟨S128x32, .f32⟩
  | .local _ .vmem, ⟨5, _⟩ => ⟨S32, .f32⟩
  | .local _ .vmem, ⟨6, _⟩ => ⟨S4000x32, .f32⟩
  | .local _ .vmem, ⟨7, _⟩ => ⟨S4000x32, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x32, .f32⟩
  | .local _ .vmem, ⟨13, _⟩ => ⟨S4000x32, .f32⟩
  | .local _ .vmem, ⟨14, _⟩ => ⟨S128x32, .f32⟩
  | .local _ .vmem, ⟨15, _⟩ => ⟨S32, .f32⟩
  | .local _ .vmem, ⟨16, _⟩ => ⟨S128x32, .f32⟩
  | .local _ .vmem, ⟨17, _⟩ => ⟨S32, .f32⟩
  | .local _ .vmem, ⟨18, _⟩ => ⟨S1x32, .f32⟩
  | .local _ .vmem, ⟨19, _⟩ => ⟨S1x1, .f32⟩
  | .local _ .vmem, ⟨20, _⟩ => ⟨S4000x1, .f32⟩
  | .local _ .vmem, ⟨21, _⟩ => ⟨S4000x1, .f32⟩
  | .local _ .vmem, ⟨22, _⟩ => ⟨S4000x32, .f32⟩
  | .local _ .vmem, ⟨23, _⟩ => ⟨S4000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107_0 : Ref sig .tc := ⟨.hbm, 136, rfl⟩
abbrev main_v107_1 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4000x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  concatenates_S100000x32_S100000x32_S100000x64_d1 : Shape.Concatenates [S100000x32, S100000x32] S100000x64 1
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S100000x64_S100000x32_0_0 : S100000x64.Slices ![0, 0] S100000x32
  slices_S100000x64_S100000x32_0_32 : S100000x64.Slices ![0, 32] S100000x32
  concatenates_S100000x32_S100000x32_S100000x32_S100000x32_S100000x128_d1 : Shape.Concatenates [S100000x32, S100000x32, S100000x32, S100000x32] S100000x128 1
  slices_S3x2x32x32_S1x1x32x32_1_0_0_0 : S3x2x32x32.Slices ![1, 0, 0, 0] S1x1x32x32
  shapeCasts_S1x1x32x32_S32x32 : S1x1x32x32.ShapeCasts S32x32
  slices_S3x2x32x32_S1x1x32x32_1_1_0_0 : S3x2x32x32.Slices ![1, 1, 0, 0] S1x1x32x32
  concatenates_S32x32_S32x32_S32x32_S32x32_S128x32_d0 : Shape.Concatenates [S32x32, S32x32, S32x32, S32x32] S128x32 0
  slices_S3x32_S1x32_1_0 : S3x32.Slices ![1, 0] S1x32
  shapeCasts_S1x32_S32 : S1x32.ShapeCasts S32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x32_S4000x32_0_0 : ∀ a, (![0, 0] : Fin 2 → Nat) a + S4000x32.size a ≤ S4000x32.size a
  h_S4000x32 : 0 < S4000x32.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S4000x32 : S1x32.Broadcasts S4000x32
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S3x2x32x32_S1x1x32x32_0_0_0_0 : S3x2x32x32.Slices ![0, 0, 0, 0] S1x1x32x32
  slices_S3x2x32x32_S1x1x32x32_0_1_0_0 : S3x2x32x32.Slices ![0, 1, 0, 0] S1x1x32x32
  slices_S3x32_S1x32_0_0 : S3x32.Slices ![0, 0] S1x32
  slices_S3x2x32x32_S1x1x32x32_2_0_0_0 : S3x2x32x32.Slices ![2, 0, 0, 0] S1x1x32x32
  slices_S3x2x32x32_S1x1x32x32_2_1_0_0 : S3x2x32x32.Slices ![2, 1, 0, 0] S1x1x32x32
  slices_S3x32_S1x32_2_0 : S3x32.Slices ![2, 0] S1x32
  shapeCasts_S32x1_S1x32 : S32x1.ShapeCasts S1x32
  shapeCasts_S1_S1x1 : S1.ShapeCasts S1x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S4000x32_S4000 : S4000x32.Reduces [1] S4000
  shapeCasts_S4000_S4000x1 : S4000.ShapeCasts S4000x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x128_S128x32_S4000x32_1_0_0_1_n_n_wf : DotDims.WF S4000x128 S128x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S100000x32.size a
  hwx0_1 : ∀ i : grid0.Coords, EltTy.bits .f32 = 32 ∨ (Rect.block (s := S100000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x32.size a ≤ S100000x32.size a
  hwx0_4 : ∀ i : grid0.Coords, EltTy.bits .f32 = 32 ∨ (Rect.block (s := S100000x32) S4000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x32.size a ≤ S128x32.size a
  hwx1_5 : ∀ i : grid1.Coords, EltTy.bits .f32 = 32 ∨ (Rect.block (s := S128x32) S128x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x1.size a ≤ S100000x1.size a
  hwx1_9 : ∀ i : grid1.Coords, EltTy.bits .f32 = 32 ∨ (Rect.block (s := S100000x1) S4000x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x32.size a ≤ S100000x32.size a
  hwx1_10 : ∀ i : grid1.Coords, EltTy.bits .f32 = 32 ∨ (Rect.block (s := S100000x32) S4000x32.size (cc1_transform_10 i) (hinb1_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v47) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v61) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S4000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v76) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v85) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v90) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v99) S128x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v104) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v105) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v106) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v107_0) S4000x1.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v107_1) S4000x32.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S3x2x32x32 : Shape := ⟨4, ![3, 2, 32, 32]⟩
abbrev S3x32 : Shape := ⟨2, ![3, 32]⟩
abbrev S32x1 : Shape := ⟨2, ![32, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x2x32x32 : Shape := ⟨4, ![1, 2, 32, 32]⟩
abbrev S2x32x32 : Shape := ⟨3, ![2, 32, 32]⟩
abbrev S1x32 : Shape := ⟨2, ![1, 32]⟩
abbrev S32 : Shape := ⟨1, ![32]⟩
abbrev S1600000x32 : Shape := ⟨2, ![1600000, 32]⟩
abbrev S1x32x32 : Shape := ⟨3, ![1, 32, 32]⟩
abbrev S32x32 : Shape := ⟨2, ![32, 32]⟩
abbrev S100000x1 : Shape := ⟨2, ![100000, 1]⟩
abbrev S1x1 : Shape := ⟨2, ![1, 1]⟩

abbrev nBuf : Space → Nat
  | .hbm => 282
  | .vmem => 0
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S100000x32, .f32⟩
  | 4 => ⟨S3x2x32x32, .f32⟩
  | 5 => ⟨S3x32, .f32⟩
  | 6 => ⟨S3x2x32x32, .f32⟩
  | 7 => ⟨S3x32, .f32⟩
  | 8 => ⟨S32x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1600000, .f32⟩
  | 54 => ⟨S1x2x32x32, .f32⟩
  | 55 => ⟨S2x32x32, .f32⟩
  | 56 => ⟨S1x32, .f32⟩
  | 57 => ⟨S32, .f32⟩
  | 58 => ⟨S1600000x1, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x32, .f32⟩
  | 68 => ⟨S1600000x32, .f32⟩
  | 69 => ⟨S1600000x32, .f32⟩
  | 70 => ⟨S_, .f32⟩
  | 71 => ⟨S100000x32, .f32⟩
  | 72 => ⟨S1600000x1, .i32⟩
  | 73 => ⟨S100000x32, .f32⟩
  | 74 => ⟨S1x32x32, .f32⟩
  | 75 => ⟨S32x32, .f32⟩
  | 76 => ⟨S100000x32, .f32⟩
  | 77 => ⟨S1x32x32, .f32⟩
  | 78 => ⟨S32x32, .f32⟩
  | 79 => ⟨S100000x32, .f32⟩
  | 80 => ⟨S100000x32, .f32⟩
  | 81 => ⟨S1x32, .f32⟩
  | 82 => ⟨S100000x32, .f32⟩
  | 83 => ⟨S100000x32, .f32⟩
  | 84 => ⟨S1x2x32x32, .f32⟩
  | 85 => ⟨S2x32x32, .f32⟩
  | 86 => ⟨S1x32, .f32⟩
  | 87 => ⟨S32, .f32⟩
  | 88 => ⟨S1600000x1, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x32, .f32⟩
  | 98 => ⟨S1600000x32, .f32⟩
  | 99 => ⟨S1600000x32, .f32⟩
  | 100 => ⟨S_, .f32⟩
  | 101 => ⟨S100000x32, .f32⟩
  | 102 => ⟨S1600000x1, .i32⟩
  | 103 => ⟨S100000x32, .f32⟩
  | 104 => ⟨S1x32x32, .f32⟩
  | 105 => ⟨S32x32, .f32⟩
  | 106 => ⟨S100000x32, .f32⟩
  | 107 => ⟨S1x32x32, .f32⟩
  | 108 => ⟨S32x32, .f32⟩
  | 109 => ⟨S100000x32, .f32⟩
  | 110 => ⟨S100000x32, .f32⟩
  | 111 => ⟨S1x32, .f32⟩
  | 112 => ⟨S100000x32, .f32⟩
  | 113 => ⟨S100000x32, .f32⟩
  | 114 => ⟨S100000x32, .f32⟩
  | 115 => ⟨S100000x32, .f32⟩
  | 116 => ⟨S100000x32, .f32⟩
  | 117 => ⟨S_, .f32⟩
  | 118 => ⟨S100000x32, .f32⟩
  | 119 => ⟨S100000x32, .f32⟩
  | 120 => ⟨S_, .f32⟩
  | 121 => ⟨S100000x32, .f32⟩
  | 122 => ⟨S100000x32, .f32⟩
  | 123 => ⟨S1x2x32x32, .f32⟩
  | 124 => ⟨S2x32x32, .f32⟩
  | 125 => ⟨S1x32, .f32⟩
  | 126 => ⟨S32, .f32⟩
  | 127 => ⟨S1600000x1, .f32⟩
  | _ => ⟨S100000x32, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x32, .f32⟩
  | 9 => ⟨S1600000x32, .f32⟩
  | 10 => ⟨S1600000x32, .f32⟩
  | 11 => ⟨S_, .f32⟩
  | 12 => ⟨S100000x32, .f32⟩
  | 13 => ⟨S1600000x1, .i32⟩
  | 14 => ⟨S100000x32, .f32⟩
  | 15 => ⟨S1x32x32, .f32⟩
  | 16 => ⟨S32x32, .f32⟩
  | 17 => ⟨S100000x32, .f32⟩
  | 18 => ⟨S1x32x32, .f32⟩
  | 19 => ⟨S32x32, .f32⟩
  | 20 => ⟨S100000x32, .f32⟩
  | 21 => ⟨S100000x32, .f32⟩
  | 22 => ⟨S1x32, .f32⟩
  | 23 => ⟨S100000x32, .f32⟩
  | 24 => ⟨S100000x32, .f32⟩
  | 25 => ⟨S1x2x32x32, .f32⟩
  | 26 => ⟨S2x32x32, .f32⟩
  | 27 => ⟨S1x32, .f32⟩
  | 28 => ⟨S32, .f32⟩
  | 29 => ⟨S1600000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x32, .f32⟩
  | 39 => ⟨S1600000x32, .f32⟩
  | 40 => ⟨S1600000x32, .f32⟩
  | 41 => ⟨S_, .f32⟩
  | 42 => ⟨S100000x32, .f32⟩
  | 43 => ⟨S1600000x1, .i32⟩
  | 44 => ⟨S100000x32, .f32⟩
  | 45 => ⟨S1x32x32, .f32⟩
  | 46 => ⟨S32x32, .f32⟩
  | 47 => ⟨S100000x32, .f32⟩
  | 48 => ⟨S1x32x32, .f32⟩
  | 49 => ⟨S32x32, .f32⟩
  | 50 => ⟨S100000x32, .f32⟩
  | 51 => ⟨S100000x32, .f32⟩
  | 52 => ⟨S1x32, .f32⟩
  | 53 => ⟨S100000x32, .f32⟩
  | 54 => ⟨S100000x32, .f32⟩
  | 55 => ⟨S100000x32, .f32⟩
  | 56 => ⟨S100000x32, .f32⟩
  | 57 => ⟨S100000x32, .f32⟩
  | 58 => ⟨S_, .f32⟩
  | 59 => ⟨S100000x32, .f32⟩
  | 60 => ⟨S100000x32, .f32⟩
  | 61 => ⟨S_, .f32⟩
  | 62 => ⟨S100000x32, .f32⟩
  | 63 => ⟨S100000x32, .f32⟩
  | 64 => ⟨S100000x32, .f32⟩
  | 65 => ⟨S1x2x32x32, .f32⟩
  | 66 => ⟨S2x32x32, .f32⟩
  | 67 => ⟨S1x32, .f32⟩
  | 68 => ⟨S32, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x32, .f32⟩
  | 79 => ⟨S1600000x32, .f32⟩
  | 80 => ⟨S1600000x32, .f32⟩
  | 81 => ⟨S_, .f32⟩
  | 82 => ⟨S100000x32, .f32⟩
  | 83 => ⟨S1600000x1, .i32⟩
  | 84 => ⟨S100000x32, .f32⟩
  | 85 => ⟨S1x32x32, .f32⟩
  | 86 => ⟨S32x32, .f32⟩
  | 87 => ⟨S100000x32, .f32⟩
  | 88 => ⟨S1x32x32, .f32⟩
  | 89 => ⟨S32x32, .f32⟩
  | 90 => ⟨S100000x32, .f32⟩
  | 91 => ⟨S100000x32, .f32⟩
  | 92 => ⟨S1x32, .f32⟩
  | 93 => ⟨S100000x32, .f32⟩
  | 94 => ⟨S100000x32, .f32⟩
  | 95 => ⟨S1x2x32x32, .f32⟩
  | 96 => ⟨S2x32x32, .f32⟩
  | 97 => ⟨S1x32, .f32⟩
  | 98 => ⟨S32, .f32⟩
  | 99 => ⟨S1600000x1, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x32, .f32⟩
  | 109 => ⟨S1600000x32, .f32⟩
  | 110 => ⟨S1600000x32, .f32⟩
  | 111 => ⟨S_, .f32⟩
  | 112 => ⟨S100000x32, .f32⟩
  | 113 => ⟨S1600000x1, .i32⟩
  | 114 => ⟨S100000x32, .f32⟩
  | 115 => ⟨S1x32x32, .f32⟩
  | 116 => ⟨S32x32, .f32⟩
  | 117 => ⟨S100000x32, .f32⟩
  | 118 => ⟨S1x32x32, .f32⟩
  | 119 => ⟨S32x32, .f32⟩
  | 120 => ⟨S100000x32, .f32⟩
  | 121 => ⟨S100000x32, .f32⟩
  | 122 => ⟨S1x32, .f32⟩
  | 123 => ⟨S100000x32, .f32⟩
  | 124 => ⟨S100000x32, .f32⟩
  | 125 => ⟨S100000x32, .f32⟩
  | 126 => ⟨S100000x32, .f32⟩
  | 127 => ⟨S100000x32, .f32⟩
  | _ => ⟨S100000x32, .f32⟩

abbrev hbmTy0_2 (i : Nat) : BufTy := match i % 128 with
  | 0 => ⟨S_, .f32⟩
  | 1 => ⟨S100000x32, .f32⟩
  | 2 => ⟨S100000x32, .f32⟩
  | 3 => ⟨S100000x32, .f32⟩
  | 4 => ⟨S100000x32, .f32⟩
  | 5 => ⟨S_, .f32⟩
  | 6 => ⟨S100000x32, .f32⟩
  | 7 => ⟨S100000x32, .f32⟩
  | 8 => ⟨S100000x1, .f32⟩
  | 9 => ⟨S1x1, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S100000x1, .f32⟩
  | 16 => ⟨S100000x1, .f32⟩
  | 17 => ⟨S100000x1, .i1⟩
  | 18 => ⟨S100000x1, .f32⟩
  | 19 => ⟨S100000x1, .f32⟩
  | 20 => ⟨S100000x1, .f32⟩
  | 21 => ⟨S100000x1, .f32⟩
  | 22 => ⟨S100000x1, .f32⟩
  | 23 => ⟨S100000x1, .f32⟩
  | 24 => ⟨S100000x1, .f32⟩
  | 25 => ⟨S100000x1, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_10 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_13 : Ref sig .tc := ⟨.hbm, 117, rfl⟩
abbrev main_v88 : Ref sig .tc := ⟨.hbm, 118, rfl⟩
abbrev main_v89 : Ref sig .tc := ⟨.hbm, 119, rfl⟩
abbrev main_cst_14 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_15 : Ref sig .tc := ⟨.hbm, 128, rfl⟩
abbrev main_v97 : Ref sig .tc := ⟨.hbm, 129, rfl⟩
abbrev main_v98 : Ref sig .tc := ⟨.hbm, 130, rfl⟩
abbrev main_c_16 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_17 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_c_18 : Ref sig .tc := ⟨.hbm, 158, rfl⟩
abbrev main_v124 : Ref sig .tc := ⟨.hbm, 159, rfl⟩
abbrev main_v125 : Ref sig .tc := ⟨.hbm, 160, rfl⟩
abbrev main_c_19 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_20 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_21 : Ref sig .tc := ⟨.hbm, 186, rfl⟩
abbrev main_v149 : Ref sig .tc := ⟨.hbm, 187, rfl⟩
abbrev main_v150 : Ref sig .tc := ⟨.hbm, 188, rfl⟩
abbrev main_cst_22 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_c_23 : Ref sig .tc := ⟨.hbm, 198, rfl⟩
abbrev main_v159 : Ref sig .tc := ⟨.hbm, 199, rfl⟩
abbrev main_v160 : Ref sig .tc := ⟨.hbm, 200, rfl⟩
abbrev main_c_24 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_25 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_c_26 : Ref sig .tc := ⟨.hbm, 228, rfl⟩
abbrev main_v186 : Ref sig .tc := ⟨.hbm, 229, rfl⟩
abbrev main_v187 : Ref sig .tc := ⟨.hbm, 230, rfl⟩
abbrev main_c_27 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_cst_28 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_cst_29 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_call2_cst : Ref sig .tc := ⟨.hbm, 261, rfl⟩
abbrev main_call2_v0 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_call3_cst : Ref sig .tc := ⟨.hbm, 268, rfl⟩
abbrev main_call3_v0 : Ref sig .tc := ⟨.hbm, 269, rfl⟩
abbrev main_call3_v1 : Ref sig .tc := ⟨.hbm, 270, rfl⟩
abbrev main_call3_v2 : Ref sig .tc := ⟨.hbm, 271, rfl⟩
abbrev main_call3_v3 : Ref sig .tc := ⟨.hbm, 272, rfl⟩
abbrev main_call3_v4 : Ref sig .tc := ⟨.hbm, 273, rfl⟩
abbrev main_call3_v5 : Ref sig .tc := ⟨.hbm, 274, rfl⟩
abbrev main_call3_v6 : Ref sig .tc := ⟨.hbm, 275, rfl⟩
abbrev main_call3_v7 : Ref sig .tc := ⟨.hbm, 276, rfl⟩
abbrev main_call3_v8 : Ref sig .tc := ⟨.hbm, 277, rfl⟩
abbrev main_call3_v9 : Ref sig .tc := ⟨.hbm, 278, rfl⟩
abbrev main_call3_v10 : Ref sig .tc := ⟨.hbm, 279, rfl⟩
abbrev main_call3_v11 : Ref sig .tc := ⟨.hbm, 280, rfl⟩
abbrev main_v220 : Ref sig .tc := ⟨.hbm, 281, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x2x32x32_S1x2x32x32_0_0_0_0 : S3x2x32x32.Slices ![0, 0, 0, 0] S1x2x32x32
  shapeCasts_S1x2x32x32_S2x32x32 : S1x2x32x32.ShapeCasts S2x32x32
  slices_S3x32_S1x32_0_0 : S3x32.Slices ![0, 0] S1x32
  shapeCasts_S1x32_S32 : S1x32.ShapeCasts S32
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S2x32x32_S1x32x32_0_0_0 : S2x32x32.Slices ![0, 0, 0] S1x32x32
  shapeCasts_S1x32x32_S32x32 : S1x32x32.ShapeCasts S32x32
  slices_S2x32x32_S1x32x32_1_0_0 : S2x32x32.Slices ![1, 0, 0] S1x32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S3x2x32x32_S1x2x32x32_1_0_0_0 : S3x2x32x32.Slices ![1, 0, 0, 0] S1x2x32x32
  slices_S3x32_S1x32_1_0 : S3x32.Slices ![1, 0] S1x32
  slices_S3x2x32x32_S1x2x32x32_2_0_0_0 : S3x2x32x32.Slices ![2, 0, 0, 0] S1x2x32x32
  slices_S3x32_S1x32_2_0 : S3x32.Slices ![2, 0] S1x32
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.BitsSide.ResetGate.lean ====
/-
  The reset-gate region (the first pallas_call), at any float family: per row tile of 4000 nodes the body reads the packed
  row block [x | h | T1 x | T1 h] (4000×128), the block of h (4000×32), the stacked weight (128×32) and the bias (32),
  and stores h ⊙ σ(P·W + b) over the whole 4000×32 output block. Stated at a PARAMETER `V`, the buffer contents when the
  region is entered: each window's block at a grid point, the body's Hoare triple (whole-buffer loads, one whole-buffer
  store), the pipeline's proof data (inputs keep their blocks, the output holds the stored value) and the per-point
  body obligation of the pipeline library.
-/
import proofs.«118658_j79585743995076_2_alg».proof.Proof.Gen.Kernel.Launch
import proofs.«118658_j79585743995076_2_alg».proof.Proof.Gen.Kernel.Skeleton
import proofs.«118658_j79585743995076_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: when it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: when it is not fetched the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: when it is not fetched the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: when it is not fetched the
    block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each the whole staging buffer -/

abbrev r0_0 : Rect S4000x128 := Rect.unit (s := S4000x128) ![0, 0] S4000x128.size inb_S4000x128_S4000x128_0_0
abbrev r0_1 : Rect S4000x32 := Rect.unit (s := S4000x32) ![0, 0] S4000x32.size inb_S4000x32_S4000x32_0_0
abbrev r0_2 : Rect S128x32 := Rect.unit (s := S128x32) ![0, 0] S128x32.size inb_S128x32_S128x32_0_0
abbrev r0_3 : Rect S32 := Rect.unit (s := S32) ![0] S32.size inb_S32_S32_0
abbrev r0_4 : Rect S4000x32 := Rect.unit (s := S4000x32) ![0, 0] S4000x32.size inb_S4000x32_S4000x32_0_0

/-! ## What the body leaves in each output buffer -/

/-- Output window 4's staging buffer after the body, as a function of the input blocks: its one whole-buffer store. -/
def out0_4 (x0 : Vec F S4000x128 .f32) (x1 : Vec F S4000x32 .f32) (x2 : Vec F S128x32 .f32) (x3 : Vec F S32 .f32) : Vec F S4000x32 .f32 :=
  View.canon [⟨r0_4, k0_pay1 (View.ld x0 r0_0) (View.ld x1 r0_1) (View.ld x2 r0_2) (View.ld x3 r0_3)⟩]

/-- The one store covers the buffer. -/
theorem cover0_4 (p0 : Vec F S4000x32 .f32) (y : S4000x32.Idx) :
    ∃ pc ∈ ([⟨r0_4, p0⟩] : List (View.Piece (Elt F) S4000x32 .f32)), y ∈ pc.1.set :=
  View.cover_of_tiled [⟨r0_4, p0⟩] S4000x32.size (by rfl) y

/-! ## The body's triple -/

set_option maxHeartbeats 4000000 in
/-- The kernel body on whole staging buffers — the inputs' at contents `xW`, the outputs' at anything — runs to the
    continuation with the inputs' unchanged and each output's at `out0_W` of the inputs'. -/
theorem sound_kernel0 (c : Dev nD) (E : Set ℕ) (i : grid0.Coords) (arg1 : Memref sig .tc .vmem S4000x128 .f32) (harg1 : arg1.IsWhole) (arg2 : Memref sig .tc .vmem S4000x32 .f32) (harg2 : arg2.IsWhole) (arg3 : Memref sig .tc .vmem S128x32 .f32) (harg3 : arg3.IsWhole) (arg4 : Memref sig .tc .vmem S32 .f32) (harg4 : arg4.IsWhole) (arg5 : Memref sig .tc .vmem S4000x32 .f32) (harg5 : arg5.IsWhole)
    (x0 : Vec F S4000x128 .f32) (x1 : Vec F S4000x32 .f32) (x2 : Vec F S128x32 .f32) (x3 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__kernelA_body i arg1 harg1 arg2 harg2 arg3 harg3 arg4 harg4 arg5 harg5) K := by
  simp only [cc0__kernelA_body_eq_skeleton]; unfold cc0__kernelA_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of this pipeline on core `c`: the arrays as the region finds them; after the body at point `t` each
    input's buffer at its block and each output's at `out0_W` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.BitsSide.UpdateGate.lean ====
/-
  The update/candidate region (the second pallas_call), at any float family: per row tile of 4000 nodes the body reads the two
  packed row blocks [x | h | T1 x | T1 h] and [x | h⊙r | T1 x | T1(h⊙r)] (4000×128 each), the block of h, the two stacked
  weights (128×32), the two biases (32), the read-out row (1×32) and its bias (1×1); it stores
  h' = z ⊙ h + (1 − z) ⊙ tanh(·) over the whole 4000×32 block and softplus(relu(h')·w + b) over the whole 4000×1 block.
  Stated at a PARAMETER `V`, the buffer contents when the region is entered: blocks, the body's Hoare triple, the proof data
  and the per-point body obligation of the pipeline library.
-/
import proofs.«118658_j79585743995076_2_alg».proof.Proof.Gen.Kernel.Launch
import proofs.«118658_j79585743995076_2_alg».proof.Proof.Gen.Kernel.Skeleton
import proofs.«118658_j79585743995076_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: when it is not fetched the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: when it is not fetched the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: when it is not fetched the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: when it is not fetched the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: when it is not fetched the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not: when it is not fetched the
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not: when it is not fetched the
    block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not: when it is not fetched the
    block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not: when it is not fetched the
    block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through: each the whole staging buffer -/

abbrev r1_0 : Rect S4000x128 := Rect.unit (s := S4000x128) ![0, 0] S4000x128.size inb_S4000x128_S4000x128_0_0
abbrev r1_1 : Rect S4000x128 := Rect.unit (s := S4000x128) ![0, 0] S4000x128.size inb_S4000x128_S4000x128_0_0
abbrev r1_2 : Rect S4000x32 := Rect.unit (s := S4000x32) ![0, 0] S4000x32.size inb_S4000x32_S4000x32_0_0
abbrev r1_3 : Rect S128x32 := Rect.unit (s := S128x32) ![0, 0] S128x32.size inb_S128x32_S128x32_0_0
abbrev r1_4 : Rect S32 := Rect.unit (s := S32) ![0] S32.size inb_S32_S32_0
abbrev r1_5 : Rect S128x32 := Rect.unit (s := S128x32) ![0, 0] S128x32.size inb_S128x32_S128x32_0_0
abbrev r1_6 : Rect S32 := Rect.unit (s := S32) ![0] S32.size inb_S32_S32_0
abbrev r1_7 : Rect S1x32 := Rect.unit (s := S1x32) ![0, 0] S1x32.size inb_S1x32_S1x32_0_0
abbrev r1_8 : Rect S1x1 := Rect.unit (s := S1x1) ![0, 0] S1x1.size inb_S1x1_S1x1_0_0
abbrev r1_9 : Rect S4000x1 := Rect.unit (s := S4000x1) ![0, 0] S4000x1.size inb_S4000x1_S4000x1_0_0
abbrev r1_10 : Rect S4000x32 := Rect.unit (s := S4000x32) ![0, 0] S4000x32.size inb_S4000x32_S4000x32_0_0

/-! ## What the body leaves in each output buffer -/

/-- Output window 9's staging buffer after the body, as a function of the input blocks: its one whole-buffer store. -/
def out1_9 (x0 : Vec F S4000x128 .f32) (x1 : Vec F S4000x128 .f32) (x2 : Vec F S4000x32 .f32) (x3 : Vec F S128x32 .f32) (x4 : Vec F S32 .f32) (x5 : Vec F S128x32 .f32) (x6 : Vec F S32 .f32) (x7 : Vec F S1x32 .f32) (x8 : Vec F S1x1 .f32) : Vec F S4000x1 .f32 :=
  View.canon [⟨r1_9, k1_pay1 (k1_pay3 (View.ld x0 r1_0) (View.ld x1 r1_1) (View.ld x2 r1_2) (View.ld x3 r1_3) (View.ld x5 r1_5) (View.ld x4 r1_4) (View.ld x6 r1_6)) (k1_pay4 (View.ld x8 r1_8)) (k1_pay5 (View.ld x7 r1_7))⟩]

/-- The one store covers the buffer. -/
theorem cover1_9 (p0 : Vec F S4000x1 .f32) (y : S4000x1.Idx) :
    ∃ pc ∈ ([⟨r1_9, p0⟩] : List (View.Piece (Elt F) S4000x1 .f32)), y ∈ pc.1.set :=
  View.cover_of_tiled [⟨r1_9, p0⟩] S4000x1.size (by rfl) y

/-- Output window 10's staging buffer after the body, as a function of the input blocks: its one whole-buffer store. -/
def out1_10 (x0 : Vec F S4000x128 .f32) (x1 : Vec F S4000x128 .f32) (x2 : Vec F S4000x32 .f32) (x3 : Vec F S128x32 .f32) (x4 : Vec F S32 .f32) (x5 : Vec F S128x32 .f32) (x6 : Vec F S32 .f32) (x7 : Vec F S1x32 .f32) (x8 : Vec F S1x1 .f32) : Vec F S4000x32 .f32 :=
  View.canon [⟨r1_10, k1_pay2 (View.ld x0 r1_0) (View.ld x1 r1_1) (View.ld x2 r1_2) (View.ld x3 r1_3) (View.ld x5 r1_5) (View.ld x4 r1_4) (View.ld x6 r1_6)⟩]

/-- The one store covers the buffer. -/
theorem cover1_10 (p0 : Vec F S4000x32 .f32) (y : S4000x32.Idx) :
    ∃ pc ∈ ([⟨r1_10, p0⟩] : List (View.Piece (Elt F) S4000x32 .f32)), y ∈ pc.1.set :=
  View.cover_of_tiled [⟨r1_10, p0⟩] S4000x32.size (by rfl) y

/-! ## The body's triple -/

set_option maxHeartbeats 4000000 in
/-- The kernel body on whole staging buffers — the inputs' at contents `xW`, the outputs' at anything — runs to the
    continuation with the inputs' unchanged and each output's at `out1_W` of the inputs'. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x32 .f32) (harg3 : arg3.IsWhole) (arg4 : Memref sig .tc .vmem S128x32 .f32) (harg4 : arg4.IsWhole) (arg5 : Memref sig .tc .vmem S32 .f32) (harg5 : arg5.IsWhole) (arg6 : Memref sig .tc .vmem S128x32 .f32) (harg6 : arg6.IsWhole) (arg7 : Memref sig .tc .vmem S32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S4000x1 .f32) (harg10 : arg10.IsWhole) (arg11 : Memref sig .tc .vmem S4000x32 .f32) (harg11 : arg11.IsWhole)
    (x0 : Vec F S4000x128 .f32) (x1 : Vec F S4000x128 .f32) (x2 : Vec F S4000x32 .f32) (x3 : Vec F S128x32 .f32) (x4 : Vec F S32 .f32) (x5 : Vec F S128x32 .f32) (x6 : Vec F S32 .f32) (x7 : Vec F S1x32 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8) ∗ owns (c : Thread nD τ) arg11 fullShare (out1_10 x0 x1 x2 x3 x4 x5 x6 x7 x8)) -∗ K ⟨⟩))
      ⊢ wp frame (wpE (defs₀ (F := F)) Variants.none c none) E (cc1__kernelB_body i arg1 harg1 arg2 harg2 arg3 harg3 arg4 harg4 arg5 harg5 arg6 harg6 arg7 harg7 arg8 harg8 arg9 harg9 arg10 harg10 arg11 harg11) K := by
  simp only [cc1__kernelB_body_eq_skeleton]; unfold cc1__kernelB_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover1_9 _)
  iexists _; isplitr
  swap; · iexact H10
  ipureintro
  try dsimp only
  exact View.read_writes_eq_canon _ _ _ (cover1_10 _)

/-! ## The pipeline's proof data -/

/-- The proof data of this pipeline on core `c`: the arrays as the region finds them; after the body at point `t` each
    input's buffer at its block and each output's at `out1_W` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.BitsSide.TwoRegionRun.lean ====
/-
  The whole run of @main through its two kernel regions, at any float family: five stretches of host operations, the
  reset-gate region, one more stretch, the update/candidate region. The buffer contents at every boundary are a fold from
  the launch memory: a host stretch applies its operations; a region leaves each of its arrays at what its pipeline's
  write-backs leave (inputs as entered, each output the blocks the body stored, folded over the grid) and every other
  buffer as entered. Every weakly fair execution terminates without a fault with EVERY unscoped buffer at the last
  boundary's contents (`run_all`); the ten argument arrays are read back through the fold to the launch memory
  (`W8_main_argK`: no host operation writes one, and a region only reads one), which is the frame (`frame`).
-/
import proofs.«118658_j79585743995076_2_alg».proof.Proof.BitsSide.ResetGate
import proofs.«118658_j79585743995076_2_alg».proof.Proof.BitsSide.UpdateGate
import proofs.«118658_j79585743995076_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The contents the reset-gate region is entered from (after the five host stretches), read at the TensorCore's references. -/
abbrev E5 : (c : Dev nD) → (b : Ref sig .tc) → Buf (Elt F) ((c : Thread nD τ).loc b) := fun c b => Gen.V5 m c b
/-- At region 0's exit: its arrays at what the pipeline leaves (inputs as entered, each output's write-backs folded over the
    grid), every other buffer as entered. -/
def W6 (c : Dev nD) : Valuation τ sig (Elt F) :=
  Pipeline.withArrays spec0 c (Gen.V5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = (Gen.V5 m c) (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After the host stretch between the regions (the update/candidate region's entry). -/
abbrev W7 : Dev nD → Valuation τ sig (Elt F) := fun c => StableHlo.after hostOps1 (W6 m c)
abbrev E7 : (c : Dev nD) → (b : Ref sig .tc) → Buf (Elt F) ((c : Thread nD τ).loc b) := fun c b => W7 m c b

/-- At region 1's exit: its arrays at what the pipeline leaves (inputs as entered, each output's write-backs folded over the
    grid), every other buffer as entered. -/
def W8 (c : Dev nD) : Valuation τ sig (Elt F) :=
  Pipeline.withArrays spec1 c (W7 m c) fun w => (dat1 (E7 m) c).arrAt w cfg1.N
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = (W7 m c) (Proc.devRef .tc b) := by
  unfold W8; exact Pipeline.withArrays_of_ne spec1 c _ _ b hb
abbrev E8 : (c : Dev nD) → (b : Ref sig .tc) → Buf (Elt F) ((c : Thread nD τ).loc b) := fun c b => W8 m c b
theorem hF1 (c : Dev nD) (w : Fin cfg1.W) : (dat1 (E7 m) c).arrAt w cfg1.N = E8 m c (Pipeline.arrRef spec1 w) :=
  (W8_arr m c w).symm
theorem hrest1 (c : Dev nD) : ∀ b, b ∉ Finset.univ.image (Pipeline.arrRef spec1) → E8 m c b = E7 m c b :=
  fun b hb => W8_of_ne m c b fun w e => hb (Finset.mem_image.mpr ⟨w, Finset.mem_univ _, e⟩)

/-! ## The argument arrays end as launched -/

theorem W8_main_arg0 (c : Dev nD) : W8 m c (Proc.devRef .tc main_arg0) = m ((c : Thread nD τ).loc main_arg0) :=
  (W8_of_ne m c main_arg0 (by decide)).trans <| (StableHlo.after_of_writes_sub hostOps1 _ Gen.hostOps1_writes (by decide : main_arg0 ∉ Gen.hostOps1_W)).trans <|
    (W6_of_ne m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W8_main_arg1 (c : Dev nD) : W8 m c (Proc.devRef .tc main_arg1) = m ((c : Thread nD τ).loc main_arg1) :=
  (W8_of_ne m c main_arg1 (by decide)).trans <| (StableHlo.after_of_writes_sub hostOps1 _ Gen.hostOps1_writes (by decide : main_arg1 ∉ Gen.hostOps1_W)).trans <|
    (W6_of_ne m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W8_main_arg2 (c : Dev nD) : W8 m c (Proc.devRef .tc main_arg2) = m ((c : Thread nD τ).loc main_arg2) :=
  (W8_of_ne m c main_arg2 (by decide)).trans <| (StableHlo.after_of_writes_sub hostOps1 _ Gen.hostOps1_writes (by decide : main_arg2 ∉ Gen.hostOps1_W)).trans <|
    (W6_of_ne m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W8_main_arg3 (c : Dev nD) : W8 m c (Proc.devRef .tc main_arg3) = m ((c : Thread nD τ).loc main_arg3) :=
  ((W8_arr m c 2).trans (((dat1 (E7 m) c).arrAt_in 2 rfl _).trans (A_eq1 (E7 m) c 2))).trans <|
    (StableHlo.after_of_writes_sub hostOps1 _ Gen.hostOps1_writes (by decide : main_arg3 ∉ Gen.hostOps1_W)).trans <|
    ((W6_arr m c 1).trans (((dat0 (E5 m) c).arrAt_in 1 rfl _).trans (A_eq0 (E5 m) c 1))).trans <| (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W8_main_arg4 (c : Dev nD) : W8 m c (Proc.devRef .tc main_arg4) = m ((c : Thread nD τ).loc main_arg4) :=
  (W8_of_ne m c main_arg4 (by decide)).trans <| (StableHlo.after_of_writes_sub hostOps1 _ Gen.hostOps1_writes (by decide : main_arg4 ∉ Gen.hostOps1_W)).trans <|
    (W6_of_ne m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem W8_main_arg5 (c : Dev nD) : W8 m c (Proc.devRef .tc main_arg5) = m ((c : Thread nD τ).loc main_arg5) :=
  (W8_of_ne m c main_arg5 (by decide)).trans <| (StableHlo.after_of_writes_sub hostOps1 _ Gen.hostOps1_writes (by decide : main_arg5 ∉ Gen.hostOps1_W)).trans <|
    (W6_of_ne m c main_arg5 (by decide)).trans <| (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl
theorem W8_main_arg6 (c : Dev nD) : W8 m c (Proc.devRef .tc main_arg6) = m ((c : Thread nD τ).loc main_arg6) :=
  (W8_of_ne m c main_arg6 (by decide)).trans <| (StableHlo.after_of_writes_sub hostOps1 _ Gen.hostOps1_writes (by decide : main_arg6 ∉ Gen.hostOps1_W)).trans <|
    (W6_of_ne m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide)).trans rfl
theorem W8_main_arg7 (c : Dev nD) : W8 m c (Proc.devRef .tc main_arg7) = m ((c : Thread nD τ).loc main_arg7) :=
  (W8_of_ne m c main_arg7 (by decide)).trans <| (StableHlo.after_of_writes_sub hostOps1 _ Gen.hostOps1_writes (by decide : main_arg7 ∉ Gen.hostOps1_W)).trans <|
    (W6_of_ne m c main_arg7 (by decide)).trans <| (Gen.V5_of m c main_arg7 (by decide)).trans <| (Gen.V4_of m c main_arg7 (by decide)).trans <| (Gen.V3_of m c main_arg7 (by decide)).trans <| (Gen.V2_of m c main_arg7 (by decide)).trans <| (Gen.V1_of m c main_arg7 (by decide)).trans rfl
theorem W8_main_arg8 (c : Dev nD) : W8 m c (Proc.devRef .tc main_arg8) = m ((c : Thread nD τ).loc main_arg8) :=
  (W8_of_ne m c main_arg8 (by decide)).trans <| (StableHlo.after_of_writes_sub hostOps1 _ Gen.hostOps1_writes (by decide : main_arg8 ∉ Gen.hostOps1_W)).trans <|
    (W6_of_ne m c main_arg8 (by decide)).trans <| (Gen.V5_of m c main_arg8 (by decide)).trans <| (Gen.V4_of m c main_arg8 (by decide)).trans <| (Gen.V3_of m c main_arg8 (by decide)).trans <| (Gen.V2_of m c main_arg8 (by decide)).trans <| (Gen.V1_of m c main_arg8 (by decide)).trans rfl
theorem W8_main_arg9 (c : Dev nD) : W8 m c (Proc.devRef .tc main_arg9) = m ((c : Thread nD τ).loc main_arg9) :=
  (W8_of_ne m c main_arg9 (by decide)).trans <| (StableHlo.after_of_writes_sub hostOps1 _ Gen.hostOps1_writes (by decide : main_arg9 ∉ Gen.hostOps1_W)).trans <|
    (W6_of_ne m c main_arg9 (by decide)).trans <| (Gen.V5_of m c main_arg9 (by decide)).trans <| (Gen.V4_of m c main_arg9 (by decide)).trans <| (Gen.V3_of m c main_arg9 (by decide)).trans <| (Gen.V2_of m c main_arg9 (by decide)).trans <| (Gen.V1_of m c main_arg9 (by decide)).trans rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) Gen.adm p) c
  | ⟨0, _⟩ => fun c => dat0 (E5 m) c
  | ⟨1, _⟩ => fun c => dat1 (E7 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment: from the unscoped buffers at `W` to them at `StableHlo.after ops (W c)`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: its arrays split out of the unscoped buffers at entry and put back at the exit contents;
    the generator register into the pipeline's invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit contents;
    the generator register into the pipeline's invariant and out; nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .host (hseg hostOps1 hostOps1_sub Gen.hostOps1_fresh (W6 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and in every final
    state each core holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The frame: every execution terminates and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

end Cert.Kernel.Run

end
-- ==== Proof.IdealSide.ResetGate.lean ====
/-
  The reset-gate region (the first pallas_call), at any float family: per row tile of 4000 nodes the body reads the packed
  row block [x | h | T1 x | T1 h] (4000×128), the block of h (4000×32), the stacked weight (128×32) and the bias (32),
  and stores h ⊙ σ(P·W + b) over the whole 4000×32 output block. Stated at a PARAMETER `V`, the buffer contents when the
  region is entered: each window's block at a grid point, the body's Hoare triple (whole-buffer loads, one whole-buffer
  store), the pipeline's proof data (inputs keep their blocks, the output holds the stored value) and the per-point
  body obligation of the pipeline library.
-/
import proofs.«118658_j79585743995076_2_alg».proof.Proof.Gen.KernelIdeal.Launch
import proofs.«118658_j79585743995076_2_alg».proof.Proof.Gen.KernelIdeal.Skeleton
import proofs.«118658_j79585743995076_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: when it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: when it is not fetched the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: when it is not fetched the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: when it is not fetched the
    block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each the whole staging buffer -/

abbrev r0_0 : Rect S4000x128 := Rect.unit (s := S4000x128) ![0, 0] S4000x128.size inb_S4000x128_S4000x128_0_0
abbrev r0_1 : Rect S4000x32 := Rect.unit (s := S4000x32) ![0, 0] S4000x32.size inb_S4000x32_S4000x32_0_0
abbrev r0_2 : Rect S128x32 := Rect.unit (s := S128x32) ![0, 0] S128x32.size inb_S128x32_S128x32_0_0
abbrev r0_3 : Rect S32 := Rect.unit (s := S32) ![0] S32.size inb_S32_S32_0
abbrev r0_4 : Rect S4000x32 := Rect.unit (s := S4000x32) ![0, 0] S4000x32.size inb_S4000x32_S4000x32_0_0

/-! ## What the body leaves in each output buffer -/

/-- Output window 4's staging buffer after the body, as a function of the input blocks: its one whole-buffer store. -/
def out0_4 (x0 : Vec F S4000x128 .f32) (x1 : Vec F S4000x32 .f32) (x2 : Vec F S128x32 .f32) (x3 : Vec F S32 .f32) : Vec F S4000x32 .f32 :=
  View.canon [⟨r0_4, k0_pay1 (View.ld x0 r0_0) (View.ld x1 r0_1) (View.ld x2 r0_2) (View.ld x3 r0_3)⟩]

/-- The one store covers the buffer. -/
theorem cover0_4 (p0 : Vec F S4000x32 .f32) (y : S4000x32.Idx) :
    ∃ pc ∈ ([⟨r0_4, p0⟩] : List (View.Piece (Elt F) S4000x32 .f32)), y ∈ pc.1.set :=
  View.cover_of_tiled [⟨r0_4, p0⟩] S4000x32.size (by rfl) y

/-! ## The body's triple -/

set_option maxHeartbeats 4000000 in
/-- The kernel body on whole staging buffers — the inputs' at contents `xW`, the outputs' at anything — runs to the
    continuation with the inputs' unchanged and each output's at `out0_W` of the inputs'. -/
theorem sound_kernel0 (c : Dev nD) (E : Set ℕ) (i : grid0.Coords) (arg1 : Memref sig .tc .vmem S4000x128 .f32) (harg1 : arg1.IsWhole) (arg2 : Memref sig .tc .vmem S4000x32 .f32) (harg2 : arg2.IsWhole) (arg3 : Memref sig .tc .vmem S128x32 .f32) (harg3 : arg3.IsWhole) (arg4 : Memref sig .tc .vmem S32 .f32) (harg4 : arg4.IsWhole) (arg5 : Memref sig .tc .vmem S4000x32 .f32) (harg5 : arg5.IsWhole)
    (x0 : Vec F S4000x128 .f32) (x1 : Vec F S4000x32 .f32) (x2 : Vec F S128x32 .f32) (x3 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__kernelA_body i arg1 harg1 arg2 harg2 arg3 harg3 arg4 harg4 arg5 harg5) K := by
  simp only [cc0__kernelA_body_eq_skeleton]; unfold cc0__kernelA_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of this pipeline on core `c`: the arrays as the region finds them; after the body at point `t` each
    input's buffer at its block and each output's at `out0_W` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.IdealSide.UpdateGate.lean ====
/-
  The update/candidate region (the second pallas_call), at any float family: per row tile of 4000 nodes the body reads the two
  packed row blocks [x | h | T1 x | T1 h] and [x | h⊙r | T1 x | T1(h⊙r)] (4000×128 each), the block of h, the two stacked
  weights (128×32), the two biases (32), the read-out row (1×32) and its bias (1×1); it stores
  h' = z ⊙ h + (1 − z) ⊙ tanh(·) over the whole 4000×32 block and softplus(relu(h')·w + b) over the whole 4000×1 block.
  Stated at a PARAMETER `V`, the buffer contents when the region is entered: blocks, the body's Hoare triple, the proof data
  and the per-point body obligation of the pipeline library.
-/
import proofs.«118658_j79585743995076_2_alg».proof.Proof.Gen.KernelIdeal.Launch
import proofs.«118658_j79585743995076_2_alg».proof.Proof.Gen.KernelIdeal.Skeleton
import proofs.«118658_j79585743995076_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: when it is not fetched the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: when it is not fetched the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: when it is not fetched the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: when it is not fetched the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: when it is not fetched the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not: when it is not fetched the
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not: when it is not fetched the
    block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not: when it is not fetched the
    block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not: when it is not fetched the
    block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through: each the whole staging buffer -/

abbrev r1_0 : Rect S4000x128 := Rect.unit (s := S4000x128) ![0, 0] S4000x128.size inb_S4000x128_S4000x128_0_0
abbrev r1_1 : Rect S4000x128 := Rect.unit (s := S4000x128) ![0, 0] S4000x128.size inb_S4000x128_S4000x128_0_0
abbrev r1_2 : Rect S4000x32 := Rect.unit (s := S4000x32) ![0, 0] S4000x32.size inb_S4000x32_S4000x32_0_0
abbrev r1_3 : Rect S128x32 := Rect.unit (s := S128x32) ![0, 0] S128x32.size inb_S128x32_S128x32_0_0
abbrev r1_4 : Rect S32 := Rect.unit (s := S32) ![0] S32.size inb_S32_S32_0
abbrev r1_5 : Rect S128x32 := Rect.unit (s := S128x32) ![0, 0] S128x32.size inb_S128x32_S128x32_0_0
abbrev r1_6 : Rect S32 := Rect.unit (s := S32) ![0] S32.size inb_S32_S32_0
abbrev r1_7 : Rect S1x32 := Rect.unit (s := S1x32) ![0, 0] S1x32.size inb_S1x32_S1x32_0_0
abbrev r1_8 : Rect S1x1 := Rect.unit (s := S1x1) ![0, 0] S1x1.size inb_S1x1_S1x1_0_0
abbrev r1_9 : Rect S4000x1 := Rect.unit (s := S4000x1) ![0, 0] S4000x1.size inb_S4000x1_S4000x1_0_0
abbrev r1_10 : Rect S4000x32 := Rect.unit (s := S4000x32) ![0, 0] S4000x32.size inb_S4000x32_S4000x32_0_0

/-! ## What the body leaves in each output buffer -/

/-- Output window 9's staging buffer after the body, as a function of the input blocks: its one whole-buffer store. -/
def out1_9 (x0 : Vec F S4000x128 .f32) (x1 : Vec F S4000x128 .f32) (x2 : Vec F S4000x32 .f32) (x3 : Vec F S128x32 .f32) (x4 : Vec F S32 .f32) (x5 : Vec F S128x32 .f32) (x6 : Vec F S32 .f32) (x7 : Vec F S1x32 .f32) (x8 : Vec F S1x1 .f32) : Vec F S4000x1 .f32 :=
  View.canon [⟨r1_9, k1_pay1 (k1_pay3 (View.ld x0 r1_0) (View.ld x1 r1_1) (View.ld x2 r1_2) (View.ld x3 r1_3) (View.ld x5 r1_5) (View.ld x4 r1_4) (View.ld x6 r1_6)) (k1_pay4 (View.ld x8 r1_8)) (k1_pay5 (View.ld x7 r1_7))⟩]

/-- The one store covers the buffer. -/
theorem cover1_9 (p0 : Vec F S4000x1 .f32) (y : S4000x1.Idx) :
    ∃ pc ∈ ([⟨r1_9, p0⟩] : List (View.Piece (Elt F) S4000x1 .f32)), y ∈ pc.1.set :=
  View.cover_of_tiled [⟨r1_9, p0⟩] S4000x1.size (by rfl) y

/-- Output window 10's staging buffer after the body, as a function of the input blocks: its one whole-buffer store. -/
def out1_10 (x0 : Vec F S4000x128 .f32) (x1 : Vec F S4000x128 .f32) (x2 : Vec F S4000x32 .f32) (x3 : Vec F S128x32 .f32) (x4 : Vec F S32 .f32) (x5 : Vec F S128x32 .f32) (x6 : Vec F S32 .f32) (x7 : Vec F S1x32 .f32) (x8 : Vec F S1x1 .f32) : Vec F S4000x32 .f32 :=
  View.canon [⟨r1_10, k1_pay2 (View.ld x0 r1_0) (View.ld x1 r1_1) (View.ld x2 r1_2) (View.ld x3 r1_3) (View.ld x5 r1_5) (View.ld x4 r1_4) (View.ld x6 r1_6)⟩]

/-- The one store covers the buffer. -/
theorem cover1_10 (p0 : Vec F S4000x32 .f32) (y : S4000x32.Idx) :
    ∃ pc ∈ ([⟨r1_10, p0⟩] : List (View.Piece (Elt F) S4000x32 .f32)), y ∈ pc.1.set :=
  View.cover_of_tiled [⟨r1_10, p0⟩] S4000x32.size (by rfl) y

/-! ## The body's triple -/

set_option maxHeartbeats 4000000 in
/-- The kernel body on whole staging buffers — the inputs' at contents `xW`, the outputs' at anything — runs to the
    continuation with the inputs' unchanged and each output's at `out1_W` of the inputs'. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x32 .f32) (harg3 : arg3.IsWhole) (arg4 : Memref sig .tc .vmem S128x32 .f32) (harg4 : arg4.IsWhole) (arg5 : Memref sig .tc .vmem S32 .f32) (harg5 : arg5.IsWhole) (arg6 : Memref sig .tc .vmem S128x32 .f32) (harg6 : arg6.IsWhole) (arg7 : Memref sig .tc .vmem S32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S4000x1 .f32) (harg10 : arg10.IsWhole) (arg11 : Memref sig .tc .vmem S4000x32 .f32) (harg11 : arg11.IsWhole)
    (x0 : Vec F S4000x128 .f32) (x1 : Vec F S4000x128 .f32) (x2 : Vec F S4000x32 .f32) (x3 : Vec F S128x32 .f32) (x4 : Vec F S32 .f32) (x5 : Vec F S128x32 .f32) (x6 : Vec F S32 .f32) (x7 : Vec F S1x32 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8) ∗ owns (c : Thread nD τ) arg11 fullShare (out1_10 x0 x1 x2 x3 x4 x5 x6 x7 x8)) -∗ K ⟨⟩))
      ⊢ wp frame (wpE (defs₀ (F := F)) Variants.none c none) E (cc1__kernelB_body i arg1 harg1 arg2 harg2 arg3 harg3 arg4 harg4 arg5 harg5 arg6 harg6 arg7 harg7 arg8 harg8 arg9 harg9 arg10 harg10 arg11 harg11) K := by
  simp only [cc1__kernelB_body_eq_skeleton]; unfold cc1__kernelB_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover1_9 _)
  iexists _; isplitr
  swap; · iexact H10
  ipureintro
  try dsimp only
  exact View.read_writes_eq_canon _ _ _ (cover1_10 _)

/-! ## The pipeline's proof data -/

/-- The proof data of this pipeline on core `c`: the arrays as the region finds them; after the body at point `t` each
    input's buffer at its block and each output's at `out1_W` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.IdealSide.TwoRegionRun.lean ====
/-
  The whole run of @main through its two kernel regions, at any float family: five stretches of host operations, the
  reset-gate region, one more stretch, the update/candidate region. The buffer contents at every boundary are a fold from
  the launch memory: a host stretch applies its operations; a region leaves each of its arrays at what its pipeline's
  write-backs leave (inputs as entered, each output the blocks the body stored, folded over the grid) and every other
  buffer as entered. Every weakly fair execution terminates without a fault with EVERY unscoped buffer at the last
  boundary's contents (`run_all`); the ten argument arrays are read back through the fold to the launch memory
  (`W8_main_argK`: no host operation writes one, and a region only reads one), which is the frame (`frame`).
-/
import proofs.«118658_j79585743995076_2_alg».proof.Proof.IdealSide.ResetGate
import proofs.«118658_j79585743995076_2_alg».proof.Proof.IdealSide.UpdateGate
import proofs.«118658_j79585743995076_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The contents the reset-gate region is entered from (after the five host stretches), read at the TensorCore's references. -/
abbrev E5 : (c : Dev nD) → (b : Ref sig .tc) → Buf (Elt F) ((c : Thread nD τ).loc b) := fun c b => Gen.V5 m c b
/-- At region 0's exit: its arrays at what the pipeline leaves (inputs as entered, each output's write-backs folded over the
    grid), every other buffer as entered. -/
def W6 (c : Dev nD) : Valuation τ sig (Elt F) :=
  Pipeline.withArrays spec0 c (Gen.V5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = (Gen.V5 m c) (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After the host stretch between the regions (the update/candidate region's entry). -/
abbrev W7 : Dev nD → Valuation τ sig (Elt F) := fun c => StableHlo.after hostOps1 (W6 m c)
abbrev E7 : (c : Dev nD) → (b : Ref sig .tc) → Buf (Elt F) ((c : Thread nD τ).loc b) := fun c b => W7 m c b

/-- At region 1's exit: its arrays at what the pipeline leaves (inputs as entered, each output's write-backs folded over the
    grid), every other buffer as entered. -/
def W8 (c : Dev nD) : Valuation τ sig (Elt F) :=
  Pipeline.withArrays spec1 c (W7 m c) fun w => (dat1 (E7 m) c).arrAt w cfg1.N
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = (W7 m c) (Proc.devRef .tc b) := by
  unfold W8; exact Pipeline.withArrays_of_ne spec1 c _ _ b hb
abbrev E8 : (c : Dev nD) → (b : Ref sig .tc) → Buf (Elt F) ((c : Thread nD τ).loc b) := fun c b => W8 m c b
theorem hF1 (c : Dev nD) (w : Fin cfg1.W) : (dat1 (E7 m) c).arrAt w cfg1.N = E8 m c (Pipeline.arrRef spec1 w) :=
  (W8_arr m c w).symm
theorem hrest1 (c : Dev nD) : ∀ b, b ∉ Finset.univ.image (Pipeline.arrRef spec1) → E8 m c b = E7 m c b :=
  fun b hb => W8_of_ne m c b fun w e => hb (Finset.mem_image.mpr ⟨w, Finset.mem_univ _, e⟩)

/-! ## The argument arrays end as launched -/

theorem W8_main_arg0 (c : Dev nD) : W8 m c (Proc.devRef .tc main_arg0) = m ((c : Thread nD τ).loc main_arg0) :=
  (W8_of_ne m c main_arg0 (by decide)).trans <| (StableHlo.after_of_writes_sub hostOps1 _ Gen.hostOps1_writes (by decide : main_arg0 ∉ Gen.hostOps1_W)).trans <|
    (W6_of_ne m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W8_main_arg1 (c : Dev nD) : W8 m c (Proc.devRef .tc main_arg1) = m ((c : Thread nD τ).loc main_arg1) :=
  (W8_of_ne m c main_arg1 (by decide)).trans <| (StableHlo.after_of_writes_sub hostOps1 _ Gen.hostOps1_writes (by decide : main_arg1 ∉ Gen.hostOps1_W)).trans <|
    (W6_of_ne m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W8_main_arg2 (c : Dev nD) : W8 m c (Proc.devRef .tc main_arg2) = m ((c : Thread nD τ).loc main_arg2) :=
  (W8_of_ne m c main_arg2 (by decide)).trans <| (StableHlo.after_of_writes_sub hostOps1 _ Gen.hostOps1_writes (by decide : main_arg2 ∉ Gen.hostOps1_W)).trans <|
    (W6_of_ne m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W8_main_arg3 (c : Dev nD) : W8 m c (Proc.devRef .tc main_arg3) = m ((c : Thread nD τ).loc main_arg3) :=
  ((W8_arr m c 2).trans (((dat1 (E7 m) c).arrAt_in 2 rfl _).trans (A_eq1 (E7 m) c 2))).trans <|
    (StableHlo.after_of_writes_sub hostOps1 _ Gen.hostOps1_writes (by decide : main_arg3 ∉ Gen.hostOps1_W)).trans <|
    ((W6_arr m c 1).trans (((dat0 (E5 m) c).arrAt_in 1 rfl _).trans (A_eq0 (E5 m) c 1))).trans <| (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W8_main_arg4 (c : Dev nD) : W8 m c (Proc.devRef .tc main_arg4) = m ((c : Thread nD τ).loc main_arg4) :=
  (W8_of_ne m c main_arg4 (by decide)).trans <| (StableHlo.after_of_writes_sub hostOps1 _ Gen.hostOps1_writes (by decide : main_arg4 ∉ Gen.hostOps1_W)).trans <|
    (W6_of_ne m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem W8_main_arg5 (c : Dev nD) : W8 m c (Proc.devRef .tc main_arg5) = m ((c : Thread nD τ).loc main_arg5) :=
  (W8_of_ne m c main_arg5 (by decide)).trans <| (StableHlo.after_of_writes_sub hostOps1 _ Gen.hostOps1_writes (by decide : main_arg5 ∉ Gen.hostOps1_W)).trans <|
    (W6_of_ne m c main_arg5 (by decide)).trans <| (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl
theorem W8_main_arg6 (c : Dev nD) : W8 m c (Proc.devRef .tc main_arg6) = m ((c : Thread nD τ).loc main_arg6) :=
  (W8_of_ne m c main_arg6 (by decide)).trans <| (StableHlo.after_of_writes_sub hostOps1 _ Gen.hostOps1_writes (by decide : main_arg6 ∉ Gen.hostOps1_W)).trans <|
    (W6_of_ne m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide)).trans rfl
theorem W8_main_arg7 (c : Dev nD) : W8 m c (Proc.devRef .tc main_arg7) = m ((c : Thread nD τ).loc main_arg7) :=
  (W8_of_ne m c main_arg7 (by decide)).trans <| (StableHlo.after_of_writes_sub hostOps1 _ Gen.hostOps1_writes (by decide : main_arg7 ∉ Gen.hostOps1_W)).trans <|
    (W6_of_ne m c main_arg7 (by decide)).trans <| (Gen.V5_of m c main_arg7 (by decide)).trans <| (Gen.V4_of m c main_arg7 (by decide)).trans <| (Gen.V3_of m c main_arg7 (by decide)).trans <| (Gen.V2_of m c main_arg7 (by decide)).trans <| (Gen.V1_of m c main_arg7 (by decide)).trans rfl
theorem W8_main_arg8 (c : Dev nD) : W8 m c (Proc.devRef .tc main_arg8) = m ((c : Thread nD τ).loc main_arg8) :=
  (W8_of_ne m c main_arg8 (by decide)).trans <| (StableHlo.after_of_writes_sub hostOps1 _ Gen.hostOps1_writes (by decide : main_arg8 ∉ Gen.hostOps1_W)).trans <|
    (W6_of_ne m c main_arg8 (by decide)).trans <| (Gen.V5_of m c main_arg8 (by decide)).trans <| (Gen.V4_of m c main_arg8 (by decide)).trans <| (Gen.V3_of m c main_arg8 (by decide)).trans <| (Gen.V2_of m c main_arg8 (by decide)).trans <| (Gen.V1_of m c main_arg8 (by decide)).trans rfl
theorem W8_main_arg9 (c : Dev nD) : W8 m c (Proc.devRef .tc main_arg9) = m ((c : Thread nD τ).loc main_arg9) :=
  (W8_of_ne m c main_arg9 (by decide)).trans <| (StableHlo.after_of_writes_sub hostOps1 _ Gen.hostOps1_writes (by decide : main_arg9 ∉ Gen.hostOps1_W)).trans <|
    (W6_of_ne m c main_arg9 (by decide)).trans <| (Gen.V5_of m c main_arg9 (by decide)).trans <| (Gen.V4_of m c main_arg9 (by decide)).trans <| (Gen.V3_of m c main_arg9 (by decide)).trans <| (Gen.V2_of m c main_arg9 (by decide)).trans <| (Gen.V1_of m c main_arg9 (by decide)).trans rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) Gen.adm p) c
  | ⟨0, _⟩ => fun c => dat0 (E5 m) c
  | ⟨1, _⟩ => fun c => dat1 (E7 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment: from the unscoped buffers at `W` to them at `StableHlo.after ops (W c)`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: its arrays split out of the unscoped buffers at entry and put back at the exit contents;
    the generator register into the pipeline's invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit contents;
    the generator register into the pipeline's invariant and out; nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .host (hseg hostOps1 hostOps1_sub Gen.hostOps1_fresh (W6 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and in every final
    state each core holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The frame: every execution terminates and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

end Cert.KernelIdeal.Run

end
-- ==== Proof.LibRows.lean ====
/-
  Row-by-row readings of two-axis arrays, for any sizes.

  A dense layer with a per-row normalisation touches an `n × b` array one row at a time: a product with a weight
  matrix (entry `(p, c)` is the sum over `q` of row `p` at `q` times the weight at `(q, c)`), a sum along each row,
  a per-row number broadcast back along its row, a per-column vector broadcast down the rows. Each lemma below reads
  one of these operations at an entry `(p, c)`, in the kernel's spelling (matmul into a zero accumulator, a lane
  reduction, vector broadcasts) and in the host's (a reduce with an initial value, broadcast-in-dim).
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Lib.Rows

open Idealize.ShloMosaic Idealize.ShloMosaic.ValueIdx

variable {α : Type}

/-! ## Products -/

/-- An `m × k` by `k × n` matrix product accumulated into zero reads, at `(a, b)`, the sum over the contracted
    coordinate of the products of the entries: the same sum the host's product of the two matrices is. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Sums along a row -/

/-- The index of an `n × k` array over row `a` with the column `c` put back. -/
theorem lift_row {n k : ℕ} (h : (⟨2, ![n, k]⟩ : Shape).Reduces [1] ⟨1, ![n]⟩) (a : Fin n) (c : Fin k) :
    h.lift (ix1 a) c = ix2 a c := by
  funext ax; apply Fin.ext
  match ax with
  | ⟨0, _⟩ => rfl
  | ⟨1, _⟩ => rfl

/-- A lane reduction of an `n × k` array along its rows reads, at row `a`, the sum of that row. -/
theorem rowSum_apply {n k : ℕ} {φ : FTy} (src : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (a : Fin n) :
    multiReduction .add [1] ⟨1, ![n]⟩ src acc h hφ hacc (ix1 a) = ∑ c : Fin k, src (ix2 a c) := by
  rw [Ideal.multiReduction_add_single]
  exact Finset.sum_congr rfl fun c _ => congrArg src (lift_row h a c)

/-- The same for an f32 lane sum from the zero word, with the accumulator's side condition spelt as a program prints it
    (the word equal to itself). -/
theorem rowSum_f32_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32) (a : Fin n) :
    multiReduction .add [1] ⟨1, ![n]⟩ src 0x00000000#32 h hφ hacc (ix1 a) = ∑ c : Fin k, src (ix2 a c) :=
  rowSum_apply src 0x00000000#32 h hφ hacc a

/-- The exact row sums themselves (what a lane sum denotes on the extended reals), read at row `a`. -/
theorem reduceAdd_rows_apply {n k : ℕ} (x : (⟨2, ![n, k]⟩ : Shape).Idx → EReal)
    (h : (⟨2, ![n, k]⟩ : Shape).Reduces [1] ⟨1, ![n]⟩) (a : Fin n) :
    Ideal.reduceAdd h x (ix1 a) = ∑ c : Fin k, x (ix2 a c) := by
  rw [Ideal.reduceAdd_single]
  exact Finset.sum_congr rfl fun c _ => congrArg x (lift_row h a c)

/-- The host's exact row sums from an initial value, read at row `a`. -/
theorem hostReduceAdd_rows_apply {n k : ℕ} (x : (⟨2, ![n, k]⟩ : Shape).Idx → EReal) (init : EReal)
    (h' : (⟨2, ![n, k]⟩ : Shape).ReducesTo [1] ⟨1, ![n]⟩)
    (h : (⟨2, ![n, k]⟩ : Shape).Reduces [1] ⟨1, ![n]⟩) (a : Fin n) :
    Ideal.hostReduceAdd h' x init (ix1 a) = init + ∑ c : Fin k, x (ix2 a c) := by
  rw [Ideal.hostReduceAdd_single h' h]
  exact congrArg (init + ·) (Finset.sum_congr rfl fun c _ => congrArg x (lift_row h a c))

/-- The host's sum of an `n × k` array along its rows reads, at row `a`, the initial value plus the sum of that row. -/
theorem hostRowSum_apply {n k : ℕ} {φ : FTy} {u : Shape} (x : FVec Ideal ⟨2, ![n, k]⟩ φ) (init : u.Idx → Ideal φ)
    (h' : (⟨2, ![n, k]⟩ : Shape).ReducesTo [1] ⟨1, ![n]⟩) (hu : 0 < u.numel)
    (h : (⟨2, ![n, k]⟩ : Shape).Reduces [1] ⟨1, ![n]⟩) (a : Fin n) :
    Host.reduceAdd x init h' hu (ix1 a) = init (Shape.Idx.first hu) + ∑ c : Fin k, x (ix2 a c) := by
  show Ideal.hostReduceAdd h' x (init (Shape.Idx.first hu)) (ix1 a) = _
  rw [Ideal.hostReduceAdd_single h' h]
  exact congrArg (init (Shape.Idx.first hu) + ·) (Finset.sum_congr rfl fun c _ => congrArg x (lift_row h a c))

/-! ## A per-row number broadcast along its row -/

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: an `a × 1` column broadcast in place (axes kept) to `a × b`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A per-column vector broadcast down the rows -/

/-- The host's spelling of one row over many: a `1 × b` row broadcast in place to `a × b` reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector made a `1 × b` row by a broadcast along a new leading axis reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar broadcast to any shape reads the scalar everywhere. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

end Cert.Lib.Rows

end
-- ==== Proof.IdealSide.GateRows.lean ====
/-
  The two kernel bodies' stored values read at an entry, over the extended reals (every float operation exact, a change of
  float format the identity). For a row tile of 4000 nodes:
  * the reset-gate body stores, at (p, q),  h(p,q) · σ( Σ_{k<128} P(p,k)·W(k,q) + b(q) );
  * the update/candidate body stores, at (p, q),  z · h(p,q) + (1 − z) · tanh( Σ_k P'(p,k)·W'(k,q) + b'(q) ) with
    z = σ( Σ_k P(p,k)·W(k,q) + b(q) );
  * and, at (p, 0), the soft-plus form of  Σ_{c<32} max(h'(p,c), 0)·w(0,c) + β(0,0).
  The matrix product into a zero accumulator is the plain sum over the contracted coordinate; the bias is a length-32
  vector made a 1×32 row and repeated down the rows; the read-out is a sum along the 32 lanes.
-/
import proofs.«118658_j79585743995076_2_alg».proof.Proof.Gen.KernelIdeal.Skeleton
import proofs.«118658_j79585743995076_2_alg».proof.Proof.LibRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The dimension numbers of both kernels' products: a 4000×128 block against a 128×32 weight. -/
abbrev gateDot := dot_S4000x128_S128x32_S4000x32_1_0_0_1_n_n

/-- The product into a zero accumulator, at (p, q): the sum over the 128 contracted coordinates. -/
theorem gate_matmul_apply (A : FVec Ideal S4000x128 .bf16) (B : FVec Ideal S128x32 .bf16) (p : Fin 4000) (q : Fin 32) :
    matmul gateDot none A B (constant S4000x32 .f32 0x00000000#32) (ix2 p q) = ∑ k : Fin 128, A (ix2 p k) * B (ix2 k q) := by
  show FloatOps.matmul gateDot none A B (constant S4000x32 .f32 0x00000000#32) (ix2 p q) = _
  rw [Ideal.matmul_constant_zero_apply, ← Equiv.sum_comp (ValueIdx.contrEquiv1 gateDot 128 rfl rfl).symm]
  refine Finset.sum_congr rfl fun k _ => ?_
  have hk := ValueIdx.contrEquiv1_symm_val gateDot 128 rfl rfl k
  have el : gateDot.lhsIdx (ix2 p q) ((ValueIdx.contrEquiv1 gateDot 128 rfl rfl).symm k) = ix2 p k := funext fun a => Fin.ext (by
    match a with
    | ⟨0, _⟩ =>
      show (gateDot.lhsIdx (ix2 p q) _ 0).val = p.val
      unfold DotDims.lhsIdx
      rw [dif_neg (show ¬(0 : Fin S4000x128.rank) ∈ gateDot.lhsBatch by decide), dif_pos (show (0 : Fin S4000x128.rank) ∈ gateDot.lhsNonContracting by decide)]
      rfl
    | ⟨1, _⟩ => exact (gateDot.lhsIdx_val_of_single rfl _ _).trans hk)
  have er : gateDot.rhsIdx (ix2 p q) ((ValueIdx.contrEquiv1 gateDot 128 rfl rfl).symm k) = ix2 k q := funext fun a => Fin.ext (by
    match a with
    | ⟨0, _⟩ => exact (gateDot.rhsIdx_val_of_single rfl _ _).trans hk
    | ⟨1, _⟩ =>
      show (gateDot.rhsIdx (ix2 p q) _ 1).val = q.val
      unfold DotDims.rhsIdx
      rw [dif_neg (show ¬(1 : Fin S128x32.rank) ∈ gateDot.rhsBatch by decide), dif_pos (show (1 : Fin S128x32.rank) ∈ gateDot.rhsNonContracting by decide)]
      rfl)
  rw [el, er]

/-- A length-32 bias made a 1×32 row and repeated down 4000 rows, at (p, q): the bias at q. -/
theorem bias_row_apply {α : Type} (v : S32.Idx → α) (h1 : S32.ShapeCasts S32) (h2 : S32.ShapeCasts S1x32) (h3 : S1x32.Broadcasts S4000x32)
    (p : Fin 4000) (q : Fin 32) :
    broadcastTo S4000x32 (shapeCast S1x32 (shapeCast S32 v h1) h2) h3 (ix2 p q) = v (ix1 q) := by
  rw [shapeCast_self]
  refine (broadcastTo_apply _ h3 (ix2 p q) (ix2 (0 : Fin 1) q) fun a => ?_).trans ?_
  · match a with
    | ⟨0, _⟩ => rfl
    | ⟨1, _⟩ => rfl
  · refine (shapeCast_addUnit_apply ![32] v h2 (ix2 (0 : Fin 1) q)).trans (congrArg v (funext fun a => ?_))
    match a with
    | ⟨0, _⟩ => rfl

/-- The reset-gate body's stored value at (p, q). -/
theorem resetPay_apply (x0 : Vec Ideal S4000x128 .f32) (x1 : Vec Ideal S4000x32 .f32) (x2 : Vec Ideal S128x32 .f32) (x3 : Vec Ideal S32 .f32)
    (p : Fin 4000) (q : Fin 32) :
    k0_pay1 x0 x1 x2 x3 (ix2 p q) = x1 (ix2 p q) * Ideal.logistic ((∑ k : Fin 128, x0 (ix2 p k) * x2 (ix2 k q)) + x3 (ix1 q)) := by
  unfold k0_pay1
  simp only [mulf, addf, logistic, Ideal.mulf_def, Ideal.addf_def, Ideal.logistic_def]
  rw [gate_matmul_apply, bias_row_apply]
  simp only [truncf, Ideal.truncf_def, shapeCast_self]

/-- The update gate z and the candidate pre-activation of the second body, then the new hidden state, at (p, q). -/
theorem hiddenPay_apply (P Pc : Vec Ideal S4000x128 .f32) (H : Vec Ideal S4000x32 .f32) (Wz Wc : Vec Ideal S128x32 .f32) (bz bc : Vec Ideal S32 .f32)
    (p : Fin 4000) (q : Fin 32) :
    k1_pay2 P Pc H Wz Wc bz bc (ix2 p q)
      = Ideal.logistic ((∑ k : Fin 128, P (ix2 p k) * Wz (ix2 k q)) + bz (ix1 q)) * H (ix2 p q)
        + ((Scalar.ofBits .f32 0x3F800000#32 : Ideal .f32) - Ideal.logistic ((∑ k : Fin 128, P (ix2 p k) * Wz (ix2 k q)) + bz (ix1 q)))
          * Ideal.tanh ((∑ k : Fin 128, Pc (ix2 p k) * Wc (ix2 k q)) + bc (ix1 q)) := by
  unfold k1_pay2
  simp only [mulf, addf, subf, logistic, tanh, broadcast, Ideal.mulf_def, Ideal.addf_def, Ideal.subf_def, Ideal.logistic_def, Ideal.tanh_def]
  rw [gate_matmul_apply, gate_matmul_apply, bias_row_apply, bias_row_apply]
  simp only [truncf, Ideal.truncf_def, shapeCast_self]

/-- The soft-plus form both programs end with, on one extended real: `max t 0 + log(1 + e^{-|t|})`, guarded by a
    comparison of `t - 0` with itself (the source's not-a-number test, which never fires on the extended reals). -/
def softplusForm (t : Ideal .f32) : Ideal .f32 :=
  Scalar.select (FloatOps.cmpf CmpFPredicate.one (t - FloatOps.ofBits .f32 0#32) (t - FloatOps.ofBits .f32 0#32))
    (t + FloatOps.ofBits .f32 0#32)
    (FloatOps.maximumf t (FloatOps.ofBits .f32 0#32)
      + FloatOps.log1p (FloatOps.exp (FloatOps.ofBits .f32 0#32 - FloatOps.absf (t - FloatOps.ofBits .f32 0#32))))

/-- A sum along the 32 lanes of a 4000×32 block, kept as a 4000×1 column, at (p, u): the sum of row p. -/
theorem lane_sum_col (v : FVec Ideal S4000x32 .f32) (hred : S4000x32.Reduces [1] S4000) (hφ : FKind.Formats .f32)
    (hacc : (0x00000000#32 : BitVec 32) = 0x00000000#32) (hsc : S4000.ShapeCasts S4000x1) (p : Fin 4000) (u : Fin 1) :
    shapeCast S4000x1 (multiReduction .add [1] S4000 v 0x00000000#32 hred hφ hacc) hsc (ix2 p u) = ∑ c : Fin 32, v (ix2 p c) := by
  refine (shapeCast_apply _ hsc (ix2 p u) (ix1 p) ?_).trans (Cert.Lib.Rows.rowSum_f32_apply v hred hφ hacc p)
  rw [Shape.rowMajor_val_one, Shape.rowMajor_val_two]
  have hu : u.val < 1 := u.isLt
  show p.val = p.val * 1 + u.val
  omega

/-- A 1×1 array repeated down a 4000×1 column, at (p, u): its one entry. -/
theorem one_bcast_apply {α : Type} (b : S1x1.Idx → α) (h : S1x1.Broadcasts S4000x1) (p : Fin 4000) (u : Fin 1) :
    broadcastTo S4000x1 b h (ix2 p u) = b (ix2 (0 : Fin 1) (0 : Fin 1)) := by
  refine broadcastTo_apply b h (ix2 p u) (ix2 (0 : Fin 1) (0 : Fin 1)) fun a => ?_
  match a with
  | ⟨0, _⟩ => rfl
  | ⟨1, _⟩ => rfl

/-- A 1×32 row repeated down 4000 rows, at (p, c): the row at c. -/
theorem row_bcast_apply {α : Type} (v : S1x32.Idx → α) (h1 : S1x32.ShapeCasts S1x32) (h : S1x32.Broadcasts S4000x32) (p : Fin 4000) (c : Fin 32) :
    broadcastTo S4000x32 (shapeCast S1x32 v h1) h (ix2 p c) = v (ix2 (0 : Fin 1) c) := by
  rw [shapeCast_self]
  refine broadcastTo_apply v h (ix2 p c) (ix2 (0 : Fin 1) c) fun a => ?_
  match a with
  | ⟨0, _⟩ => rfl
  | ⟨1, _⟩ => rfl

/-- The read-out the second body stores, at (p, u): the soft-plus form of the lane sum of R ⊙ w plus the 1×1 bias. -/
theorem outPay_apply (R : FVec Ideal S4000x32 .f32) (b : FVec Ideal S1x1 .f32) (w : FVec Ideal S4000x32 .f32) (p : Fin 4000) (u : Fin 1) :
    k1_pay1 R b w (ix2 p u) = softplusForm ((∑ c : Fin 32, R (ix2 p c) * w (ix2 p c)) + b (ix2 (0 : Fin 1) (0 : Fin 1))) := by
  unfold k1_pay1
  simp only [mulf, addf, subf, maximumf, absf, exp, log1p, select, cmpf, broadcast, Ideal.mulf_def, Ideal.addf_def, Ideal.subf_def]
  rw [lane_sum_col, one_bcast_apply]
  rfl

/-- The rectified new hidden state the read-out multiplies, at (p, c). -/
theorem reluPay_apply (P Pc : Vec Ideal S4000x128 .f32) (H : Vec Ideal S4000x32 .f32) (Wz Wc : Vec Ideal S128x32 .f32) (bz bc : Vec Ideal S32 .f32)
    (p : Fin 4000) (c : Fin 32) :
    k1_pay3 P Pc H Wz Wc bz bc (ix2 p c) = FloatOps.maximumf (k1_pay2 P Pc H Wz Wc bz bc (ix2 p c)) (FloatOps.ofBits .f32 0#32) := rfl

/-- The read-out row repeated down the rows, at (p, c). -/
theorem rowPay_apply (wl : Vec Ideal S1x32 .f32) (p : Fin 4000) (c : Fin 32) : k1_pay5 wl (ix2 p c) = wl (ix2 (0 : Fin 1) c) := by
  unfold k1_pay5
  exact row_bcast_apply wl _ _ p c

/-- The 1×1 read-out bias as the body holds it. -/
theorem biasPay_eq (bl : Vec Ideal S1x1 .f32) : k1_pay4 bl = bl := by
  unfold k1_pay4
  exact shapeCast_self bl _

end Cert.KernelIdeal.Val

end
-- ==== Proof.IdealSide.WholeArrays.lean ====
/-
  From blocks to whole arrays, over the extended reals. Each region's grid has 25 points; point t handles the row tile
  4000·t … 4000·t + 3999. An input or output block of a row-tiled array at point t sits at rows 4000·t + p; the stacked
  weights, the biases and the read-out row are whole-array blocks at every point. So what point t writes back is block t
  of ONE function of the region-entry arrays, row by row (the reset gate: `resetRows`; the new hidden state:
  `hiddenRows`; the read-out: `outRows`), the 25 row tiles cover the array, and the array after the region is that
  function.
-/
import proofs.«118658_j79585743995076_2_alg».proof.Proof.IdealSide.ResetGate
import proofs.«118658_j79585743995076_2_alg».proof.Proof.IdealSide.UpdateGate
import proofs.«118658_j79585743995076_2_alg».proof.Proof.IdealSide.GateRows
import Idealize.ShloMosaic.Lib.Pipeline.Value

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The reset-gate region -/

/-- h ⊙ σ(P·W + b), row by row, as one function of the whole arrays. -/
def resetRows (P : Vec Ideal S100000x128 .f32) (H : Vec Ideal S100000x32 .f32) (W : Vec Ideal S128x32 .f32) (b : Vec Ideal S32 .f32) :
    Vec Ideal S100000x32 .f32 :=
  fun i => H i * Ideal.logistic ((∑ k : Fin 128, P (ix2 (i 0) k) * W (ix2 k (i 1))) + b (ix1 (i 1)))

/-- The printed block index maps of the first pallas_call, decided over its 25 grid points. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The array row that row p of point t's tile is. -/
def rowOf0 (t : Fin cfg0.N) (p : Fin 4000) : Fin 100000 :=
  ⟨t.val * 4000 + p.val, by have h : t.val < 25 := lt_of_lt_of_eq t.isLt N_0; have := p.isLt; omega⟩

theorem blk0_P (c : Dev nD) (t : Fin cfg0.N) (p : Fin 4000) (k : Fin 128) :
    iblk0 V c 0 t (ix2 p k) = V c main_v47 (ix2 (rowOf0 t p) k) := by
  obtain ⟨e00, e01, -⟩ := idx_facts0 t
  show V c main_v47 (((cfg0.win 0).blk t).view.emb (ix2 p k)) = V c main_v47 (ix2 (rowOf0 t p) k)
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem blk0_H (c : Dev nD) (t : Fin cfg0.N) (p : Fin 4000) (q : Fin 32) :
    iblk0 V c 1 t (ix2 p q) = V c main_arg3 (ix2 (rowOf0 t p) q) := by
  obtain ⟨-, -, e10, e11, -⟩ := idx_facts0 t
  show V c main_arg3 (((cfg0.win 1).blk t).view.emb (ix2 p q)) = V c main_arg3 (ix2 (rowOf0 t p) q)
  refine congrArg _ (funext fun a => Fin.ext ?_)
  match a with
  | ⟨0, _⟩ => show win0_1.index t (0 : Fin 2) * 4000 + 1 * p.val = t.val * 4000 + p.val; omega
  | ⟨1, _⟩ => show win0_1.index t (1 : Fin 2) * 32 + 1 * q.val = q.val; omega

theorem blk0_W (c : Dev nD) (t : Fin cfg0.N) (k : Fin 128) (q : Fin 32) :
    iblk0 V c 2 t (ix2 k q) = V c main_v56 (ix2 k q) := by
  obtain ⟨-, -, -, -, e20, e21, -⟩ := idx_facts0 t
  show V c main_v56 (((cfg0.win 2).blk t).view.emb (ix2 k q)) = V c main_v56 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 32 + 1 * q.val = q.val; omega

theorem blk0_b (c : Dev nD) (t : Fin cfg0.N) (q : Fin 32) :
    iblk0 V c 3 t (ix1 q) = V c main_v61 (ix1 q) := by
  obtain ⟨-, -, -, -, -, -, e30, -⟩ := idx_facts0 t
  show V c main_v61 (((cfg0.win 3).blk t).view.emb (ix1 q)) = V c main_v61 (ix1 q)
  refine congrArg _ (funext fun a => Fin.ext ?_)
  match a with
  | ⟨0, _⟩ => show win0_3.index t (0 : Fin 1) * 32 + 1 * q.val = q.val; omega

theorem emb0_out (t : Fin cfg0.N) (p : Fin 4000) (q : Fin 32) :
    ((cfg0.win 4).blk t).view.emb (ix2 p q) = ix2 (rowOf0 t p) q := by
  obtain ⟨-, -, -, -, -, -, -, e40, e41⟩ := idx_facts0 t
  refine funext fun a => Fin.ext ?_
  match a with
  | ⟨0, _⟩ => show win0_4.index t (0 : Fin 2) * 4000 + 1 * p.val = t.val * 4000 + p.val; omega
  | ⟨1, _⟩ => show win0_4.index t (1 : Fin 2) * 32 + 1 * q.val = q.val; omega

/-- What point t writes back is block t of `resetRows` of the arrays the region is entered with. -/
theorem flushed_eq0 (c : Dev nD) (t : Fin cfg0.N) :
    (dat0 V c).flushed 4 t = ((cfg0.win 4).blk t).view.read (Elt Ideal)
      (resetRows (V c main_v47) (V c main_arg3) (V c main_v56) (V c main_v61)) := by
  show (cfg0.win 4).cut (grid0.coords t) ((dat0 V c).after 4 t) = _
  rw [after0_4]
  unfold out0_4
  rw [View.canon_unit_zero hz2]
  simp only [View.ld_unit_zero (S := S4000x128) hz2, View.ld_unit_zero (S := S4000x32) hz2, View.ld_unit_zero (S := S128x32) hz2,
    View.ld_unit_zero (S := S32) hz1]
  funext j
  obtain ⟨p, q, rfl⟩ : ∃ (p : Fin 4000) (q : Fin 32), j = ix2 p q := ⟨j 0, j 1, eq_ix2 j⟩
  refine (resetPay_apply (iblk0 V c 0 t) (iblk0 V c 1 t) (iblk0 V c 2 t) (iblk0 V c 3 t) p q).trans ?_
  show _ = resetRows _ _ _ _ (((cfg0.win 4).blk t).view.emb (ix2 p q))
  rw [emb0_out t p q]
  simp only [blk0_P V c t p, blk0_W V c t, blk0_H V c t p q, blk0_b V c t q]
  rfl

/-- Membership in point t's output block, coordinate by coordinate. -/
theorem mem_blk0 (t : Fin cfg0.N) (i : S100000x32.Idx) :
    i ∈ ((cfg0.win 4).blk t).view.set ↔ ∀ a : Fin 2, win0_4.index t a * S4000x32.size a ≤ (i a).val ∧ (i a).val < win0_4.index t a * S4000x32.size a + S4000x32.size a := by
  show i ∈ ((View.whole main_v62).slice (win0_4.rect t)).set ↔ _
  rw [View.set_slice_whole, Rect.mem_set_unit]
  exact Iff.rfl

/-- The 25 row tiles cover the array. -/
theorem cover0 (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  let t : Fin cfg0.N := ⟨(i 0).val / 4000, by rw [show cfg0.N = 25 from N_0]; omega⟩
  obtain ⟨-, -, -, -, -, -, -, e40, e41⟩ := idx_facts0 t
  refine ⟨t, flush0_4 t, (mem_blk0 t i).mpr fun a => ?_⟩
  have ht : t.val = (i 0).val / 4000 := rfl
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 32 ≤ (i 1).val ∧ (i 1).val < win0_4.index t (1 : Fin 2) * 32 + 32; omega

/-- The reset-gate array after the region. -/
theorem final0 (c : Dev nD) : (dat0 V c).arrAt 4 cfg0.N = resetRows (V c main_v47) (V c main_arg3) (V c main_v56) (V c main_v61) :=
  (dat0 V c).arrAt_eq_of_cover 4 _ (fun t _ => flushed_eq0 V c t) cover0

/-! ## The update/candidate region -/

/-- h' = z ⊙ h + (1 − z) ⊙ tanh(P'·W' + b') with z = σ(P·W + b), row by row, as one function of the whole arrays. -/
def hiddenRows (P Pc : Vec Ideal S100000x128 .f32) (H : Vec Ideal S100000x32 .f32) (Wz Wc : Vec Ideal S128x32 .f32) (bz bc : Vec Ideal S32 .f32) :
    Vec Ideal S100000x32 .f32 :=
  fun i => Ideal.logistic ((∑ k : Fin 128, P (ix2 (i 0) k) * Wz (ix2 k (i 1))) + bz (ix1 (i 1))) * H i
    + ((Scalar.ofBits .f32 0x3F800000#32 : Ideal .f32) - Ideal.logistic ((∑ k : Fin 128, P (ix2 (i 0) k) * Wz (ix2 k (i 1))) + bz (ix1 (i 1))))
      * Ideal.tanh ((∑ k : Fin 128, Pc (ix2 (i 0) k) * Wc (ix2 k (i 1))) + bc (ix1 (i 1)))

/-- The read-out: the soft-plus form of max(h', 0)·w + β, row by row. -/
def outRows (Hn : S100000x32.Idx → Ideal .f32) (wl : S1x32.Idx → Ideal .f32) (bl : S1x1.Idx → Ideal .f32) : S100000x1.Idx → Ideal .f32 :=
  fun i => softplusForm ((∑ c : Fin 32, FloatOps.maximumf (F := Ideal) (Hn (ix2 (i 0) c)) (FloatOps.ofBits .f32 0#32) * wl (ix2 (0 : Fin 1) c))
    + bl (ix2 (0 : Fin 1) (0 : Fin 1)))

/-- The array row that row p of point t's tile is. -/
def rowOf1 (t : Fin cfg1.N) (p : Fin 4000) : Fin 100000 :=
  ⟨t.val * 4000 + p.val, by have h : t.val < 25 := lt_of_lt_of_eq t.isLt N_1; have := p.isLt; omega⟩

/-! The printed block index maps of the second pallas_call, decided over its 25 grid points. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_4 : ∀ t : Fin cfg1.N, win1_4.index t (0 : Fin 1) = 0 :=
  (by decide +kernel : ∀ t : Fin grid1.N, _)
theorem idx1_6 : ∀ t : Fin cfg1.N, win1_6.index t (0 : Fin 1) = 0 :=
  (by decide +kernel : ∀ t : Fin grid1.N, _)

theorem blk1_0 (c : Dev nD) (t : Fin cfg1.N) (p : Fin 4000) (k : Fin 128) :
    iblk1 V c 0 t (ix2 p k) = V c main_v47 (ix2 (rowOf1 t p) k) := by
  obtain ⟨e0, e1⟩ := idx1_0 t
  show V c main_v47 (((cfg1.win 0).blk t).view.emb (ix2 p k)) = V c main_v47 (ix2 (rowOf1 t p) k)
  refine congrArg _ (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

theorem blk1_1 (c : Dev nD) (t : Fin cfg1.N) (p : Fin 4000) (k : Fin 128) :
    iblk1 V c 1 t (ix2 p k) = V c main_v76 (ix2 (rowOf1 t p) k) := by
  obtain ⟨e0, e1⟩ := idx1_1 t
  show V c main_v76 (((cfg1.win 1).blk t).view.emb (ix2 p k)) = V c main_v76 (ix2 (rowOf1 t p) k)
  refine congrArg _ (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * k.val = k.val; omega

theorem blk1_2 (c : Dev nD) (t : Fin cfg1.N) (p : Fin 4000) (k : Fin 32) :
    iblk1 V c 2 t (ix2 p k) = V c main_arg3 (ix2 (rowOf1 t p) k) := by
  obtain ⟨e0, e1⟩ := idx1_2 t
  show V c main_arg3 (((cfg1.win 2).blk t).view.emb (ix2 p k)) = V c main_arg3 (ix2 (rowOf1 t p) k)
  refine congrArg _ (funext fun a => Fin.ext ?_)
  match a with
  | ⟨0, _⟩ => show win1_2.index t (0 : Fin 2) * 4000 + 1 * p.val = t.val * 4000 + p.val; omega
  | ⟨1, _⟩ => show win1_2.index t (1 : Fin 2) * 32 + 1 * k.val = k.val; omega

theorem blk1_3 (c : Dev nD) (t : Fin cfg1.N) (k : Fin 128) (q : Fin 32) :
    iblk1 V c 3 t (ix2 k q) = V c main_v85 (ix2 k q) := by
  obtain ⟨e0, e1⟩ := idx1_3 t
  show V c main_v85 (((cfg1.win 3).blk t).view.emb (ix2 k q)) = V c main_v85 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 32 + 1 * q.val = q.val; omega

theorem blk1_5 (c : Dev nD) (t : Fin cfg1.N) (k : Fin 128) (q : Fin 32) :
    iblk1 V c 5 t (ix2 k q) = V c main_v99 (ix2 k q) := by
  obtain ⟨e0, e1⟩ := idx1_5 t
  show V c main_v99 (((cfg1.win 5).blk t).view.emb (ix2 k q)) = V c main_v99 (ix2 k q)
  refine congrArg _ (funext fun a => Fin.ext ?_)
  match a with
  | ⟨0, _⟩ => show win1_5.index t (0 : Fin 2) * 128 + 1 * k.val = k.val; omega
  | ⟨1, _⟩ => show win1_5.index t (1 : Fin 2) * 32 + 1 * q.val = q.val; omega

theorem blk1_7 (c : Dev nD) (t : Fin cfg1.N) (k : Fin 1) (q : Fin 32) :
    iblk1 V c 7 t (ix2 k q) = V c main_v105 (ix2 k q) := by
  obtain ⟨e0, e1⟩ := idx1_7 t
  show V c main_v105 (((cfg1.win 7).blk t).view.emb (ix2 k q)) = V c main_v105 (ix2 k q)
  refine congrArg _ (funext fun a => Fin.ext ?_)
  match a with
  | ⟨0, _⟩ => show win1_7.index t (0 : Fin 2) * 1 + 1 * k.val = k.val; omega
  | ⟨1, _⟩ => show win1_7.index t (1 : Fin 2) * 32 + 1 * q.val = q.val; omega

theorem blk1_8 (c : Dev nD) (t : Fin cfg1.N) (k : Fin 1) (q : Fin 1) :
    iblk1 V c 8 t (ix2 k q) = V c main_v106 (ix2 k q) := by
  obtain ⟨e0, e1⟩ := idx1_8 t
  show V c main_v106 (((cfg1.win 8).blk t).view.emb (ix2 k q)) = V c main_v106 (ix2 k q)
  refine congrArg _ (funext fun a => Fin.ext ?_)
  match a with
  | ⟨0, _⟩ => show win1_8.index t (0 : Fin 2) * 1 + 1 * k.val = k.val; omega
  | ⟨1, _⟩ => show win1_8.index t (1 : Fin 2) * 1 + 1 * q.val = q.val; omega

theorem blk1_4 (c : Dev nD) (t : Fin cfg1.N) (q : Fin 32) :
    iblk1 V c 4 t (ix1 q) = V c main_v90 (ix1 q) := by
  have e0 := idx1_4 t
  show V c main_v90 (((cfg1.win 4).blk t).view.emb (ix1 q)) = V c main_v90 (ix1 q)
  refine congrArg _ (funext fun a => Fin.ext ?_)
  match a with
  | ⟨0, _⟩ => show win1_4.index t (0 : Fin 1) * 32 + 1 * q.val = q.val; omega

theorem blk1_6 (c : Dev nD) (t : Fin cfg1.N) (q : Fin 32) :
    iblk1 V c 6 t (ix1 q) = V c main_v104 (ix1 q) := by
  have e0 := idx1_6 t
  show V c main_v104 (((cfg1.win 6).blk t).view.emb (ix1 q)) = V c main_v104 (ix1 q)
  refine congrArg _ (funext fun a => Fin.ext ?_)
  match a with
  | ⟨0, _⟩ => show win1_6.index t (0 : Fin 1) * 32 + 1 * q.val = q.val; omega

theorem emb1_9 (t : Fin cfg1.N) (p : Fin 4000) (q : Fin 1) :
    ((cfg1.win 9).blk t).view.emb (ix2 p q) = ix2 (rowOf1 t p) q := by
  obtain ⟨e0, e1⟩ := idx1_9 t
  refine funext fun a => Fin.ext ?_
  match a with
  | ⟨0, _⟩ => show win1_9.index t (0 : Fin 2) * 4000 + 1 * p.val = t.val * 4000 + p.val; omega
  | ⟨1, _⟩ => show win1_9.index t (1 : Fin 2) * 1 + 1 * q.val = q.val; omega

theorem emb1_10 (t : Fin cfg1.N) (p : Fin 4000) (q : Fin 32) :
    ((cfg1.win 10).blk t).view.emb (ix2 p q) = ix2 (rowOf1 t p) q := by
  obtain ⟨e0, e1⟩ := idx1_10 t
  refine funext fun a => Fin.ext ?_
  match a with
  | ⟨0, _⟩ => show win1_10.index t (0 : Fin 2) * 4000 + 1 * p.val = t.val * 4000 + p.val; omega
  | ⟨1, _⟩ => show win1_10.index t (1 : Fin 2) * 32 + 1 * q.val = q.val; omega

/-- The second body's hidden-state value at row p of point t's tile is `hiddenRows` at the array row. -/
theorem hidden_at (c : Dev nD) (t : Fin cfg1.N) (p : Fin 4000) (q : Fin 32) :
    k1_pay2 (iblk1 V c 0 t) (iblk1 V c 1 t) (iblk1 V c 2 t) (iblk1 V c 3 t) (iblk1 V c 5 t) (iblk1 V c 4 t) (iblk1 V c 6 t) (ix2 p q) = hiddenRows (V c main_v47) (V c main_v76) (V c main_arg3) (V c main_v85) (V c main_v99) (V c main_v90) (V c main_v104) (ix2 (rowOf1 t p) q) := by
  refine (hiddenPay_apply (iblk1 V c 0 t) (iblk1 V c 1 t) (iblk1 V c 2 t) (iblk1 V c 3 t) (iblk1 V c 5 t) (iblk1 V c 4 t) (iblk1 V c 6 t) p q).trans ?_
  simp only [blk1_0 V c t p, blk1_1 V c t p, blk1_2 V c t p q, blk1_3 V c t, blk1_5 V c t, blk1_4 V c t q, blk1_6 V c t q]
  rfl

/-- What point t writes back into the hidden-state array is block t of `hiddenRows`. -/
theorem flushed_eq1_10 (c : Dev nD) (t : Fin cfg1.N) :
    (dat1 V c).flushed 10 t = ((cfg1.win 10).blk t).view.read (Elt Ideal) (hiddenRows (V c main_v47) (V c main_v76) (V c main_arg3) (V c main_v85) (V c main_v99) (V c main_v90) (V c main_v104)) := by
  show (cfg1.win 10).cut (grid1.coords t) ((dat1 V c).after 10 t) = _
  rw [after1_10]
  unfold out1_10
  rw [View.canon_unit_zero hz2]
  simp only [View.ld_unit_zero (S := S4000x128) hz2, View.ld_unit_zero (S := S4000x32) hz2, View.ld_unit_zero (S := S128x32) hz2,
    View.ld_unit_zero (S := S32) hz1]
  funext j
  obtain ⟨p, q, rfl⟩ : ∃ (p : Fin 4000) (q : Fin 32), j = ix2 p q := ⟨j 0, j 1, eq_ix2 j⟩
  refine (hidden_at V c t p q).trans ?_
  show _ = hiddenRows _ _ _ _ _ _ _ (((cfg1.win 10).blk t).view.emb (ix2 p q))
  rw [emb1_10 t p q]

/-- What point t writes back into the read-out array is block t of `outRows` of `hiddenRows`. -/
theorem flushed_eq1_9 (c : Dev nD) (t : Fin cfg1.N) :
    (dat1 V c).flushed 9 t = ((cfg1.win 9).blk t).view.read (Elt Ideal)
      (outRows (hiddenRows (V c main_v47) (V c main_v76) (V c main_arg3) (V c main_v85) (V c main_v99) (V c main_v90) (V c main_v104)) (V c main_v105) (V c main_v106)) := by
  show (cfg1.win 9).cut (grid1.coords t) ((dat1 V c).after 9 t) = _
  rw [after1_9]
  unfold out1_9
  rw [View.canon_unit_zero hz2]
  simp only [View.ld_unit_zero (S := S4000x128) hz2, View.ld_unit_zero (S := S4000x32) hz2, View.ld_unit_zero (S := S128x32) hz2,
    View.ld_unit_zero (S := S32) hz1, View.ld_unit_zero (S := S1x32) hz2, View.ld_unit_zero (S := S1x1) hz2]
  funext j
  obtain ⟨p, u, rfl⟩ : ∃ (p : Fin 4000) (u : Fin 1), j = ix2 p u := ⟨j 0, j 1, eq_ix2 j⟩
  refine (outPay_apply _ _ _ p u).trans ?_
  show _ = outRows _ _ _ (((cfg1.win 9).blk t).view.emb (ix2 p u))
  rw [emb1_9 t p u]
  simp only [reluPay_apply, hidden_at V c t p, rowPay_apply, biasPay_eq, blk1_7 V c t, blk1_8 V c t]
  rfl

theorem mem_blk1_10 (t : Fin cfg1.N) (i : S100000x32.Idx) :
    i ∈ ((cfg1.win 10).blk t).view.set ↔ ∀ a : Fin 2, win1_10.index t a * S4000x32.size a ≤ (i a).val ∧ (i a).val < win1_10.index t a * S4000x32.size a + S4000x32.size a := by
  show i ∈ ((View.whole main_v107_1).slice (win1_10.rect t)).set ↔ _
  rw [View.set_slice_whole, Rect.mem_set_unit]
  exact Iff.rfl

theorem cover1_10' (i : S100000x32.Idx) : ∃ t : Fin cfg1.N, (cfg1.win 10).flush t = true ∧ i ∈ ((cfg1.win 10).blk t).view.set := by
  have hi0 : (i 0).val < 100000 := (i 0).isLt
  have hi1 : (i 1).val < 32 := (i 1).isLt
  let t : Fin cfg1.N := ⟨(i 0).val / 4000, by rw [show cfg1.N = 25 from N_1]; omega⟩
  obtain ⟨e0, e1⟩ := idx1_10 t
  refine ⟨t, flush1_10 t, (mem_blk1_10 t i).mpr fun a => ?_⟩
  have ht : t.val = (i 0).val / 4000 := rfl
  match a with
  | ⟨0, _⟩ => show win1_10.index t (0 : Fin 2) * 4000 ≤ (i 0).val ∧ (i 0).val < win1_10.index t (0 : Fin 2) * 4000 + 4000; omega
  | ⟨1, _⟩ => show win1_10.index t (1 : Fin 2) * 32 ≤ (i 1).val ∧ (i 1).val < win1_10.index t (1 : Fin 2) * 32 + 32; omega

theorem mem_blk1_9 (t : Fin cfg1.N) (i : S100000x1.Idx) :
    i ∈ ((cfg1.win 9).blk t).view.set ↔ ∀ a : Fin 2, win1_9.index t a * S4000x1.size a ≤ (i a).val ∧ (i a).val < win1_9.index t a * S4000x1.size a + S4000x1.size a := by
  show i ∈ ((View.whole main_v107_0).slice (win1_9.rect t)).set ↔ _
  rw [View.set_slice_whole, Rect.mem_set_unit]
  exact Iff.rfl

theorem cover1_9' (i : S100000x1.Idx) : ∃ t : Fin cfg1.N, (cfg1.win 9).flush t = true ∧ i ∈ ((cfg1.win 9).blk t).view.set := by
  have hi0 : (i 0).val < 100000 := (i 0).isLt
  have hi1 : (i 1).val < 1 := (i 1).isLt
  let t : Fin cfg1.N := ⟨(i 0).val / 4000, by rw [show cfg1.N = 25 from N_1]; omega⟩
  obtain ⟨e0, e1⟩ := idx1_9 t
  refine ⟨t, flush1_9 t, (mem_blk1_9 t i).mpr fun a => ?_⟩
  have ht : t.val = (i 0).val / 4000 := rfl
  match a with
  | ⟨0, _⟩ => show win1_9.index t (0 : Fin 2) * 4000 ≤ (i 0).val ∧ (i 0).val < win1_9.index t (0 : Fin 2) * 4000 + 4000; omega
  | ⟨1, _⟩ => show win1_9.index t (1 : Fin 2) * 1 ≤ (i 1).val ∧ (i 1).val < win1_9.index t (1 : Fin 2) * 1 + 1; omega

/-- The hidden-state array after the region. -/
theorem final1_10 (c : Dev nD) : (dat1 V c).arrAt 10 cfg1.N = hiddenRows (V c main_v47) (V c main_v76) (V c main_arg3) (V c main_v85) (V c main_v99) (V c main_v90) (V c main_v104) :=
  (dat1 V c).arrAt_eq_of_cover 10 _ (fun t _ => flushed_eq1_10 V c t) cover1_10'

/-- The read-out array after the region. -/
theorem final1_9 (c : Dev nD) : (dat1 V c).arrAt 9 cfg1.N = outRows (hiddenRows (V c main_v47) (V c main_v76) (V c main_arg3) (V c main_v85) (V c main_v99) (V c main_v90) (V c main_v104)) (V c main_v105) (V c main_v106) :=
  (dat1 V c).arrAt_eq_of_cover 9 _ (fun t _ => flushed_eq1_9 V c t) cover1_9'

end Cert.KernelIdeal.Val

end
-- ==== Proof.IdealSide.KernelValues.lean ====
/-
  The idealized kernel program's run with its two results named: from any launch memory every weakly fair execution
  terminates, the new hidden state holds `hiddenRows` and the read-out holds `outRows` of it — both as functions of the
  buffer contents the second region is entered with (the packed row blocks, h, the stacked weights, the biases, the read-out
  row and its bias, each what the host operations before it computed) — and the ten arguments end as launched.
-/
import proofs.«118658_j79585743995076_2_alg».proof.Proof.IdealSide.TwoRegionRun
import proofs.«118658_j79585743995076_2_alg».proof.Proof.IdealSide.WholeArrays

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.ValueIdx Idealize.SL.Sem

variable (m : (ℓ : Loc nD τ sig) → Buf (Elt Ideal) ℓ) (ρ : Dev nD → PrngReg)

/-- The new hidden state, as a function of what the second region is entered with. -/
def hiddenK (c : Dev nD) : Vec Ideal S100000x32 .f32 :=
  hiddenRows (E7 m c main_v47) (E7 m c main_v76) (E7 m c main_arg3) (E7 m c main_v85) (E7 m c main_v99) (E7 m c main_v90) (E7 m c main_v104)

/-- The read-out, as a function of what the second region is entered with. -/
def outK (c : Dev nD) : S100000x1.Idx → Ideal .f32 :=
  outRows (hiddenK m c) (E7 m c main_v105) (E7 m c main_v106)

theorem run_values : θ_run defs (onTc (τ := τ) (main (F := Ideal))) ⟨m, fun _ => 0, ρ⟩ (fun r => ∀ c : Dev nD,
      r.2.mem ((c.tc : Thread nD τ).loc main_v107_0) = outK m c
      ∧ r.2.mem ((c.tc : Thread nD τ).loc main_v107_1) = hiddenK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_v107_0 (by decide))).trans ((W8_arr m c 9).trans (final1_9 (E7 m) c)),
    (h c _ (mem_uc main_v107_1 (by decide))).trans ((W8_arr m c 10).trans (final1_10 (E7 m) c)),
    (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all (F := Ideal) m ρ)

end Cert.KernelIdeal.Val

end
-- ==== Proof.IdealSide.SharedPrefix.lean ====
/-
  The two programs' shared beginning: the source and target index vectors, the weighted degree, its guarded inverse square
  root and the scaled-Laplacian edge coefficient -(d^{-1/2}[src] · w · d^{-1/2}[dst]) are computed by the same host
  operations in the kernel program and in the reference. Stretch by stretch of the kernel program's host operations, each
  buffer holds the reference's own term of the same arguments; the only symbols that differ are the two programs' names for
  one gather / scatter dimension record.
-/
import proofs.«118658_j79585743995076_2_alg».proof.Proof.IdealSide.TwoRegionRun
import proofs.«118658_j79585743995076_2_alg».proof.Proof.RefRead

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo

theorem gath1_ns : Cert.KernelIdeal.gather_S100000_S1600000x1_S1600000_n_0_n_n_0_1_1 = Cert.ReferenceIdeal.gather_S100000_S1600000x1_S1600000_n_0_n_n_0_1_1 := rfl
theorem scat1_ns : Cert.KernelIdeal.scatter_S100000_S1600000x1_S1600000_n_0_0_1 = Cert.ReferenceIdeal.scatter_S100000_S1600000x1_S1600000_n_0_0_1 := rfl
theorem gath32_ns : Cert.KernelIdeal.gather_S100000x32_S1600000x1_S1600000x32_1_0_n_n_0_1_132 = Cert.ReferenceIdeal.gather_S100000x32_S1600000x1_S1600000x32_1_0_n_n_0_1_132 := rfl
theorem scat32_ns : Cert.KernelIdeal.scatter_S100000x32_S1600000x1_S1600000x32_1_0_0_1 = Cert.ReferenceIdeal.scatter_S100000x32_S1600000x1_S1600000x32_1_0_0_1 := rfl

variable (m : (ℓ : Loc nD τ sig) → Buf (Elt Ideal) ℓ)

/-! ## Stretch 0: the index vectors and the degree -/

theorem s0_v1 (c : Dev nD) : Gen.V1 m c main_v1 = Cert.ReferenceIdeal.Read.val_main_v1 (F := Ideal) (m ((c : Thread nD τ).loc main_arg1)) := by
  dsimp only [Gen.V1, Gen.V0, hostOps0]; after_results_simp
  simp only [Cert.ReferenceIdeal.Read.val_main_v1, Cert.ReferenceIdeal.Read.val_main_v0]
  funext i; rfl
theorem s0_v3 (c : Dev nD) : Gen.V1 m c main_v3 = Cert.ReferenceIdeal.Read.val_main_v3 (F := Ideal) (m ((c : Thread nD τ).loc main_arg1)) := by
  dsimp only [Gen.V1, Gen.V0, hostOps0]; after_results_simp
  simp only [Cert.ReferenceIdeal.Read.val_main_v3, Cert.ReferenceIdeal.Read.val_main_v2]
  funext i; rfl
theorem s0_v6 (c : Dev nD) : Gen.V1 m c main_v6 = Cert.ReferenceIdeal.Read.val_main_v6 (F := Ideal) (m ((c : Thread nD τ).loc main_arg1)) (m ((c : Thread nD τ).loc main_arg2)) := by
  dsimp only [Gen.V1, Gen.V0, hostOps0]; after_results_simp
  simp only [scat1_ns, Cert.ReferenceIdeal.Read.val_main_v6, Cert.ReferenceIdeal.Read.val_main_v5, Cert.ReferenceIdeal.Read.val_main_v4, Cert.ReferenceIdeal.Read.val_main_cst, Cert.ReferenceIdeal.Read.val_main_v1, Cert.ReferenceIdeal.Read.val_main_v0]
  funext i; rfl
theorem s0_v8 (c : Dev nD) : Gen.V1 m c main_v8 = Cert.ReferenceIdeal.Read.val_main_v8 (F := Ideal) (m ((c : Thread nD τ).loc main_arg1)) (m ((c : Thread nD τ).loc main_arg2)) := by
  dsimp only [Gen.V1, Gen.V0, hostOps0]; after_results_simp
  simp only [scat1_ns, Cert.ReferenceIdeal.Read.val_main_v8, Cert.ReferenceIdeal.Read.val_main_v7, Cert.ReferenceIdeal.Read.val_main_cst_0, Cert.ReferenceIdeal.Read.val_main_v6, Cert.ReferenceIdeal.Read.val_main_v5, Cert.ReferenceIdeal.Read.val_main_v4, Cert.ReferenceIdeal.Read.val_main_cst, Cert.ReferenceIdeal.Read.val_main_v1, Cert.ReferenceIdeal.Read.val_main_v0]
  funext i; rfl
theorem s0_cst1 (c : Dev nD) : Gen.V1 m c main_cst_1 = Cert.ReferenceIdeal.Read.val_main_cst_1 (F := Ideal) := by
  dsimp only [Gen.V1, Gen.V0, hostOps0]; after_results_simp
  simp only [Cert.ReferenceIdeal.Read.val_main_cst_1]
theorem s0_arg2 (c : Dev nD) : Gen.V1 m c main_arg2 = (m ((c : Thread nD τ).loc main_arg2)) := Gen.V1_of m c main_arg2 (by decide)

/-! ## Stretch 1: the degree with its zeros replaced by one -/

theorem s1_v9 (c : Dev nD) : Gen.V2 m c main_v9 = Cert.ReferenceIdeal.Read.val_main_v9 (F := Ideal) (m ((c : Thread nD τ).loc main_arg1)) (m ((c : Thread nD τ).loc main_arg2)) := by
  have h0 := s0_v8 m c
  have h1 := s0_v6 m c
  have h2 := s0_cst1 m c
  show StableHlo.after hostOps0_1 (Gen.V1 m c) (Proc.devRef .tc main_v9) = _
  generalize Gen.V1 m c = W at h0 h1 h2 ⊢
  dsimp only [hostOps0_1]
  after_results_simp
  simp only [TRef.toBuf, TRef.ofBuf, cast_eq, id]
  rw [h0, h1, h2]
  simp only [Cert.ReferenceIdeal.Read.val_main_v9, Cert.ReferenceIdeal.Read.val_main_call0_v1, Cert.ReferenceIdeal.Read.val_main_call0_v0, id]
  try (funext i; rfl)
theorem s1_v6 (c : Dev nD) : Gen.V2 m c main_v6 = Cert.ReferenceIdeal.Read.val_main_v6 (F := Ideal) (m ((c : Thread nD τ).loc main_arg1)) (m ((c : Thread nD τ).loc main_arg2)) :=
  (Gen.V2_of m c main_v6 (by decide)).trans (s0_v6 m c)

/-! ## Stretch 2: the inverse square root and the positivity mask -/

theorem s2_v11 (c : Dev nD) : Gen.V3 m c main_v11 = Cert.ReferenceIdeal.Read.val_main_v11 (F := Ideal) (m ((c : Thread nD τ).loc main_arg1)) (m ((c : Thread nD τ).loc main_arg2)) := by
  have h0 := s1_v6 m c
  show StableHlo.after hostOps0_2 (Gen.V2 m c) (Proc.devRef .tc main_v11) = _
  generalize Gen.V2 m c = W at h0 ⊢
  dsimp only [hostOps0_2]
  after_results_simp
  rw [h0]
  simp only [Cert.ReferenceIdeal.Read.val_main_v11, Cert.ReferenceIdeal.Read.val_main_v10, Cert.ReferenceIdeal.Read.val_main_cst_2]
  try (funext i; rfl)
theorem s2_v12 (c : Dev nD) : Gen.V3 m c main_v12 = Cert.ReferenceIdeal.Read.val_main_v12 (F := Ideal) (m ((c : Thread nD τ).loc main_arg1)) (m ((c : Thread nD τ).loc main_arg2)) := by
  have h0 := s1_v9 m c
  show StableHlo.after hostOps0_2 (Gen.V2 m c) (Proc.devRef .tc main_v12) = _
  generalize Gen.V2 m c = W at h0 ⊢
  dsimp only [hostOps0_2]
  after_results_simp
  rw [h0]
  simp only [Cert.ReferenceIdeal.Read.val_main_v12]
  try (funext i; rfl)
theorem s2_cst3 (c : Dev nD) : Gen.V3 m c main_cst_3 = Cert.ReferenceIdeal.Read.val_main_cst_3 (F := Ideal) := by
  show StableHlo.after hostOps0_2 (Gen.V2 m c) (Proc.devRef .tc main_cst_3) = _
  generalize Gen.V2 m c = W
  dsimp only [hostOps0_2]
  after_results_simp
  simp only [Cert.ReferenceIdeal.Read.val_main_cst_3]
  try (funext i; rfl)

/-! ## Stretch 3: the guarded inverse square root of the degree -/

theorem s3_v13 (c : Dev nD) : Gen.V4 m c main_v13 = Cert.ReferenceIdeal.Read.val_main_v13 (F := Ideal) (m ((c : Thread nD τ).loc main_arg1)) (m ((c : Thread nD τ).loc main_arg2)) := by
  have h0 := s2_v11 m c
  have h1 := s2_v12 m c
  have h2 := s2_cst3 m c
  show StableHlo.after hostOps0_3 (Gen.V3 m c) (Proc.devRef .tc main_v13) = _
  generalize Gen.V3 m c = W at h0 h1 h2 ⊢
  dsimp only [hostOps0_3]
  after_results_simp
  simp only [TRef.toBuf, TRef.ofBuf, cast_eq, id]
  rw [h0, h1, h2]
  simp only [Cert.ReferenceIdeal.Read.val_main_v13, Cert.ReferenceIdeal.Read.val_main_call1_v1, Cert.ReferenceIdeal.Read.val_main_call1_v0, id]
  try (funext i; rfl)
theorem s3_v1 (c : Dev nD) : Gen.V4 m c main_v1 = Cert.ReferenceIdeal.Read.val_main_v1 (F := Ideal) (m ((c : Thread nD τ).loc main_arg1)) :=
  (Gen.V4_of m c main_v1 (by decide)).trans <| (Gen.V3_of m c main_v1 (by decide)).trans <| (Gen.V2_of m c main_v1 (by decide)).trans (s0_v1 m c)
theorem s3_v3 (c : Dev nD) : Gen.V4 m c main_v3 = Cert.ReferenceIdeal.Read.val_main_v3 (F := Ideal) (m ((c : Thread nD τ).loc main_arg1)) :=
  (Gen.V4_of m c main_v3 (by decide)).trans <| (Gen.V3_of m c main_v3 (by decide)).trans <| (Gen.V2_of m c main_v3 (by decide)).trans (s0_v3 m c)
theorem s3_arg (c : Dev nD) (r : Ref sig .tc) (h4 : r ∉ Gen.hostOps0_3_W) (h3 : r ∉ Gen.hostOps0_2_W) (h2 : r ∉ Gen.hostOps0_1_W) (h1 : r ∉ Gen.hostOps0_W) :
    Gen.V4 m c r = m ((c : Thread nD τ).loc r) :=
  (Gen.V4_of m c r h4).trans <| (Gen.V3_of m c r h3).trans <| (Gen.V2_of m c r h2).trans <| (Gen.V1_of m c r h1).trans rfl

/-! ## Stretch 4: the edge coefficient -/

theorem s4_coef (c : Dev nD) : Gen.V5 m c main_v30 = Cert.ReferenceIdeal.Read.val_main_v30 (F := Ideal) (m ((c : Thread nD τ).loc main_arg1)) (m ((c : Thread nD τ).loc main_arg2)) := by
  have h0 := s3_v13 m c
  have h1 := s3_v1 m c
  have h2 := s3_v3 m c
  have h3 := s3_arg m c main_arg2 (by decide) (by decide) (by decide) (by decide)
  show StableHlo.after hostOps0_4 (Gen.V4 m c) (Proc.devRef .tc main_v30) = _
  generalize Gen.V4 m c = W at h0 h1 h2 h3 ⊢
  dsimp only [hostOps0_4]
  after_results_simp
  rw [h0, h1, h2, h3]
  simp only [gath1_ns, Cert.ReferenceIdeal.Read.val_main_c, Cert.ReferenceIdeal.Read.val_main_v14, Cert.ReferenceIdeal.Read.val_main_v15, Cert.ReferenceIdeal.Read.val_main_c_4, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_c_5, Cert.ReferenceIdeal.Read.val_main_v22, Cert.ReferenceIdeal.Read.val_main_v23, Cert.ReferenceIdeal.Read.val_main_c_6, Cert.ReferenceIdeal.Read.val_main_v24, Cert.ReferenceIdeal.Read.val_main_v25, Cert.ReferenceIdeal.Read.val_main_v26, Cert.ReferenceIdeal.Read.val_main_v27, Cert.ReferenceIdeal.Read.val_main_v28, Cert.ReferenceIdeal.Read.val_main_v29, Cert.ReferenceIdeal.Read.val_main_v30]
  try (funext i; rfl)

end Cert.KernelIdeal.Val

end
-- ==== Proof.LibSegment.lean ====
/-
  Segment sums and row look-ups, read at an entry, for any sizes.

  A graph layer moves rows around by integer tables: a look-up takes row `idx[e]` of an array for every entry `e` of the
  table (the start index read as a signed integer and clamped into the array), and a segment sum adds update `e` into row
  `idx[e]` of an accumulator (the index read signed and NOT clamped: an update whose index is outside the array is
  dropped). Both are read here at one entry, for a table stored as an `M × 1` column: the look-up of a vector or of a
  matrix's rows is the operand at the clamped index, and the accumulated array at `c` is the old value plus the sum, over
  the table's entries `e` whose index is exactly `c`, of update `e`.
-/
import Idealize.ShloMosaic.Lib.ValueIdx
import Idealize.ShloMosaic.Lib.Pipeline.Value
import Idealize.ShloMosaic.PureOps.Ideal.Laws

noncomputable section

open scoped BigOperators

namespace Cert.Lib.Segment

open Idealize.ShloMosaic Idealize.ShloMosaic.ValueIdx

/-! ## Sums over a one-axis index set -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-! ## One row of a table as a vector -/

/-- Row `r` of an `R × M` table, sliced out as a `1 × M` array and flattened, reads at `e` the table's entry `(r, e)`. -/
theorem tableRow_apply {α : Type} {R M : ℕ} (x : (⟨2, ![R, M]⟩ : Shape).Idx → α) (r : Fin R) (off : Fin 2 → ℕ)
    (h0 : off 0 = r.val) (h1 : off 1 = 0) (h : (⟨2, ![R, M]⟩ : Shape).Slices off ⟨2, ![1, M]⟩)
    (h' : (⟨2, ![1, M]⟩ : Shape).ShapeCasts ⟨1, ![M]⟩) (e : Fin M) :
    shapeCast ⟨1, ![M]⟩ (extractStridedSlice ⟨2, ![1, M]⟩ off x h) h' (ix1 e) = x (ix2 r e) := by
  rw [shapeCast_apply _ h' (ix1 e) (ix2 (0 : Fin 1) e) (by
    rw [Shape.rowMajor_val_two, Shape.rowMajor_val_one]
    show 0 * M + e.val = e.val
    omega)]
  refine extractStridedSlice_apply off x h _ _ fun a => ?_
  rcases (by decide : ∀ a : Fin 2, a = 0 ∨ a = 1) a with rfl | rfl
  · show r.val = off 0 + 0
    omega
  · show e.val = off 1 + e.val
    omega

/-! ## Where an update lands -/

/-- An update lands on the operand index `i` exactly when, on every axis, its start plus its window coordinate is
    `i`'s coordinate (a landing place outside the operand is no index at all). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e' := Option.some.inj e
      have := congrFun e' a
      rw [← this]
      show _ = (((d.start j idx a + (d.window j a : ℤ)).toNat : ℕ) : ℤ)
      rw [Int.toNat_of_nonneg (h a).1]
    · intro hi
      congr 1
      funext a
      refine Fin.ext ?_
      show (d.start j idx a + (d.window j a : ℤ)).toNat = (i a).val
      rw [hi a, Int.toNat_natCast]
  · rename_i h
    constructor
    · intro e; exact absurd e (by simp)
    · intro hi
      exact absurd (fun a => by rw [hi a]; exact ⟨Int.natCast_nonneg _, by exact_mod_cast (i a).isLt⟩) h

/-! ## A segment sum into a vector -/

/-- The dimension numbers of `M` scalar updates added into a length-`N` vector at the indices an `M × 1` column names. -/
abbrev scat1 (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem scat1_lands {N M w : ℕ} (wf : ScatterDims.WF ⟨1, ![N]⟩ ⟨2, ![M, 1]⟩ ⟨1, ![M]⟩ [] [0] [0] 1)
    (idx : IVec ⟨2, ![M, 1]⟩ w) (e : Fin M) (c : Fin N) :
    (scat1 N M wf).resultIdx? (ix1 e) idx = some (ix1 c) ↔ (idx (ix2 e (0 : Fin 1))).toInt = (c.val : ℤ) := by
  rw [resultIdx?_eq_some_iff]
  have hsi : (scat1 N M wf).siIdx (ix1 e) ⟨List.idxOf (0 : Fin 1) (scat1 N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (scat1 N M wf).start (ix1 e) idx 0 + ((scat1 N M wf).window (ix1 e) 0 : ℤ) = (idx (ix2 e (0 : Fin 1))).toInt := by
    unfold ScatterDims.start ScatterDims.window
    rw [dif_pos (show (0 : Fin 1) ∈ (scat1 N M wf).scatterDimsToOperandDims from List.mem_singleton.mpr rfl),
      dif_neg (show (0 : Fin 1) ∉ (scat1 N M wf).sKept from by simp [Shape.kept]), hsi]
    simp
  constructor
  · intro h; rw [← h0]; exact h 0
  · intro h a
    obtain rfl : a = 0 := Subsingleton.elim _ _
    rw [h0]; exact h

/-- The vector after the segment sum, at `c`: the old entry plus the updates whose index is `c`. -/
theorem scatterAdd_vec_apply {N M w : ℕ} {φ : FTy} (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (scat1 N M wf) x idx upd (ix1 c)
      = x (ix1 c) + ∑ e : Fin M, if (idx (ix2 e (0 : Fin 1))).toInt = (c.val : ℤ) then upd (ix1 e) else 0 := by
  show Ideal.hostScatterAdd (scat1 N M wf) x idx upd (ix1 c) = _
  unfold Ideal.hostScatterAdd
  congr 1
  rw [Finset.sum_filter, sum_idx1]
  refine Finset.sum_congr rfl fun e _ => ?_
  by_cases h : (idx (ix2 e (0 : Fin 1))).toInt = (c.val : ℤ)
  · rw [if_pos h, if_pos ((scat1_lands wf idx e c).mpr h)]
  · rw [if_neg h, if_neg (mt (scat1_lands wf idx e c).mp h)]

/-! ## A segment sum of rows into a matrix -/

/-- The dimension numbers of `M` rows of length `K` added into the rows of an `N × K` matrix that an `M × 1` column names. -/
abbrev scat2 (N K M : ℕ) (wf : ScatterDims.WF ⟨2, ![N, K]⟩ ⟨2, ![M, 1]⟩ ⟨2, ![M, K]⟩ [1] [0] [0] 1) :
    ScatterDims ⟨2, ![N, K]⟩ ⟨2, ![M, 1]⟩ ⟨2, ![M, K]⟩ where
  updateWindowDims := [1]
  insertedWindowDims := [0]
  scatterDimsToOperandDims := [0]
  indexVectorDim := 1
  wf := wf

theorem scat2_lands {N K M w : ℕ} (wf : ScatterDims.WF ⟨2, ![N, K]⟩ ⟨2, ![M, 1]⟩ ⟨2, ![M, K]⟩ [1] [0] [0] 1)
    (idx : IVec ⟨2, ![M, 1]⟩ w) (e : Fin M) (k' : Fin K) (c : Fin N) (k : Fin K) :
    (scat2 N K M wf).resultIdx? (ix2 e k') idx = some (ix2 c k)
      ↔ (idx (ix2 e (0 : Fin 1))).toInt = (c.val : ℤ) ∧ k' = k := by
  rw [resultIdx?_eq_some_iff]
  have hsi : (scat2 N K M wf).siIdx (ix2 e k') ⟨List.idxOf (0 : Fin 2) (scat2 N K M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (scat2 N K M wf).start (ix2 e k') idx 0 + ((scat2 N K M wf).window (ix2 e k') 0 : ℤ)
      = (idx (ix2 e (0 : Fin 1))).toInt := by
    unfold ScatterDims.start ScatterDims.window
    rw [dif_pos (show (0 : Fin 2) ∈ (scat2 N K M wf).scatterDimsToOperandDims from List.mem_singleton.mpr rfl),
      dif_neg (show (0 : Fin 2) ∉ (scat2 N K M wf).sKept from by simp [Shape.kept]), hsi]
    simp
  have h1 : (scat2 N K M wf).start (ix2 e k') idx 1 + ((scat2 N K M wf).window (ix2 e k') 1 : ℤ) = (k'.val : ℤ) := by
    unfold ScatterDims.start ScatterDims.window
    rw [dif_neg (show (1 : Fin 2) ∉ (scat2 N K M wf).scatterDimsToOperandDims from by simp),
      dif_pos (show (1 : Fin 2) ∈ (scat2 N K M wf).sKept from by simp [Shape.kept])]
    simp
    rfl
  constructor
  · intro h
    refine ⟨by rw [← h0]; exact h 0, Fin.ext ?_⟩
    have := h 1; rw [h1] at this; exact_mod_cast this
  · rintro ⟨h, rfl⟩ a
    rcases (by decide : ∀ a : Fin 2, a = 0 ∨ a = 1) a with rfl | rfl
    · rw [h0]; exact h
    · exact h1

/-- The matrix after the segment sum, at `(c, k)`: the old entry plus column `k` of the update rows whose index is `c`. -/
theorem scatterAdd_rows_apply {N K M w : ℕ} {φ : FTy}
    (wf : ScatterDims.WF ⟨2, ![N, K]⟩ ⟨2, ![M, 1]⟩ ⟨2, ![M, K]⟩ [1] [0] [0] 1)
    (x : FVec Ideal ⟨2, ![N, K]⟩ φ) (idx : IVec ⟨2, ![M, 1]⟩ w) (upd : FVec Ideal ⟨2, ![M, K]⟩ φ) (c : Fin N) (k : Fin K) :
    Host.scatterAdd (scat2 N K M wf) x idx upd (ix2 c k)
      = x (ix2 c k) + ∑ e : Fin M, if (idx (ix2 e (0 : Fin 1))).toInt = (c.val : ℤ) then upd (ix2 e k) else 0 := by
  show Ideal.hostScatterAdd (scat2 N K M wf) x idx upd (ix2 c k) = _
  unfold Ideal.hostScatterAdd
  congr 1
  rw [Finset.sum_filter, sum_idx2]
  refine Finset.sum_congr rfl fun e _ => ?_
  by_cases h : (idx (ix2 e (0 : Fin 1))).toInt = (c.val : ℤ)
  · rw [if_pos h, Finset.sum_eq_single k]
    · rw [if_pos ((scat2_lands wf idx e k c k).mpr ⟨h, rfl⟩)]
    · intro k' _ hk
      rw [if_neg (fun hl => hk ((scat2_lands wf idx e k' c k).mp hl).2)]
    · intro hk; exact absurd (Finset.mem_univ k) hk
  · rw [if_neg h]
    exact Finset.sum_eq_zero fun k' _ => if_neg (fun hl => h ((scat2_lands wf idx e k' c k).mp hl).1)

/-! ## Look-ups -/

/-- The dimension numbers of a look-up of `M` entries of a length-`N` vector at the indices an `M × 1` column names. -/
abbrev gath1 (N M : ℕ) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The clamped place a signed index word names in an array of `N` rows. -/
def clampIdx {w : ℕ} (N : ℕ) (hN : 0 < N) (v : BitVec w) : Fin N := ⟨min v.toInt.toNat (N - 1), by omega⟩

/-- The look-up in a vector at `e`: the vector at the clamped index. -/
theorem gather_vec_apply {α : Type} {N M w : ℕ} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gath1 N M wf) x idx (ix1 e) = x (ix1 (clampIdx N hN (idx (ix2 e (0 : Fin 1))))) := by
  unfold Host.gather
  congr 1
  funext a
  obtain rfl : a = 0 := Subsingleton.elim _ _
  refine Fin.ext ?_
  show (gath1 N M wf).start (ix1 e) idx 0 + (gath1 N M wf).batchCoord (ix1 e) 0 + (gath1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N M wf).startIndexMap from List.mem_singleton.mpr rfl)]
  have hsi : (gath1 N M wf).siIdx (ix1 e) ⟨List.idxOf (0 : Fin 1) (gath1 N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of a look-up of `M` whole rows of an `N × K` matrix at the indices an `M × 1` column names. -/
abbrev gath2 (N K M : ℕ) (wf : GatherDims.WF ⟨2, ![N, K]⟩ ⟨2, ![M, 1]⟩ ⟨2, ![M, K]⟩ [1] [0] [] [0] [] 1 ![1, K]) :
    GatherDims ⟨2, ![N, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- The look-up of rows at `(e, k)`: the matrix at the clamped row, column `k`. -/
theorem gather_rows_apply {α : Type} {N K M w : ℕ} (hN : 0 < N)
    (wf : GatherDims.WF ⟨2, ![N, K]⟩ ⟨2, ![M, 1]⟩ ⟨2, ![M, K]⟩ [1] [0] [] [0] [] 1 ![1, K])
    (x : (⟨2, ![N, K]⟩ : Shape).Idx → α) (idx : IVec ⟨2, ![M, 1]⟩ w) (e : Fin M) (k : Fin K) :
    Host.gather (gath2 N K M wf) x idx (ix2 e k) = x (ix2 (clampIdx N hN (idx (ix2 e (0 : Fin 1)))) k) := by
  unfold Host.gather
  congr 1
  have hsi : (gath2 N K M wf).siIdx (ix2 e k) ⟨List.idxOf (0 : Fin 2) (gath2 N K M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  funext a
  refine Fin.ext ?_
  show (gath2 N K M wf).start (ix2 e k) idx a + (gath2 N K M wf).batchCoord (ix2 e k) a + (gath2 N K M wf).offCoord (ix2 e k) a = _
  rw [GatherDims.batchCoord_eq_zero _ _ _ List.not_mem_nil]
  rcases (by decide : ∀ a : Fin 2, a = 0 ∨ a = 1) a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N K M wf).startIndexMap from List.mem_singleton.mpr rfl), hsi]
    rfl
  · unfold GatherDims.start GatherDims.offCoord
    rw [dif_neg (show (1 : Fin 2) ∉ (gath2 N K M wf).startIndexMap from by simp),
      dif_pos (show (1 : Fin 2) ∈ (gath2 N K M wf).sKept from by simp [Shape.kept])]
    simp
    rfl

end Cert.Lib.Segment

end
-- ==== Proof.IdealSide.SegmentColumns.lean ====
/-
  The first-order Chebyshev aggregation read at an entry, over the extended reals. With an edge coefficient column
  a (E×1), source and target index columns s, d (E×1 words) and node features v (N×32), the aggregated feature is
      T(v)(n, j) = 0 + Σ_{e : d(e) = n} a(e) · v(clamp s(e), j).
  The kernel aggregates [x | h] (N×64) in ONE segment sum and slices the two halves apart; column j of the left half is
  T(x)(·, j) and column j of the right half is T(h)(·, j), because a segment sum acts column by column and a look-up of
  rows of [x | h] at column j < 32 is the look-up in x, at column 32 + j the look-up in h.
-/
import proofs.«118658_j79585743995076_2_alg».proof.KernelIdeal
import proofs.«118658_j79585743995076_2_alg».proof.Proof.Gen.KernelIdeal
import proofs.«118658_j79585743995076_2_alg».proof.Proof.LibSegment
import proofs.«118658_j79585743995076_2_alg».proof.Proof.LibRows
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Facts₀ Cert.KernelIdeal.Facts Idealize.ShloMosaic Idealize.ShloMosaic.ValueIdx Cert.Lib.Segment

/-- The aggregated feature at node n, column j. -/
def segSum (a : (⟨2, ![1600000, 1]⟩ : Shape).Idx → Ideal .f32) (s d : IVec ⟨2, ![1600000, 1]⟩ 32)
    (v : (⟨2, ![100000, 32]⟩ : Shape).Idx → Ideal .f32) (n : Fin 100000) (j : Fin 32) : Ideal .f32 :=
  (constant ⟨0, ![]⟩ .f32 0x00000000#32 : FVec Ideal ⟨0, ![]⟩ .f32) ix0
    + ∑ e : Fin 1600000, if (d (ix2 e (0 : Fin 1))).toInt = (n.val : ℤ)
        then a (ix2 e (0 : Fin 1)) * v (ix2 (clampIdx 100000 (by decide) (s (ix2 e (0 : Fin 1)))) j) else 0

/-- A segment sum of scaled looked-up rows, at (n, j), for any row width K. -/
theorem seg_rows_apply {K : ℕ} (wfS : ScatterDims.WF ⟨2, ![100000, K]⟩ ⟨2, ![1600000, 1]⟩ ⟨2, ![1600000, K]⟩ [1] [0] [0] 1)
    (wfG : GatherDims.WF ⟨2, ![100000, K]⟩ ⟨2, ![1600000, 1]⟩ ⟨2, ![1600000, K]⟩ [1] [0] [] [0] [] 1 ![1, K])
    (z : FVec Ideal ⟨2, ![100000, K]⟩ .f32) (d s : IVec ⟨2, ![1600000, 1]⟩ 32)
    (aK : FVec Ideal ⟨2, ![1600000, K]⟩ .f32) (v : FVec Ideal ⟨2, ![100000, K]⟩ .f32) (n : Fin 100000) (j : Fin K) :
    Host.scatterAdd (scat2 100000 K 1600000 wfS) z d (mulf aK (Host.gather (gath2 100000 K 1600000 wfG) v s)) (ix2 n j)
      = z (ix2 n j) + ∑ e : Fin 1600000, if (d (ix2 e (0 : Fin 1))).toInt = (n.val : ℤ)
          then aK (ix2 e j) * v (ix2 (clampIdx 100000 (by decide) (s (ix2 e (0 : Fin 1)))) j) else 0 := by
  rw [scatterAdd_rows_apply]
  refine congrArg _ (Finset.sum_congr rfl fun e _ => ?_)
  simp only [mulf, Ideal.mulf_def]
  rw [gather_rows_apply (by decide)]

/-- The plain 32-wide aggregation, as the programs spell it, at (n, j). -/
theorem agg_plain (a : FVec Ideal S1600000x1 .f32) (s d : IVec S1600000x1 32) (v : FVec Ideal S100000x32 .f32) (n : Fin 100000) (j : Fin 32) :
    Host.scatterAdd scatter_S100000x32_S1600000x1_S1600000x32_1_0_0_1
        (broadcastInDim S100000x32 ![] bcast_S_S100000x32 (constant S_ .f32 0x00000000#32)) d
        (mulf (broadcastInDim S1600000x32 ![0, 1] bcast_S1600000x1_S1600000x32_0_1 a)
          (Host.gather gather_S100000x32_S1600000x1_S1600000x32_1_0_n_n_0_1_132 v s)) (ix2 n j)
      = segSum a s d v n j := by
  refine (seg_rows_apply scatter_S100000x32_S1600000x1_S1600000x32_1_0_0_1.wf gather_S100000x32_S1600000x1_S1600000x32_1_0_n_n_0_1_132.wf
    _ d s _ v n j).trans ?_
  unfold segSum
  rw [Cert.Lib.Rows.broadcastInDim_scalar_apply]
  refine congrArg _ (Finset.sum_congr rfl fun e _ => ?_)
  rw [Cert.Lib.Rows.broadcastInDim_a1_ab_apply]

/-- The left half of the fused 64-wide aggregation of [x | h], at (n, j): the aggregation of x. -/
theorem agg_left (a : FVec Ideal S1600000x1 .f32) (s d : IVec S1600000x1 32) (x h : FVec Ideal S100000x32 .f32) (n : Fin 100000) (j : Fin 32) :
    extractStridedSlice S100000x32 ![0, 0]
      (Host.scatterAdd scatter_S100000x64_S1600000x1_S1600000x64_1_0_0_1
        (broadcastInDim S100000x64 ![] bcast_S_S100000x64 (constant S_ .f32 0x00000000#32)) d
        (mulf (broadcastInDim S1600000x64 ![0, 1] bcast_S1600000x1_S1600000x64_0_1 a)
          (Host.gather gather_S100000x64_S1600000x1_S1600000x64_1_0_n_n_0_1_164
            (concatenate S100000x64 1 [⟨S100000x32, x⟩, ⟨S100000x32, h⟩] concatenates_S100000x32_S100000x32_S100000x64_d1) s)))
      slices_S100000x64_S100000x32_0_0 (ix2 n j)
      = segSum a s d x n j := by
  have hj : j.val < 64 := by have := j.isLt; omega
  refine (extractStridedSlice_apply _ _ _ (ix2 n j) (ix2 n (⟨j.val, hj⟩ : Fin 64)) fun b => ?_).trans ?_
  · match b with
    | ⟨0, _⟩ => show n.val = 0 + n.val; omega
    | ⟨1, _⟩ => show j.val = 0 + j.val; omega
  refine (seg_rows_apply scatter_S100000x64_S1600000x1_S1600000x64_1_0_0_1.wf gather_S100000x64_S1600000x1_S1600000x64_1_0_n_n_0_1_164.wf
    _ d s _ _ n ⟨j.val, hj⟩).trans ?_
  unfold segSum
  rw [Cert.Lib.Rows.broadcastInDim_scalar_apply]
  refine congrArg _ (Finset.sum_congr rfl fun e _ => ?_)
  rw [Cert.Lib.Rows.broadcastInDim_a1_ab_apply,
    concatenate_pair_apply_left (t := S100000x64) (s₁ := S100000x32) (s₂ := S100000x32) (1 : Fin 2) x h concatenates_S100000x32_S100000x32_S100000x64_d1
      (ix2 (clampIdx 100000 (by decide) (s (ix2 e (0 : Fin 1)))) (⟨j.val, hj⟩ : Fin 64)) rfl
      (ix2 (clampIdx 100000 (by decide) (s (ix2 e (0 : Fin 1)))) j) (fun b => by
        match b with
        | ⟨0, _⟩ => rfl
        | ⟨1, _⟩ => rfl)]

/-- The right half, at (n, j): the aggregation of h. -/
theorem agg_right (a : FVec Ideal S1600000x1 .f32) (s d : IVec S1600000x1 32) (x h : FVec Ideal S100000x32 .f32) (n : Fin 100000) (j : Fin 32) :
    extractStridedSlice S100000x32 ![0, 32]
      (Host.scatterAdd scatter_S100000x64_S1600000x1_S1600000x64_1_0_0_1
        (broadcastInDim S100000x64 ![] bcast_S_S100000x64 (constant S_ .f32 0x00000000#32)) d
        (mulf (broadcastInDim S1600000x64 ![0, 1] bcast_S1600000x1_S1600000x64_0_1 a)
          (Host.gather gather_S100000x64_S1600000x1_S1600000x64_1_0_n_n_0_1_164
            (concatenate S100000x64 1 [⟨S100000x32, x⟩, ⟨S100000x32, h⟩] concatenates_S100000x32_S100000x32_S100000x64_d1) s)))
      slices_S100000x64_S100000x32_0_32 (ix2 n j)
      = segSum a s d h n j := by
  have hj : 32 + j.val < 64 := by have := j.isLt; omega
  refine (extractStridedSlice_apply _ _ _ (ix2 n j) (ix2 n (⟨32 + j.val, hj⟩ : Fin 64)) fun b => ?_).trans ?_
  · match b with
    | ⟨0, _⟩ => show n.val = 0 + n.val; omega
    | ⟨1, _⟩ => show 32 + j.val = 32 + j.val; rfl
  refine (seg_rows_apply scatter_S100000x64_S1600000x1_S1600000x64_1_0_0_1.wf gather_S100000x64_S1600000x1_S1600000x64_1_0_n_n_0_1_164.wf
    _ d s _ _ n ⟨32 + j.val, hj⟩).trans ?_
  unfold segSum
  rw [Cert.Lib.Rows.broadcastInDim_scalar_apply]
  refine congrArg _ (Finset.sum_congr rfl fun e _ => ?_)
  rw [Cert.Lib.Rows.broadcastInDim_a1_ab_apply,
    concatenate_pair_apply_right (t := S100000x64) (s₁ := S100000x32) (s₂ := S100000x32) (1 : Fin 2) x h concatenates_S100000x32_S100000x32_S100000x64_d1
      (ix2 (clampIdx 100000 (by decide) (s (ix2 e (0 : Fin 1)))) (⟨32 + j.val, hj⟩ : Fin 64)) rfl rfl
      (ix2 (clampIdx 100000 (by decide) (s (ix2 e (0 : Fin 1)))) j) (fun b hb => by
        match b with
        | ⟨0, _⟩ => rfl
        | ⟨1, _⟩ => exact absurd rfl hb) (by show j.val + 32 = 32 + j.val; omega)]

end Cert.KernelIdeal.Val

end
-- ==== Proof.LibGateAlgebra.lean ====
/-
  The algebra that joins the two spellings of a gate's pre-activation. The kernel contracts ONE packed row of 128 entries
  [x | h | T1 x | T1 h] against ONE stacked 128×32 weight and adds the sum of the two biases; the reference adds four
  32-term products and the two biases in the order ((x·W + T1x·W') + b) + ((h·U + T1h·U') + b'). A sum over 128 indices is
  the sum of its four consecutive blocks of 32, and addition of extended reals is commutative and associative, so the two
  agree — no finiteness is needed (no distributivity, no cancellation).
-/
import Mathlib.Algebra.BigOperators.Fin
import Mathlib.Data.EReal.Basic
import Mathlib.Tactic.Abel

namespace Cert.Lib.GateAlgebra

open scoped BigOperators

/-- A sum over 128 indices as its four blocks of 32. -/
theorem sum128_split {M : Type*} [AddCommMonoid M] (f : Fin 128 → M) :
    ∑ k : Fin 128, f k
      = ((∑ k : Fin 32, f ⟨k.val, by have := k.isLt; omega⟩ + ∑ k : Fin 32, f ⟨32 + k.val, by have := k.isLt; omega⟩)
          + ∑ k : Fin 32, f ⟨64 + k.val, by have := k.isLt; omega⟩)
        + ∑ k : Fin 32, f ⟨96 + k.val, by have := k.isLt; omega⟩ := by
  have e1 := Fin.sum_univ_add (a := 96) (b := 32) (fun i : Fin (96 + 32) => f i)
  have e2 := Fin.sum_univ_add (a := 64) (b := 32) (fun i : Fin (64 + 32) => f (Fin.castAdd 32 i))
  have e3 := Fin.sum_univ_add (a := 32) (b := 32) (fun i : Fin (32 + 32) => f (Fin.castAdd 32 (Fin.castAdd 32 i)))
  refine e1.trans ?_
  refine congrArg₂ (· + ·) (e2.trans (congrArg₂ (· + ·) (e3.trans (congrArg₂ (· + ·) ?_ ?_)) ?_)) ?_
  all_goals exact Finset.sum_congr rfl fun k _ => congrArg f (Fin.ext rfl)

/-- The fused pre-activation regrouped: one 128-term contraction plus the summed bias is the reference's
    ((block 0 + block 2) + b) + ((block 1 + block 3) + b'). -/
theorem gate_regroup {M : Type*} [AddCommMonoid M] (g : Fin 128 → M) (b b' : M) :
    (∑ k : Fin 128, g k) + (b + b')
      = ((∑ k : Fin 32, g ⟨0 + k.val, by have := k.isLt; omega⟩ + ∑ k : Fin 32, g ⟨64 + k.val, by have := k.isLt; omega⟩) + b)
        + ((∑ k : Fin 32, g ⟨32 + k.val, by have := k.isLt; omega⟩ + ∑ k : Fin 32, g ⟨96 + k.val, by have := k.isLt; omega⟩) + b') := by
  rw [sum128_split]
  have e0 : ∑ k : Fin 32, g ⟨k.val, by have := k.isLt; omega⟩ = ∑ k : Fin 32, g ⟨0 + k.val, by have := k.isLt; omega⟩ :=
    Finset.sum_congr rfl fun k _ => congrArg g (Fin.ext (Nat.zero_add _).symm)
  rw [e0]
  abel

end Cert.Lib.GateAlgebra
-- ==== Proof.IdealSide.HostSegments.lean ====
/-
  The kernel program's two long stretches of host operations cut into short runs, one per quantity: the edge coefficient,
  the fused aggregation of [x | h], the packed row block [x | h | T1 x | T1 h], the reset gate's stacked weight and bias;
  then the aggregation of h ⊙ r, the candidate's packed row block, the update and candidate gates' stacked weights and
  biases, and the read-out row and bias. A stretch is the concatenation of its runs, and the contents after a concatenation
  are the contents after the second part of those after the first.
-/
import proofs.«118658_j79585743995076_2_alg».proof.Proof.Gen.KernelIdeal.Launch

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-- The contents after a concatenation of runs. -/
theorem after_append {Val : EltTy → Type} (l1 l2 : List (HloOp τ sig Val)) (V : Valuation τ sig Val) :
    after (l1 ++ l2) V = after l2 (after l1 V) := by
  induction l1 generalizing V with
  | nil => rfl
  | cons op ops ih => exact ih _

abbrev coefOps : List (HloOp τ sig (Elt F)) :=
  [
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_v1 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v16 (broadcastInDim S1600000 ![] bcast_S_S1600000 : (⟨S_, .i32⟩ : BufTy).Contents (Elt F) → (⟨S1600000, .i32⟩ : BufTy).Contents (Elt F)),
    StableHlo.binary main_v1 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v20 main_arg2 main_v21 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v22 (broadcastInDim S1600000 ![] bcast_S_S1600000 : (⟨S_, .i32⟩ : BufTy).Contents (Elt F) → (⟨S1600000, .i32⟩ : BufTy).Contents (Elt F)),
    StableHlo.binary main_v3 main_v22 main_v23 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v24 (broadcastInDim S1600000 ![] bcast_S_S1600000 : (⟨S_, .i32⟩ : BufTy).Contents (Elt F) → (⟨S1600000, .i32⟩ : BufTy).Contents (Elt F)),
    StableHlo.binary main_v3 main_v24 main_v25 (addi : (⟨S1600000, .i32⟩ : BufTy).Contents (Elt F) → (⟨S1600000, .i32⟩ : BufTy).Contents (Elt F) → (⟨S1600000, .i32⟩ : BufTy).Contents (Elt F)),
    StableHlo.ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v26 main_v27 (broadcastInDim S1600000x1 ![0] bcast_S1600000_S1600000x1_0 : (⟨S1600000, .i32⟩ : BufTy).Contents (Elt F) → (⟨S1600000x1, .i32⟩ : BufTy).Contents (Elt F)),
    StableHlo.binary main_v13 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v21 main_v28 main_v29 (mulf : (⟨S1600000, .f32⟩ : BufTy).Contents (Elt F) → (⟨S1600000, .f32⟩ : BufTy).Contents (Elt F) → (⟨S1600000, .f32⟩ : BufTy).Contents (Elt F)),
    StableHlo.unary main_v29 main_v30 (Host.negf : (⟨S1600000, .f32⟩ : BufTy).Contents (Elt F) → (⟨S1600000, .f32⟩ : BufTy).Contents (Elt F)) ]
abbrev aggOps : List (HloOp τ sig (Elt F)) :=
  [
    StableHlo.binary main_arg0 main_arg3 main_v31 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    StableHlo.unary main_v30 main_v32 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v33 (broadcastInDim S1600000 ![] bcast_S_S1600000 : (⟨S_, .i32⟩ : BufTy).Contents (Elt F) → (⟨S1600000, .i32⟩ : BufTy).Contents (Elt F)),
    StableHlo.binary main_v1 main_v33 main_v34 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v35 (broadcastInDim S1600000 ![] bcast_S_S1600000 : (⟨S_, .i32⟩ : BufTy).Contents (Elt F) → (⟨S1600000, .i32⟩ : BufTy).Contents (Elt F)),
    StableHlo.binary main_v1 main_v35 main_v36 (addi : (⟨S1600000, .i32⟩ : BufTy).Contents (Elt F) → (⟨S1600000, .i32⟩ : BufTy).Contents (Elt F) → (⟨S1600000, .i32⟩ : BufTy).Contents (Elt F)),
    StableHlo.ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v37 main_v38 (broadcastInDim S1600000x1 ![0] bcast_S1600000_S1600000x1_0 : (⟨S1600000, .i32⟩ : BufTy).Contents (Elt F) → (⟨S1600000x1, .i32⟩ : BufTy).Contents (Elt F)),
    StableHlo.binary main_v31 main_v38 main_v39 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v32 main_v40 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v40 main_v39 main_v41 (mulf : (⟨S1600000x64, .f32⟩ : BufTy).Contents (Elt F) → (⟨S1600000x64, .f32⟩ : BufTy).Contents (Elt F) → (⟨S1600000x64, .f32⟩ : BufTy).Contents (Elt F)),
    StableHlo.nullary main_cst_9 (constant S_ .f32 0x00000000#32),
    StableHlo.unary main_cst_9 main_v42 (broadcastInDim S100000x64 ![] bcast_S_S100000x64 : (⟨S_, .f32⟩ : BufTy).Contents (Elt F) → (⟨S100000x64, .f32⟩ : BufTy).Contents (Elt F)),
    StableHlo.unary main_v3 main_v43 (broadcastInDim S1600000x1 ![0] bcast_S1600000_S1600000x1_0 : (⟨S1600000, .i32⟩ : BufTy).Contents (Elt F) → (⟨S1600000x1, .i32⟩ : BufTy).Contents (Elt F)),
    StableHlo.ternary main_v42 main_v43 main_v41 main_v44 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v44 main_v45 ((extractStridedSlice S100000x32 ![0, 0] · slices_S100000x64_S100000x32_0_0) : (⟨S100000x64, .f32⟩ : BufTy).Contents (Elt F) → (⟨S100000x32, .f32⟩ : BufTy).Contents (Elt F)),
    StableHlo.unary main_v44 main_v46 ((extractStridedSlice S100000x32 ![0, 32] · slices_S100000x64_S100000x32_0_32) : (⟨S100000x64, .f32⟩ : BufTy).Contents (Elt F) → (⟨S100000x32, .f32⟩ : BufTy).Contents (Elt F)) ]
abbrev packP : HloOp τ sig (Elt F) :=
  StableHlo.nary ![main_arg0, main_arg3, main_v45, main_v46] main_v47 (fun u => concatenate S100000x128 1 [⟨S100000x32, u 0⟩, ⟨S100000x32, u 1⟩, ⟨S100000x32, u 2⟩, ⟨S100000x32, u 3⟩] concatenates_S100000x32_S100000x32_S100000x32_S100000x32_S100000x128_d1)
abbrev wrOps : List (HloOp τ sig (Elt F)) :=
  [
    StableHlo.unary main_arg4 main_v48 ((extractStridedSlice S1x1x32x32 ![1, 0, 0, 0] · slices_S3x2x32x32_S1x1x32x32_1_0_0_0) : (⟨S3x2x32x32, .f32⟩ : BufTy).Contents (Elt F) → (⟨S1x1x32x32, .f32⟩ : BufTy).Contents (Elt F)),
    StableHlo.reshape main_v48 main_v49 rfl shapeCasts_S1x1x32x32_S32x32,
    StableHlo.unary main_arg6 main_v50 ((extractStridedSlice S1x1x32x32 ![1, 0, 0, 0] · slices_S3x2x32x32_S1x1x32x32_1_0_0_0) : (⟨S3x2x32x32, .f32⟩ : BufTy).Contents (Elt F) → (⟨S1x1x32x32, .f32⟩ : BufTy).Contents (Elt F)),
    StableHlo.reshape main_v50 main_v51 rfl shapeCasts_S1x1x32x32_S32x32,
    StableHlo.unary main_arg4 main_v52 ((extractStridedSlice S1x1x32x32 ![1, 1, 0, 0] · slices_S3x2x32x32_S1x1x32x32_1_1_0_0) : (⟨S3x2x32x32, .f32⟩ : BufTy).Contents (Elt F) → (⟨S1x1x32x32, .f32⟩ : BufTy).Contents (Elt F)),
    StableHlo.reshape main_v52 main_v53 rfl shapeCasts_S1x1x32x32_S32x32,
    StableHlo.unary main_arg6 main_v54 ((extractStridedSlice S1x1x32x32 ![1, 1, 0, 0] · slices_S3x2x32x32_S1x1x32x32_1_1_0_0) : (⟨S3x2x32x32, .f32⟩ : BufTy).Contents (Elt F) → (⟨S1x1x32x32, .f32⟩ : BufTy).Contents (Elt F)),
    StableHlo.reshape main_v54 main_v55 rfl shapeCasts_S1x1x32x32_S32x32 ]
abbrev packWr : HloOp τ sig (Elt F) :=
  StableHlo.nary ![main_v49, main_v51, main_v53, main_v55] main_v56 (fun u => concatenate S128x32 0 [⟨S32x32, u 0⟩, ⟨S32x32, u 1⟩, ⟨S32x32, u 2⟩, ⟨S32x32, u 3⟩] concatenates_S32x32_S32x32_S32x32_S32x32_S128x32_d0)
abbrev brOps : List (HloOp τ sig (Elt F)) :=
  [
    StableHlo.unary main_arg5 main_v57 ((extractStridedSlice S1x32 ![1, 0] · slices_S3x32_S1x32_1_0) : (⟨S3x32, .f32⟩ : BufTy).Contents (Elt F) → (⟨S1x32, .f32⟩ : BufTy).Contents (Elt F)),
    StableHlo.reshape main_v57 main_v58 rfl shapeCasts_S1x32_S32,
    StableHlo.unary main_arg7 main_v59 ((extractStridedSlice S1x32 ![1, 0] · slices_S3x32_S1x32_1_0) : (⟨S3x32, .f32⟩ : BufTy).Contents (Elt F) → (⟨S1x32, .f32⟩ : BufTy).Contents (Elt F)),
    StableHlo.reshape main_v59 main_v60 rfl shapeCasts_S1x32_S32,
    StableHlo.binary main_v58 main_v60 main_v61 (addf : (⟨S32, .f32⟩ : BufTy).Contents (Elt F) → (⟨S32, .f32⟩ : BufTy).Contents (Elt F) → (⟨S32, .f32⟩ : BufTy).Contents (Elt F)) ]

theorem hostOps0_4_split : (hostOps0_4 : List (HloOp τ sig (Elt F))) = coefOps ++ (aggOps ++ (packP :: (wrOps ++ (packWr :: brOps)))) := rfl

abbrev aggHrOps : List (HloOp τ sig (Elt F)) :=
  [
    StableHlo.unary main_v30 main_v63 (broadcastInDim S1600000x1 ![0] bcast_S1600000_S1600000x1_0 : (⟨S1600000, .f32⟩ : BufTy).Contents (Elt F) → (⟨S1600000x1, .f32⟩ : BufTy).Contents (Elt F)),
    StableHlo.nullary main_c_10 (constantI S_ 32 0#32),
    StableHlo.unary main_c_10 main_v64 (broadcastInDim S1600000 ![] bcast_S_S1600000 : (⟨S_, .i32⟩ : BufTy).Contents (Elt F) → (⟨S1600000, .i32⟩ : BufTy).Contents (Elt F)),
    StableHlo.binary main_v1 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v66 (broadcastInDim S1600000 ![] bcast_S_S1600000 : (⟨S_, .i32⟩ : BufTy).Contents (Elt F) → (⟨S1600000, .i32⟩ : BufTy).Contents (Elt F)),
    StableHlo.binary main_v1 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_v1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v62 main_v69 main_v70 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v63 main_v71 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v71 main_v70 main_v72 (mulf : (⟨S1600000x32, .f32⟩ : BufTy).Contents (Elt F) → (⟨S1600000x32, .f32⟩ : BufTy).Contents (Elt F) → (⟨S1600000x32, .f32⟩ : BufTy).Contents (Elt F)),
    StableHlo.nullary main_cst_12 (constant S_ .f32 0x00000000#32),
    StableHlo.unary main_cst_12 main_v73 (broadcastInDim S100000x32 ![] bcast_S_S100000x32 : (⟨S_, .f32⟩ : BufTy).Contents (Elt F) → (⟨S100000x32, .f32⟩ : BufTy).Contents (Elt F)),
    StableHlo.unary main_v3 main_v74 (broadcastInDim S1600000x1 ![0] bcast_S1600000_S1600000x1_0 : (⟨S1600000, .i32⟩ : BufTy).Contents (Elt F) → (⟨S1600000x1, .i32⟩ : BufTy).Contents (Elt F)),
    StableHlo.ternary main_v73 main_v74 main_v72 main_v75 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ]
abbrev packPc : HloOp τ sig (Elt F) :=
  StableHlo.nary ![main_arg0, main_v62, main_v45, main_v75] main_v76 (fun u => concatenate S100000x128 1 [⟨S100000x32, u 0⟩, ⟨S100000x32, u 1⟩, ⟨S100000x32, u 2⟩, ⟨S100000x32, u 3⟩] concatenates_S100000x32_S100000x32_S100000x32_S100000x32_S100000x128_d1)
abbrev wzOps : List (HloOp τ sig (Elt F)) :=
  [
    StableHlo.unary main_arg4 main_v77 ((extractStridedSlice S1x1x32x32 ![0, 0, 0, 0] · slices_S3x2x32x32_S1x1x32x32_0_0_0_0) : (⟨S3x2x32x32, .f32⟩ : BufTy).Contents (Elt F) → (⟨S1x1x32x32, .f32⟩ : BufTy).Contents (Elt F)),
    StableHlo.reshape main_v77 main_v78 rfl shapeCasts_S1x1x32x32_S32x32,
    StableHlo.unary main_arg6 main_v79 ((extractStridedSlice S1x1x32x32 ![0, 0, 0, 0] · slices_S3x2x32x32_S1x1x32x32_0_0_0_0) : (⟨S3x2x32x32, .f32⟩ : BufTy).Contents (Elt F) → (⟨S1x1x32x32, .f32⟩ : BufTy).Contents (Elt F)),
    StableHlo.reshape main_v79 main_v80 rfl shapeCasts_S1x1x32x32_S32x32,
    StableHlo.unary main_arg4 main_v81 ((extractStridedSlice S1x1x32x32 ![0, 1, 0, 0] · slices_S3x2x32x32_S1x1x32x32_0_1_0_0) : (⟨S3x2x32x32, .f32⟩ : BufTy).Contents (Elt F) → (⟨S1x1x32x32, .f32⟩ : BufTy).Contents (Elt F)),
    StableHlo.reshape main_v81 main_v82 rfl shapeCasts_S1x1x32x32_S32x32,
    StableHlo.unary main_arg6 main_v83 ((extractStridedSlice S1x1x32x32 ![0, 1, 0, 0] · slices_S3x2x32x32_S1x1x32x32_0_1_0_0) : (⟨S3x2x32x32, .f32⟩ : BufTy).Contents (Elt F) → (⟨S1x1x32x32, .f32⟩ : BufTy).Contents (Elt F)),
    StableHlo.reshape main_v83 main_v84 rfl shapeCasts_S1x1x32x32_S32x32 ]
abbrev packWz : HloOp τ sig (Elt F) :=
  StableHlo.nary ![main_v78, main_v80, main_v82, main_v84] main_v85 (fun u => concatenate S128x32 0 [⟨S32x32, u 0⟩, ⟨S32x32, u 1⟩, ⟨S32x32, u 2⟩, ⟨S32x32, u 3⟩] concatenates_S32x32_S32x32_S32x32_S32x32_S128x32_d0)
abbrev bzOps : List (HloOp τ sig (Elt F)) :=
  [
    StableHlo.unary main_arg5 main_v86 ((extractStridedSlice S1x32 ![0, 0] · slices_S3x32_S1x32_0_0) : (⟨S3x32, .f32⟩ : BufTy).Contents (Elt F) → (⟨S1x32, .f32⟩ : BufTy).Contents (Elt F)),
    StableHlo.reshape main_v86 main_v87 rfl shapeCasts_S1x32_S32,
    StableHlo.unary main_arg7 main_v88 ((extractStridedSlice S1x32 ![0, 0] · slices_S3x32_S1x32_0_0) : (⟨S3x32, .f32⟩ : BufTy).Contents (Elt F) → (⟨S1x32, .f32⟩ : BufTy).Contents (Elt F)),
    StableHlo.reshape main_v88 main_v89 rfl shapeCasts_S1x32_S32,
    StableHlo.binary main_v87 main_v89 main_v90 (addf : (⟨S32, .f32⟩ : BufTy).Contents (Elt F) → (⟨S32, .f32⟩ : BufTy).Contents (Elt F) → (⟨S32, .f32⟩ : BufTy).Contents (Elt F)) ]
abbrev wcOps : List (HloOp τ sig (Elt F)) :=
  [
    StableHlo.unary main_arg4 main_v91 ((extractStridedSlice S1x1x32x32 ![2, 0, 0, 0] · slices_S3x2x32x32_S1x1x32x32_2_0_0_0) : (⟨S3x2x32x32, .f32⟩ : BufTy).Contents (Elt F) → (⟨S1x1x32x32, .f32⟩ : BufTy).Contents (Elt F)),
    StableHlo.reshape main_v91 main_v92 rfl shapeCasts_S1x1x32x32_S32x32,
    StableHlo.unary main_arg6 main_v93 ((extractStridedSlice S1x1x32x32 ![2, 0, 0, 0] · slices_S3x2x32x32_S1x1x32x32_2_0_0_0) : (⟨S3x2x32x32, .f32⟩ : BufTy).Contents (Elt F) → (⟨S1x1x32x32, .f32⟩ : BufTy).Contents (Elt F)),
    StableHlo.reshape main_v93 main_v94 rfl shapeCasts_S1x1x32x32_S32x32,
    StableHlo.unary main_arg4 main_v95 ((extractStridedSlice S1x1x32x32 ![2, 1, 0, 0] · slices_S3x2x32x32_S1x1x32x32_2_1_0_0) : (⟨S3x2x32x32, .f32⟩ : BufTy).Contents (Elt F) → (⟨S1x1x32x32, .f32⟩ : BufTy).Contents (Elt F)),
    StableHlo.reshape main_v95 main_v96 rfl shapeCasts_S1x1x32x32_S32x32,
    StableHlo.unary main_arg6 main_v97 ((extractStridedSlice S1x1x32x32 ![2, 1, 0, 0] · slices_S3x2x32x32_S1x1x32x32_2_1_0_0) : (⟨S3x2x32x32, .f32⟩ : BufTy).Contents (Elt F) → (⟨S1x1x32x32, .f32⟩ : BufTy).Contents (Elt F)),
    StableHlo.reshape main_v97 main_v98 rfl shapeCasts_S1x1x32x32_S32x32 ]
abbrev packWc : HloOp τ sig (Elt F) :=
  StableHlo.nary ![main_v92, main_v94, main_v96, main_v98] main_v99 (fun u => concatenate S128x32 0 [⟨S32x32, u 0⟩, ⟨S32x32, u 1⟩, ⟨S32x32, u 2⟩, ⟨S32x32, u 3⟩] concatenates_S32x32_S32x32_S32x32_S32x32_S128x32_d0)
abbrev bcOps : List (HloOp τ sig (Elt F)) :=
  [
    StableHlo.unary main_arg5 main_v100 ((extractStridedSlice S1x32 ![2, 0] · slices_S3x32_S1x32_2_0) : (⟨S3x32, .f32⟩ : BufTy).Contents (Elt F) → (⟨S1x32, .f32⟩ : BufTy).Contents (Elt F)),
    StableHlo.reshape main_v100 main_v101 rfl shapeCasts_S1x32_S32,
    StableHlo.unary main_arg7 main_v102 ((extractStridedSlice S1x32 ![2, 0] · slices_S3x32_S1x32_2_0) : (⟨S3x32, .f32⟩ : BufTy).Contents (Elt F) → (⟨S1x32, .f32⟩ : BufTy).Contents (Elt F)),
    StableHlo.reshape main_v102 main_v103 rfl shapeCasts_S1x32_S32,
    StableHlo.binary main_v101 main_v103 main_v104 (addf : (⟨S32, .f32⟩ : BufTy).Contents (Elt F) → (⟨S32, .f32⟩ : BufTy).Contents (Elt F) → (⟨S32, .f32⟩ : BufTy).Contents (Elt F)) ]
abbrev rowOps : List (HloOp τ sig (Elt F)) :=
  [
    StableHlo.reshape main_arg8 main_v105 rfl shapeCasts_S32x1_S1x32,
    StableHlo.reshape main_arg9 main_v106 rfl shapeCasts_S1_S1x1 ]

theorem hostOps1_split : (hostOps1 : List (HloOp τ sig (Elt F))) = aggHrOps ++ (packPc :: (wzOps ++ (packWz :: (bzOps ++ (wcOps ++ (packWc :: (bcOps ++ rowOps))))))) := rfl

end Cert.KernelIdeal.Val

end
-- ==== Proof.LibLayoutReads.lean ====
/-
  Small layout facts read at an entry, for any element type, over literal shapes of a 100000-node, 32-channel graph layer
  with three gates and two Chebyshev orders:
  * four N×32 arrays concatenated along the columns into N×128: entry (n, 32a + k) is piece a at (n, k);
  * four 32×32 arrays concatenated along the rows into 128×32: entry (32a + k, j) is piece a at (k, j);
  * a 1×1×32×32 slice of a 3×2×32×32 weight at offsets (g, t, 0, 0), flattened to 32×32: entry (k, j) is the weight at (g, t, k, j);
  * a 1×32 slice of a 3×32 bias at offsets (g, 0), flattened to 32: entry j is the bias at (g, j);
  * a 32×1 column flattened to a 1×32 row, and a length-1 vector made 1×1.
-/
import Idealize.ShloMosaic.Lib.Pipeline.Value
import Idealize.ShloMosaic.Lib.ValueIdx
import Idealize.ShloMosaic.Lib.ValueLayout

set_option maxRecDepth 16384

noncomputable section

namespace Cert.Lib.LayoutReads

open Idealize.ShloMosaic Idealize.ShloMosaic.ValueIdx

variable {α : Type}

abbrev SN32 : Shape := ⟨2, ![100000, 32]⟩
abbrev SN128 : Shape := ⟨2, ![100000, 128]⟩
abbrev S32x32' : Shape := ⟨2, ![32, 32]⟩
abbrev S128x32' : Shape := ⟨2, ![128, 32]⟩

/-- Columns 0…31 of the four-piece concatenation along the columns are piece 0. -/
theorem cols4_p0 (x0 x1 x2 x3 : SN32.Idx → α) (h : Shape.Concatenates [SN32, SN32, SN32, SN32] SN128 1) (n : Fin 100000) (k : Fin 32) :
    concatenate SN128 1 [⟨SN32, x0⟩, ⟨SN32, x1⟩, ⟨SN32, x2⟩, ⟨SN32, x3⟩] h (ix2 n (⟨0 + k.val, by have := k.isLt; omega⟩ : Fin 128)) = x0 (ix2 n k) :=
  concatenate_apply_piece (t := SN128) (1 : Fin 2) [⟨SN32, x0⟩, ⟨SN32, x1⟩, ⟨SN32, x2⟩, ⟨SN32, x3⟩] h _ 0 (by simp) SN32 x0 rfl rfl 0 rfl (ix2 n k)
    (fun b hb => by
      match b with
      | ⟨0, _⟩ => rfl
      | ⟨1, _⟩ => exact absurd rfl hb) rfl

/-- Columns 32…63 of the four-piece concatenation along the columns are piece 1. -/
theorem cols4_p1 (x0 x1 x2 x3 : SN32.Idx → α) (h : Shape.Concatenates [SN32, SN32, SN32, SN32] SN128 1) (n : Fin 100000) (k : Fin 32) :
    concatenate SN128 1 [⟨SN32, x0⟩, ⟨SN32, x1⟩, ⟨SN32, x2⟩, ⟨SN32, x3⟩] h (ix2 n (⟨32 + k.val, by have := k.isLt; omega⟩ : Fin 128)) = x1 (ix2 n k) :=
  concatenate_apply_piece (t := SN128) (1 : Fin 2) [⟨SN32, x0⟩, ⟨SN32, x1⟩, ⟨SN32, x2⟩, ⟨SN32, x3⟩] h _ 1 (by simp) SN32 x1 rfl rfl 32 rfl (ix2 n k)
    (fun b hb => by
      match b with
      | ⟨0, _⟩ => rfl
      | ⟨1, _⟩ => exact absurd rfl hb) rfl

/-- Columns 64…95 of the four-piece concatenation along the columns are piece 2. -/
theorem cols4_p2 (x0 x1 x2 x3 : SN32.Idx → α) (h : Shape.Concatenates [SN32, SN32, SN32, SN32] SN128 1) (n : Fin 100000) (k : Fin 32) :
    concatenate SN128 1 [⟨SN32, x0⟩, ⟨SN32, x1⟩, ⟨SN32, x2⟩, ⟨SN32, x3⟩] h (ix2 n (⟨64 + k.val, by have := k.isLt; omega⟩ : Fin 128)) = x2 (ix2 n k) :=
  concatenate_apply_piece (t := SN128) (1 : Fin 2) [⟨SN32, x0⟩, ⟨SN32, x1⟩, ⟨SN32, x2⟩, ⟨SN32, x3⟩] h _ 2 (by simp) SN32 x2 rfl rfl 64 rfl (ix2 n k)
    (fun b hb => by
      match b with
      | ⟨0, _⟩ => rfl
      | ⟨1, _⟩ => exact absurd rfl hb) rfl

/-- Columns 96…127 of the four-piece concatenation along the columns are piece 3. -/
theorem cols4_p3 (x0 x1 x2 x3 : SN32.Idx → α) (h : Shape.Concatenates [SN32, SN32, SN32, SN32] SN128 1) (n : Fin 100000) (k : Fin 32) :
    concatenate SN128 1 [⟨SN32, x0⟩, ⟨SN32, x1⟩, ⟨SN32, x2⟩, ⟨SN32, x3⟩] h (ix2 n (⟨96 + k.val, by have := k.isLt; omega⟩ : Fin 128)) = x3 (ix2 n k) :=
  concatenate_apply_piece (t := SN128) (1 : Fin 2) [⟨SN32, x0⟩, ⟨SN32, x1⟩, ⟨SN32, x2⟩, ⟨SN32, x3⟩] h _ 3 (by simp) SN32 x3 rfl rfl 96 rfl (ix2 n k)
    (fun b hb => by
      match b with
      | ⟨0, _⟩ => rfl
      | ⟨1, _⟩ => exact absurd rfl hb) rfl

/-- Rows 0…31 of the four-piece concatenation along the rows are piece 0. -/
theorem rows4_p0 (w0 w1 w2 w3 : S32x32'.Idx → α) (h : Shape.Concatenates [S32x32', S32x32', S32x32', S32x32'] S128x32' 0) (k j : Fin 32) :
    concatenate S128x32' 0 [⟨S32x32', w0⟩, ⟨S32x32', w1⟩, ⟨S32x32', w2⟩, ⟨S32x32', w3⟩] h (ix2 (⟨0 + k.val, by have := k.isLt; omega⟩ : Fin 128) j) = w0 (ix2 k j) :=
  concatenate_apply_piece (t := S128x32') (0 : Fin 2) [⟨S32x32', w0⟩, ⟨S32x32', w1⟩, ⟨S32x32', w2⟩, ⟨S32x32', w3⟩] h _ 0 (by simp) S32x32' w0 rfl rfl 0 rfl (ix2 k j)
    (fun b hb => by
      match b with
      | ⟨0, _⟩ => exact absurd rfl hb
      | ⟨1, _⟩ => rfl) rfl

/-- Rows 32…63 of the four-piece concatenation along the rows are piece 1. -/
theorem rows4_p1 (w0 w1 w2 w3 : S32x32'.Idx → α) (h : Shape.Concatenates [S32x32', S32x32', S32x32', S32x32'] S128x32' 0) (k j : Fin 32) :
    concatenate S128x32' 0 [⟨S32x32', w0⟩, ⟨S32x32', w1⟩, ⟨S32x32', w2⟩, ⟨S32x32', w3⟩] h (ix2 (⟨32 + k.val, by have := k.isLt; omega⟩ : Fin 128) j) = w1 (ix2 k j) :=
  concatenate_apply_piece (t := S128x32') (0 : Fin 2) [⟨S32x32', w0⟩, ⟨S32x32', w1⟩, ⟨S32x32', w2⟩, ⟨S32x32', w3⟩] h _ 1 (by simp) S32x32' w1 rfl rfl 32 rfl (ix2 k j)
    (fun b hb => by
      match b with
      | ⟨0, _⟩ => exact absurd rfl hb
      | ⟨1, _⟩ => rfl) rfl

/-- Rows 64…95 of the four-piece concatenation along the rows are piece 2. -/
theorem rows4_p2 (w0 w1 w2 w3 : S32x32'.Idx → α) (h : Shape.Concatenates [S32x32', S32x32', S32x32', S32x32'] S128x32' 0) (k j : Fin 32) :
    concatenate S128x32' 0 [⟨S32x32', w0⟩, ⟨S32x32', w1⟩, ⟨S32x32', w2⟩, ⟨S32x32', w3⟩] h (ix2 (⟨64 + k.val, by have := k.isLt; omega⟩ : Fin 128) j) = w2 (ix2 k j) :=
  concatenate_apply_piece (t := S128x32') (0 : Fin 2) [⟨S32x32', w0⟩, ⟨S32x32', w1⟩, ⟨S32x32', w2⟩, ⟨S32x32', w3⟩] h _ 2 (by simp) S32x32' w2 rfl rfl 64 rfl (ix2 k j)
    (fun b hb => by
      match b with
      | ⟨0, _⟩ => exact absurd rfl hb
      | ⟨1, _⟩ => rfl) rfl

/-- Rows 96…127 of the four-piece concatenation along the rows are piece 3. -/
theorem rows4_p3 (w0 w1 w2 w3 : S32x32'.Idx → α) (h : Shape.Concatenates [S32x32', S32x32', S32x32', S32x32'] S128x32' 0) (k j : Fin 32) :
    concatenate S128x32' 0 [⟨S32x32', w0⟩, ⟨S32x32', w1⟩, ⟨S32x32', w2⟩, ⟨S32x32', w3⟩] h (ix2 (⟨96 + k.val, by have := k.isLt; omega⟩ : Fin 128) j) = w3 (ix2 k j) :=
  concatenate_apply_piece (t := S128x32') (0 : Fin 2) [⟨S32x32', w0⟩, ⟨S32x32', w1⟩, ⟨S32x32', w2⟩, ⟨S32x32', w3⟩] h _ 3 (by simp) S32x32' w3 rfl rfl 96 rfl (ix2 k j)
    (fun b hb => by
      match b with
      | ⟨0, _⟩ => exact absurd rfl hb
      | ⟨1, _⟩ => rfl) rfl

/-- One gate's, one order's 32×32 weight out of the 3×2×32×32 array. -/
theorem wslice_apply (A : (⟨4, ![3, 2, 32, 32]⟩ : Shape).Idx → α) (g t : ℕ) (hg : g < 3) (ht : t < 2)
    (hs : (⟨4, ![3, 2, 32, 32]⟩ : Shape).Slices ![g, t, 0, 0] ⟨4, ![1, 1, 32, 32]⟩)
    (hc : (⟨4, ![1, 1, 32, 32]⟩ : Shape).ShapeCasts ⟨2, ![32, 32]⟩) (k j : Fin 32) :
    shapeCast ⟨2, ![32, 32]⟩ (extractStridedSlice ⟨4, ![1, 1, 32, 32]⟩ ![g, t, 0, 0] A hs) hc (ix2 k j)
      = A (ix4 (⟨g, hg⟩ : Fin 3) (⟨t, ht⟩ : Fin 2) k j) := by
  refine (shapeCast_apply _ hc (ix2 k j) (ix4 (0 : Fin 1) (0 : Fin 1) k j) ?_).trans ?_
  · rw [Shape.rowMajor_val_four, Shape.rowMajor_val_two]
    show ((0 * 1 + 0) * 32 + k.val) * 32 + j.val = k.val * 32 + j.val
    omega
  · refine extractStridedSlice_apply _ A hs _ (ix4 (⟨g, hg⟩ : Fin 3) (⟨t, ht⟩ : Fin 2) k j) fun b => ?_
    match b with
    | ⟨0, _⟩ => show g = g + 0; omega
    | ⟨1, _⟩ => show t = t + 0; omega
    | ⟨2, _⟩ => show k.val = 0 + k.val; omega
    | ⟨3, _⟩ => show j.val = 0 + j.val; omega

/-- One gate's bias out of the 3×32 array. -/
theorem bslice_apply (A : (⟨2, ![3, 32]⟩ : Shape).Idx → α) (g : ℕ) (hg : g < 3)
    (hs : (⟨2, ![3, 32]⟩ : Shape).Slices ![g, 0] ⟨2, ![1, 32]⟩) (hc : (⟨2, ![1, 32]⟩ : Shape).ShapeCasts ⟨1, ![32]⟩) (j : Fin 32) :
    shapeCast ⟨1, ![32]⟩ (extractStridedSlice ⟨2, ![1, 32]⟩ ![g, 0] A hs) hc (ix1 j) = A (ix2 (⟨g, hg⟩ : Fin 3) j) := by
  refine (shapeCast_apply _ hc (ix1 j) (ix2 (0 : Fin 1) j) ?_).trans ?_
  · rw [Shape.rowMajor_val_two, Shape.rowMajor_val_one]
    show 0 * 32 + j.val = j.val
    omega
  · refine extractStridedSlice_apply _ A hs _ (ix2 (⟨g, hg⟩ : Fin 3) j) fun b => ?_
    match b with
    | ⟨0, _⟩ => show g = g + 0; omega
    | ⟨1, _⟩ => show j.val = 0 + j.val; omega

/-- A 32×1 column flattened to a 1×32 row. -/
theorem col_as_row_apply (A : (⟨2, ![32, 1]⟩ : Shape).Idx → α) (hc : (⟨2, ![32, 1]⟩ : Shape).ShapeCasts ⟨2, ![1, 32]⟩) (u : Fin 1) (j : Fin 32) :
    shapeCast ⟨2, ![1, 32]⟩ A hc (ix2 u j) = A (ix2 j (0 : Fin 1)) := by
  refine shapeCast_apply A hc (ix2 u j) (ix2 j (0 : Fin 1)) ?_
  rw [Shape.rowMajor_val_two, Shape.rowMajor_val_two]
  have hu : u.val < 1 := u.isLt
  show j.val * 1 + 0 = u.val * 32 + j.val
  omega

/-- A length-1 vector made 1×1. -/
theorem one_as_1x1_apply (A : (⟨1, ![1]⟩ : Shape).Idx → α) (hc : (⟨1, ![1]⟩ : Shape).ShapeCasts ⟨2, ![1, 1]⟩) (u v : Fin 1) :
    shapeCast ⟨2, ![1, 1]⟩ A hc (ix2 u v) = A (ix1 (0 : Fin 1)) := by
  refine shapeCast_apply A hc (ix2 u v) (ix1 (0 : Fin 1)) ?_
  rw [Shape.rowMajor_val_two, Shape.rowMajor_val_one]
  have hu : u.val < 1 := u.isLt
  have hv : v.val < 1 := v.isLt
  show 0 = u.val * 1 + v.val
  omega

end Cert.Lib.LayoutReads

end
-- ==== Proof.IdealSide.KernelEntries.lean ====
/-
  The kernel program's host-side quantities before the reset-gate region, read off the short runs of its host operations:
  the edge coefficient is the reference's; each half of the fused aggregation of [x | h], read at (n, j), is the reference's
  own aggregation  0 + Σ_{e : dst(e) = n} coef(e) · v(clamp src(e), j)  of x, respectively of h.
-/
import proofs.«118658_j79585743995076_2_alg».proof.Proof.IdealSide.HostSegments
import proofs.«118658_j79585743995076_2_alg».proof.Proof.IdealSide.SharedPrefix
import proofs.«118658_j79585743995076_2_alg».proof.Proof.IdealSide.SegmentColumns
import proofs.«118658_j79585743995076_2_alg».proof.Proof.LibLayoutReads

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The contents after each run of the long stretch before the reset-gate region -/

abbrev B1 (c : Dev nD) : Valuation τ sig (Elt Ideal) := StableHlo.after coefOps (Gen.V4 m c)
abbrev B2 (c : Dev nD) : Valuation τ sig (Elt Ideal) := StableHlo.after aggOps (B1 m c)
abbrev B3 (c : Dev nD) : Valuation τ sig (Elt Ideal) := (packP (F := Ideal)).result (B2 m c)
abbrev B4 (c : Dev nD) : Valuation τ sig (Elt Ideal) := StableHlo.after wrOps (B3 m c)
abbrev B5 (c : Dev nD) : Valuation τ sig (Elt Ideal) := (packWr (F := Ideal)).result (B4 m c)

theorem V5_stages (c : Dev nD) : Gen.V5 m c = StableHlo.after brOps (B5 m c) := by
  show StableHlo.after hostOps0_4 (Gen.V4 m c) = _
  rw [hostOps0_4_split, after_append, after_append, after_cons, after_append, after_cons]

/-! ## After the first run: the edge coefficient -/

theorem b1_coef (c : Dev nD) : B1 m c main_v30 = Cert.ReferenceIdeal.Read.val_main_v30 (F := Ideal) (m ((c : Thread nD τ).loc main_arg1)) (m ((c : Thread nD τ).loc main_arg2)) := by
  have h0 := s3_v13 m c
  have h1 := s3_v1 m c
  have h2 := s3_v3 m c
  have h3 := s3_arg m c main_arg2 (by decide) (by decide) (by decide) (by decide)
  show StableHlo.after coefOps (Gen.V4 m c) (Proc.devRef .tc main_v30) = _
  generalize Gen.V4 m c = W at h0 h1 h2 h3 ⊢
  dsimp only [coefOps]
  after_results_simp
  rw [h0, h1, h2, h3]
  simp only [gath1_ns, Cert.ReferenceIdeal.Read.val_main_c, Cert.ReferenceIdeal.Read.val_main_v14, Cert.ReferenceIdeal.Read.val_main_v15, Cert.ReferenceIdeal.Read.val_main_c_4, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_c_5, Cert.ReferenceIdeal.Read.val_main_v22, Cert.ReferenceIdeal.Read.val_main_v23, Cert.ReferenceIdeal.Read.val_main_c_6, Cert.ReferenceIdeal.Read.val_main_v24, Cert.ReferenceIdeal.Read.val_main_v25, Cert.ReferenceIdeal.Read.val_main_v26, Cert.ReferenceIdeal.Read.val_main_v27, Cert.ReferenceIdeal.Read.val_main_v28, Cert.ReferenceIdeal.Read.val_main_v29, Cert.ReferenceIdeal.Read.val_main_v30]

theorem b1_keep_v1 (c : Dev nD) : B1 m c main_v1 = Gen.V4 m c main_v1 := by
  show StableHlo.after coefOps (Gen.V4 m c) (Proc.devRef .tc main_v1) = _
  generalize Gen.V4 m c = W
  dsimp only [coefOps]
  after_results_simp

theorem b1_keep_v3 (c : Dev nD) : B1 m c main_v3 = Gen.V4 m c main_v3 := by
  show StableHlo.after coefOps (Gen.V4 m c) (Proc.devRef .tc main_v3) = _
  generalize Gen.V4 m c = W
  dsimp only [coefOps]
  after_results_simp

theorem b1_keep_arg0 (c : Dev nD) : B1 m c main_arg0 = Gen.V4 m c main_arg0 := by
  show StableHlo.after coefOps (Gen.V4 m c) (Proc.devRef .tc main_arg0) = _
  generalize Gen.V4 m c = W
  dsimp only [coefOps]
  after_results_simp

theorem b1_keep_arg3 (c : Dev nD) : B1 m c main_arg3 = Gen.V4 m c main_arg3 := by
  show StableHlo.after coefOps (Gen.V4 m c) (Proc.devRef .tc main_arg3) = _
  generalize Gen.V4 m c = W
  dsimp only [coefOps]
  after_results_simp

theorem b1_v1 (c : Dev nD) : B1 m c main_v1 = Cert.ReferenceIdeal.Read.val_main_v1 (F := Ideal) (m ((c : Thread nD τ).loc main_arg1)) := (b1_keep_v1 m c).trans (s3_v1 m c)
theorem b1_v3 (c : Dev nD) : B1 m c main_v3 = Cert.ReferenceIdeal.Read.val_main_v3 (F := Ideal) (m ((c : Thread nD τ).loc main_arg1)) := (b1_keep_v3 m c).trans (s3_v3 m c)
theorem b1_arg0 (c : Dev nD) : B1 m c main_arg0 = (m ((c : Thread nD τ).loc main_arg0)) :=
  (b1_keep_arg0 m c).trans (s3_arg m c main_arg0 (by decide) (by decide) (by decide) (by decide))
theorem b1_arg3 (c : Dev nD) : B1 m c main_arg3 = (m ((c : Thread nD τ).loc main_arg3)) :=
  (b1_keep_arg3 m c).trans (s3_arg m c main_arg3 (by decide) (by decide) (by decide) (by decide))

/-! ## After the second run: the two halves of the fused aggregation -/

theorem b2_t1x (c : Dev nD) (n : Fin 100000) (j : Fin 32) :
    (B2 m c main_v45 : S100000x32.Idx → Ideal .f32) (ix2 n j) = segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (m ((c : Thread nD τ).loc main_arg0)) n j := by
  have h0 := b1_coef m c
  have h1 := b1_v1 m c
  have h2 := b1_v3 m c
  have h3 := b1_arg0 m c
  have h4 := b1_arg3 m c
  show StableHlo.after aggOps (B1 m c) (Proc.devRef .tc main_v45) (ix2 n j) = _
  generalize B1 m c = W at h0 h1 h2 h3 h4 ⊢
  dsimp only [aggOps]
  after_results_simp
  rw [h0, h1, h2, h3, h4]
  rw [agg_left]
  simp only [Cert.ReferenceIdeal.Read.val_main_v35, Cert.ReferenceIdeal.Read.val_main_c_7, Cert.ReferenceIdeal.Read.val_main_v36, Cert.ReferenceIdeal.Read.val_main_v37, Cert.ReferenceIdeal.Read.val_main_c_8, Cert.ReferenceIdeal.Read.val_main_v38, Cert.ReferenceIdeal.Read.val_main_v39, Cert.ReferenceIdeal.Read.val_main_v40, Cert.ReferenceIdeal.Read.val_main_v41, Cert.ReferenceIdeal.Read.val_main_v46]

theorem b2_t1h (c : Dev nD) (n : Fin 100000) (j : Fin 32) :
    (B2 m c main_v46 : S100000x32.Idx → Ideal .f32) (ix2 n j) = segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (m ((c : Thread nD τ).loc main_arg3)) n j := by
  have h0 := b1_coef m c
  have h1 := b1_v1 m c
  have h2 := b1_v3 m c
  have h3 := b1_arg0 m c
  have h4 := b1_arg3 m c
  show StableHlo.after aggOps (B1 m c) (Proc.devRef .tc main_v46) (ix2 n j) = _
  generalize B1 m c = W at h0 h1 h2 h3 h4 ⊢
  dsimp only [aggOps]
  after_results_simp
  rw [h0, h1, h2, h3, h4]
  rw [agg_right]
  simp only [Cert.ReferenceIdeal.Read.val_main_v35, Cert.ReferenceIdeal.Read.val_main_c_7, Cert.ReferenceIdeal.Read.val_main_v36, Cert.ReferenceIdeal.Read.val_main_v37, Cert.ReferenceIdeal.Read.val_main_c_8, Cert.ReferenceIdeal.Read.val_main_v38, Cert.ReferenceIdeal.Read.val_main_v39, Cert.ReferenceIdeal.Read.val_main_v40, Cert.ReferenceIdeal.Read.val_main_v41, Cert.ReferenceIdeal.Read.val_main_v46]

theorem b1_keep_arg4 (c : Dev nD) : B1 m c main_arg4 = Gen.V4 m c main_arg4 := by
  show StableHlo.after coefOps (Gen.V4 m c) (Proc.devRef .tc main_arg4) = _
  generalize Gen.V4 m c = W
  dsimp only [coefOps]
  after_results_simp

theorem b1_keep_arg5 (c : Dev nD) : B1 m c main_arg5 = Gen.V4 m c main_arg5 := by
  show StableHlo.after coefOps (Gen.V4 m c) (Proc.devRef .tc main_arg5) = _
  generalize Gen.V4 m c = W
  dsimp only [coefOps]
  after_results_simp

theorem b1_keep_arg6 (c : Dev nD) : B1 m c main_arg6 = Gen.V4 m c main_arg6 := by
  show StableHlo.after coefOps (Gen.V4 m c) (Proc.devRef .tc main_arg6) = _
  generalize Gen.V4 m c = W
  dsimp only [coefOps]
  after_results_simp

theorem b1_keep_arg7 (c : Dev nD) : B1 m c main_arg7 = Gen.V4 m c main_arg7 := by
  show StableHlo.after coefOps (Gen.V4 m c) (Proc.devRef .tc main_arg7) = _
  generalize Gen.V4 m c = W
  dsimp only [coefOps]
  after_results_simp

theorem b1_keep_arg8 (c : Dev nD) : B1 m c main_arg8 = Gen.V4 m c main_arg8 := by
  show StableHlo.after coefOps (Gen.V4 m c) (Proc.devRef .tc main_arg8) = _
  generalize Gen.V4 m c = W
  dsimp only [coefOps]
  after_results_simp

theorem b1_keep_arg9 (c : Dev nD) : B1 m c main_arg9 = Gen.V4 m c main_arg9 := by
  show StableHlo.after coefOps (Gen.V4 m c) (Proc.devRef .tc main_arg9) = _
  generalize Gen.V4 m c = W
  dsimp only [coefOps]
  after_results_simp

theorem b2_keep_arg0 (c : Dev nD) : B2 m c main_arg0 = B1 m c main_arg0 := by
  show StableHlo.after aggOps (B1 m c) (Proc.devRef .tc main_arg0) = _
  generalize B1 m c = W
  dsimp only [aggOps]
  after_results_simp

theorem b2_keep_arg3 (c : Dev nD) : B2 m c main_arg3 = B1 m c main_arg3 := by
  show StableHlo.after aggOps (B1 m c) (Proc.devRef .tc main_arg3) = _
  generalize B1 m c = W
  dsimp only [aggOps]
  after_results_simp

theorem b2_keep_arg4 (c : Dev nD) : B2 m c main_arg4 = B1 m c main_arg4 := by
  show StableHlo.after aggOps (B1 m c) (Proc.devRef .tc main_arg4) = _
  generalize B1 m c = W
  dsimp only [aggOps]
  after_results_simp

theorem b2_keep_arg5 (c : Dev nD) : B2 m c main_arg5 = B1 m c main_arg5 := by
  show StableHlo.after aggOps (B1 m c) (Proc.devRef .tc main_arg5) = _
  generalize B1 m c = W
  dsimp only [aggOps]
  after_results_simp

theorem b2_keep_arg6 (c : Dev nD) : B2 m c main_arg6 = B1 m c main_arg6 := by
  show StableHlo.after aggOps (B1 m c) (Proc.devRef .tc main_arg6) = _
  generalize B1 m c = W
  dsimp only [aggOps]
  after_results_simp

theorem b2_keep_arg7 (c : Dev nD) : B2 m c main_arg7 = B1 m c main_arg7 := by
  show StableHlo.after aggOps (B1 m c) (Proc.devRef .tc main_arg7) = _
  generalize B1 m c = W
  dsimp only [aggOps]
  after_results_simp

theorem b2_keep_arg8 (c : Dev nD) : B2 m c main_arg8 = B1 m c main_arg8 := by
  show StableHlo.after aggOps (B1 m c) (Proc.devRef .tc main_arg8) = _
  generalize B1 m c = W
  dsimp only [aggOps]
  after_results_simp

theorem b2_keep_arg9 (c : Dev nD) : B2 m c main_arg9 = B1 m c main_arg9 := by
  show StableHlo.after aggOps (B1 m c) (Proc.devRef .tc main_arg9) = _
  generalize B1 m c = W
  dsimp only [aggOps]
  after_results_simp

theorem b3_keep_arg0 (c : Dev nD) : B3 m c main_arg0 = B2 m c main_arg0 := by
  show (packP (F := Ideal)).result (B2 m c) (Proc.devRef .tc main_arg0) = _
  generalize B2 m c = W
  dsimp only [packP]
  after_results_simp

theorem b3_keep_arg3 (c : Dev nD) : B3 m c main_arg3 = B2 m c main_arg3 := by
  show (packP (F := Ideal)).result (B2 m c) (Proc.devRef .tc main_arg3) = _
  generalize B2 m c = W
  dsimp only [packP]
  after_results_simp

theorem b3_keep_arg4 (c : Dev nD) : B3 m c main_arg4 = B2 m c main_arg4 := by
  show (packP (F := Ideal)).result (B2 m c) (Proc.devRef .tc main_arg4) = _
  generalize B2 m c = W
  dsimp only [packP]
  after_results_simp

theorem b3_keep_arg5 (c : Dev nD) : B3 m c main_arg5 = B2 m c main_arg5 := by
  show (packP (F := Ideal)).result (B2 m c) (Proc.devRef .tc main_arg5) = _
  generalize B2 m c = W
  dsimp only [packP]
  after_results_simp

theorem b3_keep_arg6 (c : Dev nD) : B3 m c main_arg6 = B2 m c main_arg6 := by
  show (packP (F := Ideal)).result (B2 m c) (Proc.devRef .tc main_arg6) = _
  generalize B2 m c = W
  dsimp only [packP]
  after_results_simp

theorem b3_keep_arg7 (c : Dev nD) : B3 m c main_arg7 = B2 m c main_arg7 := by
  show (packP (F := Ideal)).result (B2 m c) (Proc.devRef .tc main_arg7) = _
  generalize B2 m c = W
  dsimp only [packP]
  after_results_simp

theorem b3_keep_arg8 (c : Dev nD) : B3 m c main_arg8 = B2 m c main_arg8 := by
  show (packP (F := Ideal)).result (B2 m c) (Proc.devRef .tc main_arg8) = _
  generalize B2 m c = W
  dsimp only [packP]
  after_results_simp

theorem b3_keep_arg9 (c : Dev nD) : B3 m c main_arg9 = B2 m c main_arg9 := by
  show (packP (F := Ideal)).result (B2 m c) (Proc.devRef .tc main_arg9) = _
  generalize B2 m c = W
  dsimp only [packP]
  after_results_simp

theorem b1_arg4 (c : Dev nD) : B1 m c main_arg4 = (m ((c : Thread nD τ).loc main_arg4)) :=
  (b1_keep_arg4 m c).trans (s3_arg m c main_arg4 (by decide) (by decide) (by decide) (by decide))
theorem b1_arg5 (c : Dev nD) : B1 m c main_arg5 = (m ((c : Thread nD τ).loc main_arg5)) :=
  (b1_keep_arg5 m c).trans (s3_arg m c main_arg5 (by decide) (by decide) (by decide) (by decide))
theorem b1_arg6 (c : Dev nD) : B1 m c main_arg6 = (m ((c : Thread nD τ).loc main_arg6)) :=
  (b1_keep_arg6 m c).trans (s3_arg m c main_arg6 (by decide) (by decide) (by decide) (by decide))
theorem b1_arg7 (c : Dev nD) : B1 m c main_arg7 = (m ((c : Thread nD τ).loc main_arg7)) :=
  (b1_keep_arg7 m c).trans (s3_arg m c main_arg7 (by decide) (by decide) (by decide) (by decide))
theorem b1_arg8 (c : Dev nD) : B1 m c main_arg8 = (m ((c : Thread nD τ).loc main_arg8)) :=
  (b1_keep_arg8 m c).trans (s3_arg m c main_arg8 (by decide) (by decide) (by decide) (by decide))
theorem b1_arg9 (c : Dev nD) : B1 m c main_arg9 = (m ((c : Thread nD τ).loc main_arg9)) :=
  (b1_keep_arg9 m c).trans (s3_arg m c main_arg9 (by decide) (by decide) (by decide) (by decide))
theorem b2_arg0 (c : Dev nD) : B2 m c main_arg0 = (m ((c : Thread nD τ).loc main_arg0)) := (b2_keep_arg0 m c).trans (b1_arg0 m c)
theorem b2_arg3 (c : Dev nD) : B2 m c main_arg3 = (m ((c : Thread nD τ).loc main_arg3)) := (b2_keep_arg3 m c).trans (b1_arg3 m c)
theorem b2_arg4 (c : Dev nD) : B2 m c main_arg4 = (m ((c : Thread nD τ).loc main_arg4)) := (b2_keep_arg4 m c).trans (b1_arg4 m c)
theorem b2_arg5 (c : Dev nD) : B2 m c main_arg5 = (m ((c : Thread nD τ).loc main_arg5)) := (b2_keep_arg5 m c).trans (b1_arg5 m c)
theorem b2_arg6 (c : Dev nD) : B2 m c main_arg6 = (m ((c : Thread nD τ).loc main_arg6)) := (b2_keep_arg6 m c).trans (b1_arg6 m c)
theorem b2_arg7 (c : Dev nD) : B2 m c main_arg7 = (m ((c : Thread nD τ).loc main_arg7)) := (b2_keep_arg7 m c).trans (b1_arg7 m c)
theorem b2_arg8 (c : Dev nD) : B2 m c main_arg8 = (m ((c : Thread nD τ).loc main_arg8)) := (b2_keep_arg8 m c).trans (b1_arg8 m c)
theorem b2_arg9 (c : Dev nD) : B2 m c main_arg9 = (m ((c : Thread nD τ).loc main_arg9)) := (b2_keep_arg9 m c).trans (b1_arg9 m c)
theorem b3_arg0 (c : Dev nD) : B3 m c main_arg0 = (m ((c : Thread nD τ).loc main_arg0)) := (b3_keep_arg0 m c).trans (b2_arg0 m c)
theorem b3_arg3 (c : Dev nD) : B3 m c main_arg3 = (m ((c : Thread nD τ).loc main_arg3)) := (b3_keep_arg3 m c).trans (b2_arg3 m c)
theorem b3_arg4 (c : Dev nD) : B3 m c main_arg4 = (m ((c : Thread nD τ).loc main_arg4)) := (b3_keep_arg4 m c).trans (b2_arg4 m c)
theorem b3_arg5 (c : Dev nD) : B3 m c main_arg5 = (m ((c : Thread nD τ).loc main_arg5)) := (b3_keep_arg5 m c).trans (b2_arg5 m c)
theorem b3_arg6 (c : Dev nD) : B3 m c main_arg6 = (m ((c : Thread nD τ).loc main_arg6)) := (b3_keep_arg6 m c).trans (b2_arg6 m c)
theorem b3_arg7 (c : Dev nD) : B3 m c main_arg7 = (m ((c : Thread nD τ).loc main_arg7)) := (b3_keep_arg7 m c).trans (b2_arg7 m c)
theorem b3_arg8 (c : Dev nD) : B3 m c main_arg8 = (m ((c : Thread nD τ).loc main_arg8)) := (b3_keep_arg8 m c).trans (b2_arg8 m c)
theorem b3_arg9 (c : Dev nD) : B3 m c main_arg9 = (m ((c : Thread nD τ).loc main_arg9)) := (b3_keep_arg9 m c).trans (b2_arg9 m c)

/-! ## After the third run: the packed row block [x | h | T1 x | T1 h], column block by column block -/

theorem b3_P0 (c : Dev nD) (n : Fin 100000) (k : Fin 32) :
    (B3 m c main_v47 : S100000x128.Idx → Ideal .f32) (ix2 n (⟨0 + k.val, by have := k.isLt; omega⟩ : Fin 128)) = (m ((c : Thread nD τ).loc main_arg0)) (ix2 n k) := by
  have h0 := b2_arg0 m c
  have h3 := b2_arg3 m c
  have hx := fun n j => b2_t1x m c n j
  have hh := fun n j => b2_t1h m c n j
  show (packP (F := Ideal)).result (B2 m c) (Proc.devRef .tc main_v47) (ix2 n _) = _
  generalize B2 m c = W at h0 h3 hx hh ⊢
  dsimp only [packP]
  rw [nary4_result]
  refine (Cert.Lib.LayoutReads.cols4_p0 (W (Proc.devRef .tc main_arg0)) (W (Proc.devRef .tc main_arg3)) (W (Proc.devRef .tc main_v45)) (W (Proc.devRef .tc main_v46)) _ n k).trans ?_
  rw [h0]

theorem b3_P1 (c : Dev nD) (n : Fin 100000) (k : Fin 32) :
    (B3 m c main_v47 : S100000x128.Idx → Ideal .f32) (ix2 n (⟨32 + k.val, by have := k.isLt; omega⟩ : Fin 128)) = (m ((c : Thread nD τ).loc main_arg3)) (ix2 n k) := by
  have h0 := b2_arg0 m c
  have h3 := b2_arg3 m c
  have hx := fun n j => b2_t1x m c n j
  have hh := fun n j => b2_t1h m c n j
  show (packP (F := Ideal)).result (B2 m c) (Proc.devRef .tc main_v47) (ix2 n _) = _
  generalize B2 m c = W at h0 h3 hx hh ⊢
  dsimp only [packP]
  rw [nary4_result]
  refine (Cert.Lib.LayoutReads.cols4_p1 (W (Proc.devRef .tc main_arg0)) (W (Proc.devRef .tc main_arg3)) (W (Proc.devRef .tc main_v45)) (W (Proc.devRef .tc main_v46)) _ n k).trans ?_
  rw [h3]

theorem b3_P2 (c : Dev nD) (n : Fin 100000) (k : Fin 32) :
    (B3 m c main_v47 : S100000x128.Idx → Ideal .f32) (ix2 n (⟨64 + k.val, by have := k.isLt; omega⟩ : Fin 128)) = segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (m ((c : Thread nD τ).loc main_arg0)) n k := by
  have h0 := b2_arg0 m c
  have h3 := b2_arg3 m c
  have hx := fun n j => b2_t1x m c n j
  have hh := fun n j => b2_t1h m c n j
  show (packP (F := Ideal)).result (B2 m c) (Proc.devRef .tc main_v47) (ix2 n _) = _
  generalize B2 m c = W at h0 h3 hx hh ⊢
  dsimp only [packP]
  rw [nary4_result]
  refine (Cert.Lib.LayoutReads.cols4_p2 (W (Proc.devRef .tc main_arg0)) (W (Proc.devRef .tc main_arg3)) (W (Proc.devRef .tc main_v45)) (W (Proc.devRef .tc main_v46)) _ n k).trans ?_
  exact hx n k

theorem b3_P3 (c : Dev nD) (n : Fin 100000) (k : Fin 32) :
    (B3 m c main_v47 : S100000x128.Idx → Ideal .f32) (ix2 n (⟨96 + k.val, by have := k.isLt; omega⟩ : Fin 128)) = segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (m ((c : Thread nD τ).loc main_arg3)) n k := by
  have h0 := b2_arg0 m c
  have h3 := b2_arg3 m c
  have hx := fun n j => b2_t1x m c n j
  have hh := fun n j => b2_t1h m c n j
  show (packP (F := Ideal)).result (B2 m c) (Proc.devRef .tc main_v47) (ix2 n _) = _
  generalize B2 m c = W at h0 h3 hx hh ⊢
  dsimp only [packP]
  rw [nary4_result]
  refine (Cert.Lib.LayoutReads.cols4_p3 (W (Proc.devRef .tc main_arg0)) (W (Proc.devRef .tc main_arg3)) (W (Proc.devRef .tc main_v45)) (W (Proc.devRef .tc main_v46)) _ n k).trans ?_
  exact hh n k

end Cert.KernelIdeal.Val

end
-- ==== Proof.IdealSide.KernelGateR.lean ====
/-
  The reset gate's stacked weight and bias, and what the reset-gate region is entered with, read at an entry: row block a
  of the stacked 128×32 weight is one gate-1 slice of the two 3×2×32×32 weight arrays, in the order
  [Wx(1,0), Wh(1,0), Wx(1,1), Wh(1,1)] that matches the packed columns [x | h | T1 x | T1 h]; the bias is bx(1,·) + bh(1,·).
-/
import proofs.«118658_j79585743995076_2_alg».proof.Proof.IdealSide.KernelEntries

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

theorem b4_v49 (c : Dev nD) (k j : Fin 32) :
    (B4 m c main_v49 : S32x32.Idx → Ideal .f32) (ix2 k j) = (m ((c : Thread nD τ).loc main_arg4) : S3x2x32x32.Idx → Ideal .f32) (ix4 (⟨1, by decide⟩ : Fin 3) (⟨0, by decide⟩ : Fin 2) k j) := by
  have h := b3_arg4 m c
  show StableHlo.after wrOps (B3 m c) (Proc.devRef .tc main_v49) (ix2 k j) = _
  generalize B3 m c = W at h ⊢
  dsimp only [wrOps]
  after_results_simp
  rw [h]
  exact Cert.Lib.LayoutReads.wslice_apply _ 1 0 (by decide) (by decide) _ _ k j

theorem b4_v51 (c : Dev nD) (k j : Fin 32) :
    (B4 m c main_v51 : S32x32.Idx → Ideal .f32) (ix2 k j) = (m ((c : Thread nD τ).loc main_arg6) : S3x2x32x32.Idx → Ideal .f32) (ix4 (⟨1, by decide⟩ : Fin 3) (⟨0, by decide⟩ : Fin 2) k j) := by
  have h := b3_arg6 m c
  show StableHlo.after wrOps (B3 m c) (Proc.devRef .tc main_v51) (ix2 k j) = _
  generalize B3 m c = W at h ⊢
  dsimp only [wrOps]
  after_results_simp
  rw [h]
  exact Cert.Lib.LayoutReads.wslice_apply _ 1 0 (by decide) (by decide) _ _ k j

theorem b4_v53 (c : Dev nD) (k j : Fin 32) :
    (B4 m c main_v53 : S32x32.Idx → Ideal .f32) (ix2 k j) = (m ((c : Thread nD τ).loc main_arg4) : S3x2x32x32.Idx → Ideal .f32) (ix4 (⟨1, by decide⟩ : Fin 3) (⟨1, by decide⟩ : Fin 2) k j) := by
  have h := b3_arg4 m c
  show StableHlo.after wrOps (B3 m c) (Proc.devRef .tc main_v53) (ix2 k j) = _
  generalize B3 m c = W at h ⊢
  dsimp only [wrOps]
  after_results_simp
  rw [h]
  exact Cert.Lib.LayoutReads.wslice_apply _ 1 1 (by decide) (by decide) _ _ k j

theorem b4_v55 (c : Dev nD) (k j : Fin 32) :
    (B4 m c main_v55 : S32x32.Idx → Ideal .f32) (ix2 k j) = (m ((c : Thread nD τ).loc main_arg6) : S3x2x32x32.Idx → Ideal .f32) (ix4 (⟨1, by decide⟩ : Fin 3) (⟨1, by decide⟩ : Fin 2) k j) := by
  have h := b3_arg6 m c
  show StableHlo.after wrOps (B3 m c) (Proc.devRef .tc main_v55) (ix2 k j) = _
  generalize B3 m c = W at h ⊢
  dsimp only [wrOps]
  after_results_simp
  rw [h]
  exact Cert.Lib.LayoutReads.wslice_apply _ 1 1 (by decide) (by decide) _ _ k j

theorem b5_W0 (c : Dev nD) (k j : Fin 32) :
    (B5 m c main_v56 : S128x32.Idx → Ideal .f32) (ix2 (⟨0 + k.val, by have := k.isLt; omega⟩ : Fin 128) j)
      = (m ((c : Thread nD τ).loc main_arg4) : S3x2x32x32.Idx → Ideal .f32) (ix4 (⟨1, by decide⟩ : Fin 3) (⟨0, by decide⟩ : Fin 2) k j) := by
  have h0 := fun k j => b4_v49 m c k j
  have h1 := fun k j => b4_v51 m c k j
  have h2 := fun k j => b4_v53 m c k j
  have h3 := fun k j => b4_v55 m c k j
  show (packWr (F := Ideal)).result (B4 m c) (Proc.devRef .tc main_v56) (ix2 _ j) = _
  generalize B4 m c = W at h0 h1 h2 h3 ⊢
  dsimp only [packWr]
  rw [nary4_result]
  refine (Cert.Lib.LayoutReads.rows4_p0 (W (Proc.devRef .tc main_v49)) (W (Proc.devRef .tc main_v51)) (W (Proc.devRef .tc main_v53)) (W (Proc.devRef .tc main_v55)) _ k j).trans ?_
  exact h0 k j

theorem b5_W1 (c : Dev nD) (k j : Fin 32) :
    (B5 m c main_v56 : S128x32.Idx → Ideal .f32) (ix2 (⟨32 + k.val, by have := k.isLt; omega⟩ : Fin 128) j)
      = (m ((c : Thread nD τ).loc main_arg6) : S3x2x32x32.Idx → Ideal .f32) (ix4 (⟨1, by decide⟩ : Fin 3) (⟨0, by decide⟩ : Fin 2) k j) := by
  have h0 := fun k j => b4_v49 m c k j
  have h1 := fun k j => b4_v51 m c k j
  have h2 := fun k j => b4_v53 m c k j
  have h3 := fun k j => b4_v55 m c k j
  show (packWr (F := Ideal)).result (B4 m c) (Proc.devRef .tc main_v56) (ix2 _ j) = _
  generalize B4 m c = W at h0 h1 h2 h3 ⊢
  dsimp only [packWr]
  rw [nary4_result]
  refine (Cert.Lib.LayoutReads.rows4_p1 (W (Proc.devRef .tc main_v49)) (W (Proc.devRef .tc main_v51)) (W (Proc.devRef .tc main_v53)) (W (Proc.devRef .tc main_v55)) _ k j).trans ?_
  exact h1 k j

theorem b5_W2 (c : Dev nD) (k j : Fin 32) :
    (B5 m c main_v56 : S128x32.Idx → Ideal .f32) (ix2 (⟨64 + k.val, by have := k.isLt; omega⟩ : Fin 128) j)
      = (m ((c : Thread nD τ).loc main_arg4) : S3x2x32x32.Idx → Ideal .f32) (ix4 (⟨1, by decide⟩ : Fin 3) (⟨1, by decide⟩ : Fin 2) k j) := by
  have h0 := fun k j => b4_v49 m c k j
  have h1 := fun k j => b4_v51 m c k j
  have h2 := fun k j => b4_v53 m c k j
  have h3 := fun k j => b4_v55 m c k j
  show (packWr (F := Ideal)).result (B4 m c) (Proc.devRef .tc main_v56) (ix2 _ j) = _
  generalize B4 m c = W at h0 h1 h2 h3 ⊢
  dsimp only [packWr]
  rw [nary4_result]
  refine (Cert.Lib.LayoutReads.rows4_p2 (W (Proc.devRef .tc main_v49)) (W (Proc.devRef .tc main_v51)) (W (Proc.devRef .tc main_v53)) (W (Proc.devRef .tc main_v55)) _ k j).trans ?_
  exact h2 k j

theorem b5_W3 (c : Dev nD) (k j : Fin 32) :
    (B5 m c main_v56 : S128x32.Idx → Ideal .f32) (ix2 (⟨96 + k.val, by have := k.isLt; omega⟩ : Fin 128) j)
      = (m ((c : Thread nD τ).loc main_arg6) : S3x2x32x32.Idx → Ideal .f32) (ix4 (⟨1, by decide⟩ : Fin 3) (⟨1, by decide⟩ : Fin 2) k j) := by
  have h0 := fun k j => b4_v49 m c k j
  have h1 := fun k j => b4_v51 m c k j
  have h2 := fun k j => b4_v53 m c k j
  have h3 := fun k j => b4_v55 m c k j
  show (packWr (F := Ideal)).result (B4 m c) (Proc.devRef .tc main_v56) (ix2 _ j) = _
  generalize B4 m c = W at h0 h1 h2 h3 ⊢
  dsimp only [packWr]
  rw [nary4_result]
  refine (Cert.Lib.LayoutReads.rows4_p3 (W (Proc.devRef .tc main_v49)) (W (Proc.devRef .tc main_v51)) (W (Proc.devRef .tc main_v53)) (W (Proc.devRef .tc main_v55)) _ k j).trans ?_
  exact h3 k j

theorem b4_keep_arg5 (c : Dev nD) : B4 m c main_arg5 = B3 m c main_arg5 := by
  show StableHlo.after wrOps (B3 m c) (Proc.devRef .tc main_arg5) = _
  generalize B3 m c = W
  dsimp only [wrOps]
  after_results_simp

theorem b5_keep_arg5 (c : Dev nD) : B5 m c main_arg5 = B4 m c main_arg5 := by
  show (packWr (F := Ideal)).result (B4 m c) (Proc.devRef .tc main_arg5) = _
  generalize B4 m c = W
  dsimp only [packWr]
  after_results_simp

theorem b4_keep_arg7 (c : Dev nD) : B4 m c main_arg7 = B3 m c main_arg7 := by
  show StableHlo.after wrOps (B3 m c) (Proc.devRef .tc main_arg7) = _
  generalize B3 m c = W
  dsimp only [wrOps]
  after_results_simp

theorem b5_keep_arg7 (c : Dev nD) : B5 m c main_arg7 = B4 m c main_arg7 := by
  show (packWr (F := Ideal)).result (B4 m c) (Proc.devRef .tc main_arg7) = _
  generalize B4 m c = W
  dsimp only [packWr]
  after_results_simp

theorem b4_keep_v47 (c : Dev nD) : B4 m c main_v47 = B3 m c main_v47 := by
  show StableHlo.after wrOps (B3 m c) (Proc.devRef .tc main_v47) = _
  generalize B3 m c = W
  dsimp only [wrOps]
  after_results_simp

theorem b5_keep_v47 (c : Dev nD) : B5 m c main_v47 = B4 m c main_v47 := by
  show (packWr (F := Ideal)).result (B4 m c) (Proc.devRef .tc main_v47) = _
  generalize B4 m c = W
  dsimp only [packWr]
  after_results_simp

theorem b5_arg5 (c : Dev nD) : B5 m c main_arg5 = (m ((c : Thread nD τ).loc main_arg5)) := (b5_keep_arg5 m c).trans ((b4_keep_arg5 m c).trans (b3_arg5 m c))
theorem b5_arg7 (c : Dev nD) : B5 m c main_arg7 = (m ((c : Thread nD τ).loc main_arg7)) := (b5_keep_arg7 m c).trans ((b4_keep_arg7 m c).trans (b3_arg7 m c))

/-- The reset gate's bias at j. -/
theorem v5_br (c : Dev nD) (j : Fin 32) :
    (Gen.V5 m c main_v61 : S32.Idx → Ideal .f32) (ix1 j) = @HAdd.hAdd (Ideal .f32) (Ideal .f32) (Ideal .f32) _ ((m ((c : Thread nD τ).loc main_arg5) : S3x32.Idx → Ideal .f32) (ix2 (⟨1, by decide⟩ : Fin 3) j)) ((m ((c : Thread nD τ).loc main_arg7) : S3x32.Idx → Ideal .f32) (ix2 (⟨1, by decide⟩ : Fin 3) j)) := by
  have h5 := b5_arg5 m c
  have h7 := b5_arg7 m c
  rw [V5_stages]
  show StableHlo.after brOps (B5 m c) (Proc.devRef .tc main_v61) (ix1 j) = _
  generalize B5 m c = W at h5 h7 ⊢
  dsimp only [brOps]
  after_results_simp
  rw [h5, h7]
  simp only [addf, Ideal.addf_def]
  exact congrArg₂ (· + ·) (Cert.Lib.LayoutReads.bslice_apply _ 1 (by decide) _ _ j) (Cert.Lib.LayoutReads.bslice_apply _ 1 (by decide) _ _ j)

theorem v5_keep_v47 (c : Dev nD) : Gen.V5 m c main_v47 = B5 m c main_v47 := by
  rw [V5_stages]
  show StableHlo.after brOps (B5 m c) (Proc.devRef .tc main_v47) = _
  generalize B5 m c = W
  dsimp only [brOps]
  after_results_simp

theorem v5_keep_v56 (c : Dev nD) : Gen.V5 m c main_v56 = B5 m c main_v56 := by
  rw [V5_stages]
  show StableHlo.after brOps (B5 m c) (Proc.devRef .tc main_v56) = _
  generalize B5 m c = W
  dsimp only [brOps]
  after_results_simp

theorem v5_P (c : Dev nD) : Gen.V5 m c main_v47 = B3 m c main_v47 :=
  (v5_keep_v47 m c).trans ((b5_keep_v47 m c).trans (b4_keep_v47 m c))
theorem v5_arg3 (c : Dev nD) : Gen.V5 m c main_arg3 = (m ((c : Thread nD τ).loc main_arg3)) :=
  (Gen.V5_of m c main_arg3 (by decide)).trans (s3_arg m c main_arg3 (by decide) (by decide) (by decide) (by decide))

end Cert.KernelIdeal.Val

end
-- ==== Proof.IdealSide.GateSpec.lean ====
/-
  The mathematics both programs compute, over the extended reals, as functions of the argument arrays and of an edge
  aggregation T (v ↦ T v, a node-feature array to its aggregated rows):
  * a gate's pre-activation at node n, channel j, in the reference's grouping,
      ((Σ_k vx(n,k)·Wx(g,0,k,j) + Σ_k T vx(n,k)·Wx(g,1,k,j)) + bx(g,j)) + ((Σ_k vh(n,k)·Wh(g,0,k,j) + Σ_k T vh(n,k)·Wh(g,1,k,j)) + bh(g,j));
  * the reset product  h ⊙ σ(gate 1 of x, h);
  * the new hidden state  z ⊙ h + (1 − z) ⊙ tanh(gate 2 of x, h ⊙ r)  with z = σ(gate 0 of x, h);
  * the read-out's logit  Σ_c max(h'(n,c), 0)·w(c) + β.
-/
import Mathlib.Algebra.BigOperators.Fin
import Idealize.ShloMosaic.Lib.ValueIdx
import Idealize.ShloMosaic.PureOps.Ideal.Laws

noncomputable section

namespace Cert.KernelIdeal.Val

open Idealize.ShloMosaic Idealize.ShloMosaic.ValueIdx

/-- A node-feature array: 100000 nodes by 32 channels. -/
abbrev NodeArr : Type := (⟨2, ![100000, 32]⟩ : Shape).Idx → Ideal .f32
/-- The two stacks of ChebConv weights: gate, order, input channel, output channel. -/
abbrev WeightArr : Type := (⟨4, ![3, 2, 32, 32]⟩ : Shape).Idx → Ideal .f32
/-- The two stacks of biases: gate, channel. -/
abbrev BiasArr : Type := (⟨2, ![3, 32]⟩ : Shape).Idx → Ideal .f32

/-- A node-feature array as a function of the node and the channel. -/
abbrev asN32 (A : NodeArr) : Fin 100000 → Fin 32 → Ideal .f32 := fun n k => A (ix2 n k)

/-- One gate's pre-activation at node n, channel j, in the reference's grouping. -/
def gatePre (W4 W6 : WeightArr) (b5 b7 : BiasArr) (g : Fin 3)
    (vx vh tx th : Fin 100000 → Fin 32 → Ideal .f32) (n : Fin 100000) (j : Fin 32) : Ideal .f32 :=
  ((∑ k : Fin 32, vx n k * W4 (ix4 g (⟨0, by decide⟩ : Fin 2) k j) + ∑ k : Fin 32, tx n k * W4 (ix4 g (⟨1, by decide⟩ : Fin 2) k j)) + b5 (ix2 g j))
    + ((∑ k : Fin 32, vh n k * W6 (ix4 g (⟨0, by decide⟩ : Fin 2) k j) + ∑ k : Fin 32, th n k * W6 (ix4 g (⟨1, by decide⟩ : Fin 2) k j)) + b7 (ix2 g j))

variable (T : NodeArr → Fin 100000 → Fin 32 → Ideal .f32) (x h : NodeArr) (W4 W6 : WeightArr) (b5 b7 : BiasArr)

/-- h ⊙ r, the reset gate applied to the hidden state. -/
def hrSpec : NodeArr :=
  fun i => asN32 h (i 0) (i 1) * Ideal.logistic (gatePre W4 W6 b5 b7 (⟨1, by decide⟩ : Fin 3) (asN32 x) (asN32 h) (T x) (T h) (i 0) (i 1))

/-- The update gate z at (n, j). -/
def zSpec (n : Fin 100000) (j : Fin 32) : Ideal .f32 :=
  Ideal.logistic (gatePre W4 W6 b5 b7 (⟨0, by decide⟩ : Fin 3) (asN32 x) (asN32 h) (T x) (T h) n j)

/-- The candidate's pre-activation at (n, j): gate 2 of x and h ⊙ r. -/
def candSpec (n : Fin 100000) (j : Fin 32) : Ideal .f32 :=
  gatePre W4 W6 b5 b7 (⟨2, by decide⟩ : Fin 3) (asN32 x) (asN32 (hrSpec T x h W4 W6 b5 b7)) (T x) (T (hrSpec T x h W4 W6 b5 b7)) n j

/-- The new hidden state at (n, j). -/
def hiddenSpec (n : Fin 100000) (j : Fin 32) : Ideal .f32 :=
  zSpec T x h W4 W6 b5 b7 n j * h (ix2 n j)
    + ((Scalar.ofBits .f32 0x3F800000#32 : Ideal .f32) - zSpec T x h W4 W6 b5 b7 n j) * Ideal.tanh (candSpec T x h W4 W6 b5 b7 n j)

/-- The read-out's logit at node n. -/
def logitSpec (w : (⟨2, ![32, 1]⟩ : Shape).Idx → Ideal .f32) (β : (⟨1, ![1]⟩ : Shape).Idx → Ideal .f32) (n : Fin 100000) : Ideal .f32 :=
  (∑ c : Fin 32, max (hiddenSpec T x h W4 W6 b5 b7 n c) (FloatOps.ofBits (F := Ideal) .f32 0#32) * w (ix2 c (0 : Fin 1))) + β (ix1 (0 : Fin 1))

end Cert.KernelIdeal.Val

end
-- ==== Proof.IdealSide.KernelGates.lean ====
/-
  A gate's pre-activation in the reference's grouping,
      ((Σ_k vx(n,k)·Wx(g,0,k,j) + Σ_k T1vx(n,k)·Wx(g,1,k,j)) + bx(g,j)) + ((Σ_k vh(n,k)·Wh(g,0,k,j) + Σ_k T1vh(n,k)·Wh(g,1,k,j)) + bh(g,j)),
  and the reset-gate region's result h ⊙ σ(·) read at an entry in that form: the kernel's 128-term contraction of the packed
  row against the stacked weight, plus the summed bias, regrouped (Proof/LibGateAlgebra.lean).
-/
import proofs.«118658_j79585743995076_2_alg».proof.Proof.IdealSide.KernelGateR
import proofs.«118658_j79585743995076_2_alg».proof.Proof.IdealSide.WholeArrays
import proofs.«118658_j79585743995076_2_alg».proof.Proof.LibGateAlgebra
import proofs.«118658_j79585743995076_2_alg».proof.Proof.IdealSide.GateSpec

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

/-- `resetRows` at node n, channel j. -/
theorem resetRows_apply (P : Vec Ideal S100000x128 .f32) (H : Vec Ideal S100000x32 .f32) (W : Vec Ideal S128x32 .f32) (b : Vec Ideal S32 .f32)
    (n : Fin 100000) (j : Fin 32) :
    resetRows P H W b (ix2 n j) = H (ix2 n j) * Ideal.logistic ((∑ k : Fin 128, P (ix2 n k) * W (ix2 k j)) + b (ix1 j)) := rfl

variable (m : (ℓ : Loc nD τ sig) → Buf (Elt Ideal) ℓ)

/-- h ⊙ r after the reset-gate region, at (n, j). -/
theorem hr_entry (c : Dev nD) (n : Fin 100000) (j : Fin 32) :
    (W6 m c main_v62 : S100000x32.Idx → Ideal .f32) (ix2 n j)
      = asN32 (m ((c : Thread nD τ).loc main_arg3)) n j * Ideal.logistic (gatePre (m ((c : Thread nD τ).loc main_arg4)) (m ((c : Thread nD τ).loc main_arg6)) (m ((c : Thread nD τ).loc main_arg5)) (m ((c : Thread nD τ).loc main_arg7)) (⟨1, by decide⟩ : Fin 3)
          (asN32 (m ((c : Thread nD τ).loc main_arg0))) (asN32 (m ((c : Thread nD τ).loc main_arg3))) (fun n k => segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (m ((c : Thread nD τ).loc main_arg0)) n k) (fun n k => segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (m ((c : Thread nD τ).loc main_arg3)) n k) n j) := by
  have e : W6 m c (Proc.devRef .tc main_v62) = resetRows (E5 m c main_v47) (E5 m c main_arg3) (E5 m c main_v56) (E5 m c main_v61) :=
    (W6_arr m c 4).trans (final0 (E5 m) c)
  show W6 m c (Proc.devRef .tc main_v62) (ix2 n j) = _
  rw [e, resetRows_apply]
  simp only [E5]
  rw [v5_arg3, v5_br, v5_P, v5_keep_v56, Cert.Lib.GateAlgebra.gate_regroup]
  simp only [b3_P0 m c n, b3_P1 m c n, b3_P2 m c n, b3_P3 m c n, b5_W0 m c, b5_W1 m c, b5_W2 m c, b5_W3 m c]
  rfl

end Cert.KernelIdeal.Val

end
-- ==== Proof.IdealSide.AfterResetGate.lean ====
/-
  What the reset-gate region leaves for the host operations after it: besides its own result h ⊙ r, the edge coefficient, the
  clamped source and the destination columns, T1 x (the left half of the fused aggregation), the first packed row block and
  the ten arguments are all as the operations before the region computed them.
-/
import proofs.«118658_j79585743995076_2_alg».proof.Proof.IdealSide.KernelGates

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## What the reset-gate region leaves beside its result -/

theorem b3_keep_v45 (c : Dev nD) : B3 m c main_v45 = B2 m c main_v45 := by
  show (packP (F := Ideal)).result (B2 m c) (Proc.devRef .tc main_v45) = _
  generalize B2 m c = W
  dsimp only [packP]
  after_results_simp

theorem b4_keep_v45 (c : Dev nD) : B4 m c main_v45 = B3 m c main_v45 := by
  show StableHlo.after wrOps (B3 m c) (Proc.devRef .tc main_v45) = _
  generalize B3 m c = W
  dsimp only [wrOps]
  after_results_simp

theorem b5_keep_v45 (c : Dev nD) : B5 m c main_v45 = B4 m c main_v45 := by
  show (packWr (F := Ideal)).result (B4 m c) (Proc.devRef .tc main_v45) = _
  generalize B4 m c = W
  dsimp only [packWr]
  after_results_simp

theorem v5_keep_v45 (c : Dev nD) : Gen.V5 m c main_v45 = B5 m c main_v45 := by
  rw [V5_stages]
  show StableHlo.after brOps (B5 m c) (Proc.devRef .tc main_v45) = _
  generalize B5 m c = W
  dsimp only [brOps]
  after_results_simp

theorem w6_v30 (c : Dev nD) : W6 m c main_v30 = Cert.ReferenceIdeal.Read.val_main_v30 (F := Ideal) (m ((c : Thread nD τ).loc main_arg1)) (m ((c : Thread nD τ).loc main_arg2)) :=
  (W6_of_ne m c main_v30 (by decide)).trans (s4_coef m c)
theorem w6_v1 (c : Dev nD) : W6 m c main_v1 = Cert.ReferenceIdeal.Read.val_main_v1 (F := Ideal) (m ((c : Thread nD τ).loc main_arg1)) :=
  (W6_of_ne m c main_v1 (by decide)).trans ((Gen.V5_of m c main_v1 (by decide)).trans (s3_v1 m c))
theorem w6_v3 (c : Dev nD) : W6 m c main_v3 = Cert.ReferenceIdeal.Read.val_main_v3 (F := Ideal) (m ((c : Thread nD τ).loc main_arg1)) :=
  (W6_of_ne m c main_v3 (by decide)).trans ((Gen.V5_of m c main_v3 (by decide)).trans (s3_v3 m c))
theorem w6_arg0 (c : Dev nD) : W6 m c main_arg0 = (m ((c : Thread nD τ).loc main_arg0)) :=
  (W6_of_ne m c main_arg0 (by decide)).trans ((Gen.V5_of m c main_arg0 (by decide)).trans (s3_arg m c main_arg0 (by decide) (by decide) (by decide) (by decide)))
theorem w6_arg4 (c : Dev nD) : W6 m c main_arg4 = (m ((c : Thread nD τ).loc main_arg4)) :=
  (W6_of_ne m c main_arg4 (by decide)).trans ((Gen.V5_of m c main_arg4 (by decide)).trans (s3_arg m c main_arg4 (by decide) (by decide) (by decide) (by decide)))
theorem w6_arg5 (c : Dev nD) : W6 m c main_arg5 = (m ((c : Thread nD τ).loc main_arg5)) :=
  (W6_of_ne m c main_arg5 (by decide)).trans ((Gen.V5_of m c main_arg5 (by decide)).trans (s3_arg m c main_arg5 (by decide) (by decide) (by decide) (by decide)))
theorem w6_arg6 (c : Dev nD) : W6 m c main_arg6 = (m ((c : Thread nD τ).loc main_arg6)) :=
  (W6_of_ne m c main_arg6 (by decide)).trans ((Gen.V5_of m c main_arg6 (by decide)).trans (s3_arg m c main_arg6 (by decide) (by decide) (by decide) (by decide)))
theorem w6_arg7 (c : Dev nD) : W6 m c main_arg7 = (m ((c : Thread nD τ).loc main_arg7)) :=
  (W6_of_ne m c main_arg7 (by decide)).trans ((Gen.V5_of m c main_arg7 (by decide)).trans (s3_arg m c main_arg7 (by decide) (by decide) (by decide) (by decide)))
theorem w6_arg8 (c : Dev nD) : W6 m c main_arg8 = (m ((c : Thread nD τ).loc main_arg8)) :=
  (W6_of_ne m c main_arg8 (by decide)).trans ((Gen.V5_of m c main_arg8 (by decide)).trans (s3_arg m c main_arg8 (by decide) (by decide) (by decide) (by decide)))
theorem w6_arg9 (c : Dev nD) : W6 m c main_arg9 = (m ((c : Thread nD τ).loc main_arg9)) :=
  (W6_of_ne m c main_arg9 (by decide)).trans ((Gen.V5_of m c main_arg9 (by decide)).trans (s3_arg m c main_arg9 (by decide) (by decide) (by decide) (by decide)))
theorem w6_arg3 (c : Dev nD) : W6 m c main_arg3 = (m ((c : Thread nD τ).loc main_arg3)) :=
  ((W6_arr m c 1).trans (((dat0 (E5 m) c).arrAt_in 1 rfl _).trans (A_eq0 (E5 m) c 1))).trans (v5_arg3 m c)
theorem w6_P (c : Dev nD) : W6 m c main_v47 = B3 m c main_v47 :=
  ((W6_arr m c 0).trans (((dat0 (E5 m) c).arrAt_in 0 rfl _).trans (A_eq0 (E5 m) c 0))).trans (v5_P m c)
theorem w6_v45 (c : Dev nD) (n : Fin 100000) (j : Fin 32) :
    (W6 m c main_v45 : S100000x32.Idx → Ideal .f32) (ix2 n j) = segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (m ((c : Thread nD τ).loc main_arg0)) n j := by
  have e : W6 m c main_v45 = B2 m c main_v45 :=
    (W6_of_ne m c main_v45 (by decide)).trans ((v5_keep_v45 m c).trans ((b5_keep_v45 m c).trans ((b4_keep_v45 m c).trans (b3_keep_v45 m c))))
  rw [e]
  exact b2_t1x m c n j

/-! ## The first packed row block and h, unchanged -/

theorem w7_P (c : Dev nD) : W7 m c main_v47 = B3 m c main_v47 :=
  (StableHlo.after_of_writes_sub hostOps1 _ Gen.hostOps1_writes (by decide : main_v47 ∉ Gen.hostOps1_W)).trans (w6_P m c)
theorem w7_arg3 (c : Dev nD) : W7 m c main_arg3 = (m ((c : Thread nD τ).loc main_arg3)) :=
  (StableHlo.after_of_writes_sub hostOps1 _ Gen.hostOps1_writes (by decide : main_arg3 ∉ Gen.hostOps1_W)).trans (w6_arg3 m c)

end Cert.KernelIdeal.Val

end
-- ==== Proof.IdealSide.CandidateBlock.lean ====
/-
  The candidate's packed row block [x | h ⊙ r | T1 x | T1(h ⊙ r)], read column block by column block. The stretch of host
  operations between the two regions is cut after the aggregation of h ⊙ r and after the packing; what follows the packing
  (the stacked weights, the biases, the read-out row) writes none of the packed block.
-/
import proofs.«118658_j79585743995076_2_alg».proof.Proof.IdealSide.AfterResetGate

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The contents after the aggregation of h ⊙ r, and after the packing -/

abbrev C1 (c : Dev nD) : Valuation τ sig (Elt Ideal) := StableHlo.after aggHrOps (W6 m c)
abbrev C2 (c : Dev nD) : Valuation τ sig (Elt Ideal) := (packPc (F := Ideal)).result (C1 m c)

/-- Everything of the stretch after the packing. -/
abbrev afterPack : List (HloOp τ sig (Elt Ideal)) := wzOps ++ (packWz :: (bzOps ++ (wcOps ++ (packWc :: (bcOps ++ rowOps)))))

theorem W7_stages (c : Dev nD) : W7 m c = StableHlo.after afterPack (C2 m c) := by
  show StableHlo.after hostOps1 (W6 m c) = _
  rw [hostOps1_split, after_append, after_cons]

/-- The packed block is written once; the later operations leave it. -/
theorem w7_keep_v76 (c : Dev nD) : W7 m c main_v76 = C2 m c main_v76 := by
  rw [W7_stages]
  show StableHlo.after afterPack (C2 m c) (Proc.devRef .tc main_v76) = _
  generalize C2 m c = W
  rw [after_append, after_cons, after_append, after_append, after_cons, after_append]
  dsimp only [wzOps, packWz, bzOps, wcOps, packWc, bcOps, rowOps]
  after_results_simp

theorem c1_keep_arg0 (c : Dev nD) : C1 m c main_arg0 = W6 m c main_arg0 := by
  show StableHlo.after aggHrOps (W6 m c) (Proc.devRef .tc main_arg0) = _
  generalize W6 m c = W
  dsimp only [aggHrOps]
  after_results_simp

theorem c1_keep_v62 (c : Dev nD) : C1 m c main_v62 = W6 m c main_v62 := by
  show StableHlo.after aggHrOps (W6 m c) (Proc.devRef .tc main_v62) = _
  generalize W6 m c = W
  dsimp only [aggHrOps]
  after_results_simp

theorem c1_keep_v45 (c : Dev nD) : C1 m c main_v45 = W6 m c main_v45 := by
  show StableHlo.after aggHrOps (W6 m c) (Proc.devRef .tc main_v45) = _
  generalize W6 m c = W
  dsimp only [aggHrOps]
  after_results_simp

theorem c1_arg0 (c : Dev nD) : C1 m c main_arg0 = (m ((c : Thread nD τ).loc main_arg0)) := (c1_keep_arg0 m c).trans (w6_arg0 m c)

theorem c1_t1x (c : Dev nD) (n : Fin 100000) (j : Fin 32) :
    (C1 m c main_v45 : S100000x32.Idx → Ideal .f32) (ix2 n j) = segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (m ((c : Thread nD τ).loc main_arg0)) n j := by
  rw [c1_keep_v45]
  exact w6_v45 m c n j

/-- T1(h ⊙ r) at (n, j): the aggregation of the reset-gate region's result along the edges. -/
theorem c1_t1hr (c : Dev nD) (n : Fin 100000) (j : Fin 32) :
    (C1 m c main_v75 : S100000x32.Idx → Ideal .f32) (ix2 n j) = segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (W6 m c main_v62) n j := by
  have a30 := w6_v30 m c
  have a1 := w6_v1 m c
  have a3 := w6_v3 m c
  show StableHlo.after aggHrOps (W6 m c) (Proc.devRef .tc main_v75) (ix2 n j) = _
  generalize W6 m c = W at a30 a1 a3 ⊢
  dsimp only [aggHrOps]
  after_results_simp
  rw [a30, a1, a3, agg_plain]
  simp only [Cert.ReferenceIdeal.Read.val_main_v35, Cert.ReferenceIdeal.Read.val_main_c_7, Cert.ReferenceIdeal.Read.val_main_v36, Cert.ReferenceIdeal.Read.val_main_v37, Cert.ReferenceIdeal.Read.val_main_c_8, Cert.ReferenceIdeal.Read.val_main_v38, Cert.ReferenceIdeal.Read.val_main_v39, Cert.ReferenceIdeal.Read.val_main_v40, Cert.ReferenceIdeal.Read.val_main_v41, Cert.ReferenceIdeal.Read.val_main_v46]

/-! ## The four column blocks -/

theorem w7_Pc0 (c : Dev nD) (n : Fin 100000) (k : Fin 32) :
    (W7 m c main_v76 : S100000x128.Idx → Ideal .f32) (ix2 n (⟨0 + k.val, by have := k.isLt; omega⟩ : Fin 128)) = (m ((c : Thread nD τ).loc main_arg0)) (ix2 n k) := by
  have h0 := c1_arg0 m c
  have hx := fun n j => c1_t1x m c n j
  have hr := fun n j => c1_t1hr m c n j
  have hk := c1_keep_v62 m c
  rw [w7_keep_v76]
  show (packPc (F := Ideal)).result (C1 m c) (Proc.devRef .tc main_v76) (ix2 n _) = _
  generalize C1 m c = W at h0 hx hr hk ⊢
  dsimp only [packPc]
  rw [nary4_result]
  refine (Cert.Lib.LayoutReads.cols4_p0 (W (Proc.devRef .tc main_arg0)) (W (Proc.devRef .tc main_v62)) (W (Proc.devRef .tc main_v45)) (W (Proc.devRef .tc main_v75)) _ n k).trans ?_
  rw [h0]

theorem w7_Pc1 (c : Dev nD) (n : Fin 100000) (k : Fin 32) :
    (W7 m c main_v76 : S100000x128.Idx → Ideal .f32) (ix2 n (⟨32 + k.val, by have := k.isLt; omega⟩ : Fin 128)) = (W6 m c main_v62 : S100000x32.Idx → Ideal .f32) (ix2 n k) := by
  have h0 := c1_arg0 m c
  have hx := fun n j => c1_t1x m c n j
  have hr := fun n j => c1_t1hr m c n j
  have hk := c1_keep_v62 m c
  rw [w7_keep_v76]
  show (packPc (F := Ideal)).result (C1 m c) (Proc.devRef .tc main_v76) (ix2 n _) = _
  generalize C1 m c = W at h0 hx hr hk ⊢
  dsimp only [packPc]
  rw [nary4_result]
  refine (Cert.Lib.LayoutReads.cols4_p1 (W (Proc.devRef .tc main_arg0)) (W (Proc.devRef .tc main_v62)) (W (Proc.devRef .tc main_v45)) (W (Proc.devRef .tc main_v75)) _ n k).trans ?_
  rw [hk]

theorem w7_Pc2 (c : Dev nD) (n : Fin 100000) (k : Fin 32) :
    (W7 m c main_v76 : S100000x128.Idx → Ideal .f32) (ix2 n (⟨64 + k.val, by have := k.isLt; omega⟩ : Fin 128)) = segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (m ((c : Thread nD τ).loc main_arg0)) n k := by
  have h0 := c1_arg0 m c
  have hx := fun n j => c1_t1x m c n j
  have hr := fun n j => c1_t1hr m c n j
  have hk := c1_keep_v62 m c
  rw [w7_keep_v76]
  show (packPc (F := Ideal)).result (C1 m c) (Proc.devRef .tc main_v76) (ix2 n _) = _
  generalize C1 m c = W at h0 hx hr hk ⊢
  dsimp only [packPc]
  rw [nary4_result]
  refine (Cert.Lib.LayoutReads.cols4_p2 (W (Proc.devRef .tc main_arg0)) (W (Proc.devRef .tc main_v62)) (W (Proc.devRef .tc main_v45)) (W (Proc.devRef .tc main_v75)) _ n k).trans ?_
  exact hx n k

theorem w7_Pc3 (c : Dev nD) (n : Fin 100000) (k : Fin 32) :
    (W7 m c main_v76 : S100000x128.Idx → Ideal .f32) (ix2 n (⟨96 + k.val, by have := k.isLt; omega⟩ : Fin 128)) = segSum (Cert.ReferenceIdeal.Read.val_main_v35 (F := Ideal) (m ((c : Thread nD τ).loc main_arg1)) (m ((c : Thread nD τ).loc main_arg2))) (Cert.ReferenceIdeal.Read.val_main_v41 (F := Ideal) (m ((c : Thread nD τ).loc main_arg1))) (Cert.ReferenceIdeal.Read.val_main_v46 (F := Ideal) (m ((c : Thread nD τ).loc main_arg1))) (W6 m c main_v62) n k := by
  have h0 := c1_arg0 m c
  have hx := fun n j => c1_t1x m c n j
  have hr := fun n j => c1_t1hr m c n j
  have hk := c1_keep_v62 m c
  rw [w7_keep_v76]
  show (packPc (F := Ideal)).result (C1 m c) (Proc.devRef .tc main_v76) (ix2 n _) = _
  generalize C1 m c = W at h0 hx hr hk ⊢
  dsimp only [packPc]
  rw [nary4_result]
  refine (Cert.Lib.LayoutReads.cols4_p3 (W (Proc.devRef .tc main_arg0)) (W (Proc.devRef .tc main_v62)) (W (Proc.devRef .tc main_v45)) (W (Proc.devRef .tc main_v75)) _ n k).trans ?_
  exact hr n k

end Cert.KernelIdeal.Val

end
-- ==== Proof.IdealSide.StackedWeights.lean ====
/-
  The update gate's and the candidate gate's stacked weights as the second region finds them: row block a of a stacked
  128×32 weight is one slice of the two 3×2×32×32 weight arrays, in the order [Wx(g,0), Wh(g,0), Wx(g,1), Wh(g,1)] of the
  packed columns [x | h | T1 x | T1 h] (g = 0 for the update gate, g = 2 for the candidate). The host operations after the
  packing of the candidate's block are cut into the four slices of a gate, their stacking, and what follows; what follows
  a stacking writes none of it.
-/
import proofs.«118658_j79585743995076_2_alg».proof.Proof.IdealSide.CandidateBlock

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The weight arrays, untouched up to the packing of the candidate's block -/

theorem c1_keep_arg4 (c : Dev nD) : C1 m c main_arg4 = W6 m c main_arg4 := by
  show StableHlo.after aggHrOps (W6 m c) (Proc.devRef .tc main_arg4) = _
  generalize W6 m c = W
  dsimp only [aggHrOps]
  after_results_simp

theorem c1_keep_arg6 (c : Dev nD) : C1 m c main_arg6 = W6 m c main_arg6 := by
  show StableHlo.after aggHrOps (W6 m c) (Proc.devRef .tc main_arg6) = _
  generalize W6 m c = W
  dsimp only [aggHrOps]
  after_results_simp

theorem c2_keep_arg4 (c : Dev nD) : C2 m c main_arg4 = C1 m c main_arg4 := by
  show (packPc (F := Ideal)).result (C1 m c) (Proc.devRef .tc main_arg4) = _
  generalize C1 m c = W
  dsimp only [packPc]
  after_results_simp

theorem c2_keep_arg6 (c : Dev nD) : C2 m c main_arg6 = C1 m c main_arg6 := by
  show (packPc (F := Ideal)).result (C1 m c) (Proc.devRef .tc main_arg6) = _
  generalize C1 m c = W
  dsimp only [packPc]
  after_results_simp

theorem c2_arg4 (c : Dev nD) : C2 m c main_arg4 = (m ((c : Thread nD τ).loc main_arg4)) := (c2_keep_arg4 m c).trans ((c1_keep_arg4 m c).trans (w6_arg4 m c))
theorem c2_arg6 (c : Dev nD) : C2 m c main_arg6 = (m ((c : Thread nD τ).loc main_arg6)) := (c2_keep_arg6 m c).trans ((c1_keep_arg6 m c).trans (w6_arg6 m c))

/-! ## The update gate's stacked weight -/

abbrev D3 (c : Dev nD) : Valuation τ sig (Elt Ideal) := StableHlo.after wzOps (C2 m c)
abbrev D4 (c : Dev nD) : Valuation τ sig (Elt Ideal) := (packWz (F := Ideal)).result (D3 m c)

theorem d3_v78 (c : Dev nD) (k j : Fin 32) :
    (D3 m c main_v78 : S32x32.Idx → Ideal .f32) (ix2 k j) = (m ((c : Thread nD τ).loc main_arg4) : S3x2x32x32.Idx → Ideal .f32) (ix4 (⟨0, by decide⟩ : Fin 3) (⟨0, by decide⟩ : Fin 2) k j) := by
  have h := c2_arg4 m c
  show StableHlo.after wzOps (C2 m c) (Proc.devRef .tc main_v78) (ix2 k j) = _
  generalize C2 m c = W at h ⊢
  dsimp only [wzOps]
  after_results_simp
  rw [h]
  exact Cert.Lib.LayoutReads.wslice_apply _ 0 0 (by decide) (by decide) _ _ k j

theorem d3_v80 (c : Dev nD) (k j : Fin 32) :
    (D3 m c main_v80 : S32x32.Idx → Ideal .f32) (ix2 k j) = (m ((c : Thread nD τ).loc main_arg6) : S3x2x32x32.Idx → Ideal .f32) (ix4 (⟨0, by decide⟩ : Fin 3) (⟨0, by decide⟩ : Fin 2) k j) := by
  have h := c2_arg6 m c
  show StableHlo.after wzOps (C2 m c) (Proc.devRef .tc main_v80) (ix2 k j) = _
  generalize C2 m c = W at h ⊢
  dsimp only [wzOps]
  after_results_simp
  rw [h]
  exact Cert.Lib.LayoutReads.wslice_apply _ 0 0 (by decide) (by decide) _ _ k j

theorem d3_v82 (c : Dev nD) (k j : Fin 32) :
    (D3 m c main_v82 : S32x32.Idx → Ideal .f32) (ix2 k j) = (m ((c : Thread nD τ).loc main_arg4) : S3x2x32x32.Idx → Ideal .f32) (ix4 (⟨0, by decide⟩ : Fin 3) (⟨1, by decide⟩ : Fin 2) k j) := by
  have h := c2_arg4 m c
  show StableHlo.after wzOps (C2 m c) (Proc.devRef .tc main_v82) (ix2 k j) = _
  generalize C2 m c = W at h ⊢
  dsimp only [wzOps]
  after_results_simp
  rw [h]
  exact Cert.Lib.LayoutReads.wslice_apply _ 0 1 (by decide) (by decide) _ _ k j

theorem d3_v84 (c : Dev nD) (k j : Fin 32) :
    (D3 m c main_v84 : S32x32.Idx → Ideal .f32) (ix2 k j) = (m ((c : Thread nD τ).loc main_arg6) : S3x2x32x32.Idx → Ideal .f32) (ix4 (⟨0, by decide⟩ : Fin 3) (⟨1, by decide⟩ : Fin 2) k j) := by
  have h := c2_arg6 m c
  show StableHlo.after wzOps (C2 m c) (Proc.devRef .tc main_v84) (ix2 k j) = _
  generalize C2 m c = W at h ⊢
  dsimp only [wzOps]
  after_results_simp
  rw [h]
  exact Cert.Lib.LayoutReads.wslice_apply _ 0 1 (by decide) (by decide) _ _ k j

theorem d4_Wz0 (c : Dev nD) (k j : Fin 32) :
    (D4 m c main_v85 : S128x32.Idx → Ideal .f32) (ix2 (⟨0 + k.val, by have := k.isLt; omega⟩ : Fin 128) j)
      = (m ((c : Thread nD τ).loc main_arg4) : S3x2x32x32.Idx → Ideal .f32) (ix4 (⟨0, by decide⟩ : Fin 3) (⟨0, by decide⟩ : Fin 2) k j) := by
  have h0 := fun k j => d3_v78 m c k j
  have h1 := fun k j => d3_v80 m c k j
  have h2 := fun k j => d3_v82 m c k j
  have h3 := fun k j => d3_v84 m c k j
  show (packWz (F := Ideal)).result (D3 m c) (Proc.devRef .tc main_v85) (ix2 _ j) = _
  generalize D3 m c = W at h0 h1 h2 h3 ⊢
  dsimp only [packWz]
  rw [nary4_result]
  refine (Cert.Lib.LayoutReads.rows4_p0 (W (Proc.devRef .tc main_v78)) (W (Proc.devRef .tc main_v80)) (W (Proc.devRef .tc main_v82)) (W (Proc.devRef .tc main_v84)) _ k j).trans ?_
  exact h0 k j

theorem d4_Wz1 (c : Dev nD) (k j : Fin 32) :
    (D4 m c main_v85 : S128x32.Idx → Ideal .f32) (ix2 (⟨32 + k.val, by have := k.isLt; omega⟩ : Fin 128) j)
      = (m ((c : Thread nD τ).loc main_arg6) : S3x2x32x32.Idx → Ideal .f32) (ix4 (⟨0, by decide⟩ : Fin 3) (⟨0, by decide⟩ : Fin 2) k j) := by
  have h0 := fun k j => d3_v78 m c k j
  have h1 := fun k j => d3_v80 m c k j
  have h2 := fun k j => d3_v82 m c k j
  have h3 := fun k j => d3_v84 m c k j
  show (packWz (F := Ideal)).result (D3 m c) (Proc.devRef .tc main_v85) (ix2 _ j) = _
  generalize D3 m c = W at h0 h1 h2 h3 ⊢
  dsimp only [packWz]
  rw [nary4_result]
  refine (Cert.Lib.LayoutReads.rows4_p1 (W (Proc.devRef .tc main_v78)) (W (Proc.devRef .tc main_v80)) (W (Proc.devRef .tc main_v82)) (W (Proc.devRef .tc main_v84)) _ k j).trans ?_
  exact h1 k j

theorem d4_Wz2 (c : Dev nD) (k j : Fin 32) :
    (D4 m c main_v85 : S128x32.Idx → Ideal .f32) (ix2 (⟨64 + k.val, by have := k.isLt; omega⟩ : Fin 128) j)
      = (m ((c : Thread nD τ).loc main_arg4) : S3x2x32x32.Idx → Ideal .f32) (ix4 (⟨0, by decide⟩ : Fin 3) (⟨1, by decide⟩ : Fin 2) k j) := by
  have h0 := fun k j => d3_v78 m c k j
  have h1 := fun k j => d3_v80 m c k j
  have h2 := fun k j => d3_v82 m c k j
  have h3 := fun k j => d3_v84 m c k j
  show (packWz (F := Ideal)).result (D3 m c) (Proc.devRef .tc main_v85) (ix2 _ j) = _
  generalize D3 m c = W at h0 h1 h2 h3 ⊢
  dsimp only [packWz]
  rw [nary4_result]
  refine (Cert.Lib.LayoutReads.rows4_p2 (W (Proc.devRef .tc main_v78)) (W (Proc.devRef .tc main_v80)) (W (Proc.devRef .tc main_v82)) (W (Proc.devRef .tc main_v84)) _ k j).trans ?_
  exact h2 k j

theorem d4_Wz3 (c : Dev nD) (k j : Fin 32) :
    (D4 m c main_v85 : S128x32.Idx → Ideal .f32) (ix2 (⟨96 + k.val, by have := k.isLt; omega⟩ : Fin 128) j)
      = (m ((c : Thread nD τ).loc main_arg6) : S3x2x32x32.Idx → Ideal .f32) (ix4 (⟨0, by decide⟩ : Fin 3) (⟨1, by decide⟩ : Fin 2) k j) := by
  have h0 := fun k j => d3_v78 m c k j
  have h1 := fun k j => d3_v80 m c k j
  have h2 := fun k j => d3_v82 m c k j
  have h3 := fun k j => d3_v84 m c k j
  show (packWz (F := Ideal)).result (D3 m c) (Proc.devRef .tc main_v85) (ix2 _ j) = _
  generalize D3 m c = W at h0 h1 h2 h3 ⊢
  dsimp only [packWz]
  rw [nary4_result]
  refine (Cert.Lib.LayoutReads.rows4_p3 (W (Proc.devRef .tc main_v78)) (W (Proc.devRef .tc main_v80)) (W (Proc.devRef .tc main_v82)) (W (Proc.devRef .tc main_v84)) _ k j).trans ?_
  exact h3 k j

/-- The stacked weight is written once; the later operations leave it. -/
theorem w7_keep_v85 (c : Dev nD) : W7 m c main_v85 = D4 m c main_v85 := by
  rw [W7_stages]
  show StableHlo.after afterPack (C2 m c) (Proc.devRef .tc main_v85) = _
  rw [after_append, after_cons]
  show StableHlo.after (bzOps ++ (wcOps ++ (packWc :: (bcOps ++ rowOps)))) (D4 m c) (Proc.devRef .tc main_v85) = _
  generalize D4 m c = W
  rw [after_append, after_append, after_cons, after_append]
  dsimp only [bzOps, wcOps, packWc, bcOps, rowOps]
  after_results_simp

theorem w7_Wz0 (c : Dev nD) (k j : Fin 32) :
    (W7 m c main_v85 : S128x32.Idx → Ideal .f32) (ix2 (⟨0 + k.val, by have := k.isLt; omega⟩ : Fin 128) j)
      = (m ((c : Thread nD τ).loc main_arg4) : S3x2x32x32.Idx → Ideal .f32) (ix4 (⟨0, by decide⟩ : Fin 3) (⟨0, by decide⟩ : Fin 2) k j) := by
  rw [w7_keep_v85]
  exact d4_Wz0 m c k j

theorem w7_Wz1 (c : Dev nD) (k j : Fin 32) :
    (W7 m c main_v85 : S128x32.Idx → Ideal .f32) (ix2 (⟨32 + k.val, by have := k.isLt; omega⟩ : Fin 128) j)
      = (m ((c : Thread nD τ).loc main_arg6) : S3x2x32x32.Idx → Ideal .f32) (ix4 (⟨0, by decide⟩ : Fin 3) (⟨0, by decide⟩ : Fin 2) k j) := by
  rw [w7_keep_v85]
  exact d4_Wz1 m c k j

theorem w7_Wz2 (c : Dev nD) (k j : Fin 32) :
    (W7 m c main_v85 : S128x32.Idx → Ideal .f32) (ix2 (⟨64 + k.val, by have := k.isLt; omega⟩ : Fin 128) j)
      = (m ((c : Thread nD τ).loc main_arg4) : S3x2x32x32.Idx → Ideal .f32) (ix4 (⟨0, by decide⟩ : Fin 3) (⟨1, by decide⟩ : Fin 2) k j) := by
  rw [w7_keep_v85]
  exact d4_Wz2 m c k j

theorem w7_Wz3 (c : Dev nD) (k j : Fin 32) :
    (W7 m c main_v85 : S128x32.Idx → Ideal .f32) (ix2 (⟨96 + k.val, by have := k.isLt; omega⟩ : Fin 128) j)
      = (m ((c : Thread nD τ).loc main_arg6) : S3x2x32x32.Idx → Ideal .f32) (ix4 (⟨0, by decide⟩ : Fin 3) (⟨1, by decide⟩ : Fin 2) k j) := by
  rw [w7_keep_v85]
  exact d4_Wz3 m c k j

/-! ## The candidate gate's stacked weight -/

abbrev D5 (c : Dev nD) : Valuation τ sig (Elt Ideal) := StableHlo.after bzOps (D4 m c)
abbrev D6 (c : Dev nD) : Valuation τ sig (Elt Ideal) := StableHlo.after wcOps (D5 m c)
abbrev D7 (c : Dev nD) : Valuation τ sig (Elt Ideal) := (packWc (F := Ideal)).result (D6 m c)

theorem d5_keep_arg4 (c : Dev nD) : D5 m c main_arg4 = C2 m c main_arg4 := by
  show StableHlo.after bzOps ((packWz (F := Ideal)).result (StableHlo.after wzOps (C2 m c))) (Proc.devRef .tc main_arg4) = _
  generalize C2 m c = W
  dsimp only [bzOps, packWz, wzOps]
  after_results_simp

theorem d5_keep_arg6 (c : Dev nD) : D5 m c main_arg6 = C2 m c main_arg6 := by
  show StableHlo.after bzOps ((packWz (F := Ideal)).result (StableHlo.after wzOps (C2 m c))) (Proc.devRef .tc main_arg6) = _
  generalize C2 m c = W
  dsimp only [bzOps, packWz, wzOps]
  after_results_simp

theorem d5_arg4 (c : Dev nD) : D5 m c main_arg4 = (m ((c : Thread nD τ).loc main_arg4)) := (d5_keep_arg4 m c).trans (c2_arg4 m c)
theorem d5_arg6 (c : Dev nD) : D5 m c main_arg6 = (m ((c : Thread nD τ).loc main_arg6)) := (d5_keep_arg6 m c).trans (c2_arg6 m c)

theorem d6_v92 (c : Dev nD) (k j : Fin 32) :
    (D6 m c main_v92 : S32x32.Idx → Ideal .f32) (ix2 k j) = (m ((c : Thread nD τ).loc main_arg4) : S3x2x32x32.Idx → Ideal .f32) (ix4 (⟨2, by decide⟩ : Fin 3) (⟨0, by decide⟩ : Fin 2) k j) := by
  have h := d5_arg4 m c
  show StableHlo.after wcOps (D5 m c) (Proc.devRef .tc main_v92) (ix2 k j) = _
  generalize D5 m c = W at h ⊢
  dsimp only [wcOps]
  after_results_simp
  rw [h]
  exact Cert.Lib.LayoutReads.wslice_apply _ 2 0 (by decide) (by decide) _ _ k j

theorem d6_v94 (c : Dev nD) (k j : Fin 32) :
    (D6 m c main_v94 : S32x32.Idx → Ideal .f32) (ix2 k j) = (m ((c : Thread nD τ).loc main_arg6) : S3x2x32x32.Idx → Ideal .f32) (ix4 (⟨2, by decide⟩ : Fin 3) (⟨0, by decide⟩ : Fin 2) k j) := by
  have h := d5_arg6 m c
  show StableHlo.after wcOps (D5 m c) (Proc.devRef .tc main_v94) (ix2 k j) = _
  generalize D5 m c = W at h ⊢
  dsimp only [wcOps]
  after_results_simp
  rw [h]
  exact Cert.Lib.LayoutReads.wslice_apply _ 2 0 (by decide) (by decide) _ _ k j

theorem d6_v96 (c : Dev nD) (k j : Fin 32) :
    (D6 m c main_v96 : S32x32.Idx → Ideal .f32) (ix2 k j) = (m ((c : Thread nD τ).loc main_arg4) : S3x2x32x32.Idx → Ideal .f32) (ix4 (⟨2, by decide⟩ : Fin 3) (⟨1, by decide⟩ : Fin 2) k j) := by
  have h := d5_arg4 m c
  show StableHlo.after wcOps (D5 m c) (Proc.devRef .tc main_v96) (ix2 k j) = _
  generalize D5 m c = W at h ⊢
  dsimp only [wcOps]
  after_results_simp
  rw [h]
  exact Cert.Lib.LayoutReads.wslice_apply _ 2 1 (by decide) (by decide) _ _ k j

theorem d6_v98 (c : Dev nD) (k j : Fin 32) :
    (D6 m c main_v98 : S32x32.Idx → Ideal .f32) (ix2 k j) = (m ((c : Thread nD τ).loc main_arg6) : S3x2x32x32.Idx → Ideal .f32) (ix4 (⟨2, by decide⟩ : Fin 3) (⟨1, by decide⟩ : Fin 2) k j) := by
  have h := d5_arg6 m c
  show StableHlo.after wcOps (D5 m c) (Proc.devRef .tc main_v98) (ix2 k j) = _
  generalize D5 m c = W at h ⊢
  dsimp only [wcOps]
  after_results_simp
  rw [h]
  exact Cert.Lib.LayoutReads.wslice_apply _ 2 1 (by decide) (by decide) _ _ k j

theorem d7_Wc0 (c : Dev nD) (k j : Fin 32) :
    (D7 m c main_v99 : S128x32.Idx → Ideal .f32) (ix2 (⟨0 + k.val, by have := k.isLt; omega⟩ : Fin 128) j)
      = (m ((c : Thread nD τ).loc main_arg4) : S3x2x32x32.Idx → Ideal .f32) (ix4 (⟨2, by decide⟩ : Fin 3) (⟨0, by decide⟩ : Fin 2) k j) := by
  have h0 := fun k j => d6_v92 m c k j
  have h1 := fun k j => d6_v94 m c k j
  have h2 := fun k j => d6_v96 m c k j
  have h3 := fun k j => d6_v98 m c k j
  show (packWc (F := Ideal)).result (D6 m c) (Proc.devRef .tc main_v99) (ix2 _ j) = _
  generalize D6 m c = W at h0 h1 h2 h3 ⊢
  dsimp only [packWc]
  rw [nary4_result]
  refine (Cert.Lib.LayoutReads.rows4_p0 (W (Proc.devRef .tc main_v92)) (W (Proc.devRef .tc main_v94)) (W (Proc.devRef .tc main_v96)) (W (Proc.devRef .tc main_v98)) _ k j).trans ?_
  exact h0 k j

theorem d7_Wc1 (c : Dev nD) (k j : Fin 32) :
    (D7 m c main_v99 : S128x32.Idx → Ideal .f32) (ix2 (⟨32 + k.val, by have := k.isLt; omega⟩ : Fin 128) j)
      = (m ((c : Thread nD τ).loc main_arg6) : S3x2x32x32.Idx → Ideal .f32) (ix4 (⟨2, by decide⟩ : Fin 3) (⟨0, by decide⟩ : Fin 2) k j) := by
  have h0 := fun k j => d6_v92 m c k j
  have h1 := fun k j => d6_v94 m c k j
  have h2 := fun k j => d6_v96 m c k j
  have h3 := fun k j => d6_v98 m c k j
  show (packWc (F := Ideal)).result (D6 m c) (Proc.devRef .tc main_v99) (ix2 _ j) = _
  generalize D6 m c = W at h0 h1 h2 h3 ⊢
  dsimp only [packWc]
  rw [nary4_result]
  refine (Cert.Lib.LayoutReads.rows4_p1 (W (Proc.devRef .tc main_v92)) (W (Proc.devRef .tc main_v94)) (W (Proc.devRef .tc main_v96)) (W (Proc.devRef .tc main_v98)) _ k j).trans ?_
  exact h1 k j

theorem d7_Wc2 (c : Dev nD) (k j : Fin 32) :
    (D7 m c main_v99 : S128x32.Idx → Ideal .f32) (ix2 (⟨64 + k.val, by have := k.isLt; omega⟩ : Fin 128) j)
      = (m ((c : Thread nD τ).loc main_arg4) : S3x2x32x32.Idx → Ideal .f32) (ix4 (⟨2, by decide⟩ : Fin 3) (⟨1, by decide⟩ : Fin 2) k j) := by
  have h0 := fun k j => d6_v92 m c k j
  have h1 := fun k j => d6_v94 m c k j
  have h2 := fun k j => d6_v96 m c k j
  have h3 := fun k j => d6_v98 m c k j
  show (packWc (F := Ideal)).result (D6 m c) (Proc.devRef .tc main_v99) (ix2 _ j) = _
  generalize D6 m c = W at h0 h1 h2 h3 ⊢
  dsimp only [packWc]
  rw [nary4_result]
  refine (Cert.Lib.LayoutReads.rows4_p2 (W (Proc.devRef .tc main_v92)) (W (Proc.devRef .tc main_v94)) (W (Proc.devRef .tc main_v96)) (W (Proc.devRef .tc main_v98)) _ k j).trans ?_
  exact h2 k j

theorem d7_Wc3 (c : Dev nD) (k j : Fin 32) :
    (D7 m c main_v99 : S128x32.Idx → Ideal .f32) (ix2 (⟨96 + k.val, by have := k.isLt; omega⟩ : Fin 128) j)
      = (m ((c : Thread nD τ).loc main_arg6) : S3x2x32x32.Idx → Ideal .f32) (ix4 (⟨2, by decide⟩ : Fin 3) (⟨1, by decide⟩ : Fin 2) k j) := by
  have h0 := fun k j => d6_v92 m c k j
  have h1 := fun k j => d6_v94 m c k j
  have h2 := fun k j => d6_v96 m c k j
  have h3 := fun k j => d6_v98 m c k j
  show (packWc (F := Ideal)).result (D6 m c) (Proc.devRef .tc main_v99) (ix2 _ j) = _
  generalize D6 m c = W at h0 h1 h2 h3 ⊢
  dsimp only [packWc]
  rw [nary4_result]
  refine (Cert.Lib.LayoutReads.rows4_p3 (W (Proc.devRef .tc main_v92)) (W (Proc.devRef .tc main_v94)) (W (Proc.devRef .tc main_v96)) (W (Proc.devRef .tc main_v98)) _ k j).trans ?_
  exact h3 k j

theorem w7_keep_v99 (c : Dev nD) : W7 m c main_v99 = D7 m c main_v99 := by
  rw [W7_stages]
  show StableHlo.after afterPack (C2 m c) (Proc.devRef .tc main_v99) = _
  rw [after_append, after_cons, after_append, after_append, after_cons]
  show StableHlo.after (bcOps ++ rowOps) (D7 m c) (Proc.devRef .tc main_v99) = _
  generalize D7 m c = W
  rw [after_append]
  dsimp only [bcOps, rowOps]
  after_results_simp

theorem w7_Wc0 (c : Dev nD) (k j : Fin 32) :
    (W7 m c main_v99 : S128x32.Idx → Ideal .f32) (ix2 (⟨0 + k.val, by have := k.isLt; omega⟩ : Fin 128) j)
      = (m ((c : Thread nD τ).loc main_arg4) : S3x2x32x32.Idx → Ideal .f32) (ix4 (⟨2, by decide⟩ : Fin 3) (⟨0, by decide⟩ : Fin 2) k j) := by
  rw [w7_keep_v99]
  exact d7_Wc0 m c k j

theorem w7_Wc1 (c : Dev nD) (k j : Fin 32) :
    (W7 m c main_v99 : S128x32.Idx → Ideal .f32) (ix2 (⟨32 + k.val, by have := k.isLt; omega⟩ : Fin 128) j)
      = (m ((c : Thread nD τ).loc main_arg6) : S3x2x32x32.Idx → Ideal .f32) (ix4 (⟨2, by decide⟩ : Fin 3) (⟨0, by decide⟩ : Fin 2) k j) := by
  rw [w7_keep_v99]
  exact d7_Wc1 m c k j

theorem w7_Wc2 (c : Dev nD) (k j : Fin 32) :
    (W7 m c main_v99 : S128x32.Idx → Ideal .f32) (ix2 (⟨64 + k.val, by have := k.isLt; omega⟩ : Fin 128) j)
      = (m ((c : Thread nD τ).loc main_arg4) : S3x2x32x32.Idx → Ideal .f32) (ix4 (⟨2, by decide⟩ : Fin 3) (⟨1, by decide⟩ : Fin 2) k j) := by
  rw [w7_keep_v99]
  exact d7_Wc2 m c k j

theorem w7_Wc3 (c : Dev nD) (k j : Fin 32) :
    (W7 m c main_v99 : S128x32.Idx → Ideal .f32) (ix2 (⟨96 + k.val, by have := k.isLt; omega⟩ : Fin 128) j)
      = (m ((c : Thread nD τ).loc main_arg6) : S3x2x32x32.Idx → Ideal .f32) (ix4 (⟨2, by decide⟩ : Fin 3) (⟨1, by decide⟩ : Fin 2) k j) := by
  rw [w7_keep_v99]
  exact d7_Wc3 m c k j

end Cert.KernelIdeal.Val

end
-- ==== Proof.IdealSide.UpdateWeights.lean ====
/-
  The update gate's summed bias as the second region finds it: bx(0,·) + bh(0,·), each a row cut out of a 3×32 bias array.
-/
import proofs.«118658_j79585743995076_2_alg».proof.Proof.IdealSide.AfterResetGate

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

theorem w7_bz (c : Dev nD) (j : Fin 32) :
    (W7 m c main_v90 : S32.Idx → Ideal .f32) (ix1 j) = @HAdd.hAdd (Ideal .f32) (Ideal .f32) (Ideal .f32) _ ((m ((c : Thread nD τ).loc main_arg5) : S3x32.Idx → Ideal .f32) (ix2 (⟨0, by decide⟩ : Fin 3) j)) ((m ((c : Thread nD τ).loc main_arg7) : S3x32.Idx → Ideal .f32) (ix2 (⟨0, by decide⟩ : Fin 3) j)) := by
  have a30 := w6_v30 m c
  have a1 := w6_v1 m c
  have a3 := w6_v3 m c
  have g0 := w6_arg0 m c
  have g4 := w6_arg4 m c
  have g5 := w6_arg5 m c
  have g6 := w6_arg6 m c
  have g7 := w6_arg7 m c
  have g8 := w6_arg8 m c
  have g9 := w6_arg9 m c
  have hx := fun n j => w6_v45 m c n j
  show StableHlo.after hostOps1 (W6 m c) (Proc.devRef .tc main_v90) (ix1 j) = _
  generalize W6 m c = W at a30 a1 a3 g0 g4 g5 g6 g7 g8 g9 hx ⊢
  dsimp only [hostOps1]
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne']
  rw [g5, g7]
  simp only [addf, Ideal.addf_def]
  exact congrArg₂ (· + ·) (Cert.Lib.LayoutReads.bslice_apply _ 0 (by decide) _ _ j) (Cert.Lib.LayoutReads.bslice_apply _ 0 (by decide) _ _ j)

end Cert.KernelIdeal.Val

end
-- ==== Proof.IdealSide.CandidateWeights.lean ====
/-
  The candidate gate's summed bias as the second region finds it: bx(2,·) + bh(2,·), each a row cut out of a 3×32 bias array.
-/
import proofs.«118658_j79585743995076_2_alg».proof.Proof.IdealSide.AfterResetGate

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

theorem w7_bc (c : Dev nD) (j : Fin 32) :
    (W7 m c main_v104 : S32.Idx → Ideal .f32) (ix1 j) = @HAdd.hAdd (Ideal .f32) (Ideal .f32) (Ideal .f32) _ ((m ((c : Thread nD τ).loc main_arg5) : S3x32.Idx → Ideal .f32) (ix2 (⟨2, by decide⟩ : Fin 3) j)) ((m ((c : Thread nD τ).loc main_arg7) : S3x32.Idx → Ideal .f32) (ix2 (⟨2, by decide⟩ : Fin 3) j)) := by
  have a30 := w6_v30 m c
  have a1 := w6_v1 m c
  have a3 := w6_v3 m c
  have g0 := w6_arg0 m c
  have g4 := w6_arg4 m c
  have g5 := w6_arg5 m c
  have g6 := w6_arg6 m c
  have g7 := w6_arg7 m c
  have g8 := w6_arg8 m c
  have g9 := w6_arg9 m c
  have hx := fun n j => w6_v45 m c n j
  show StableHlo.after hostOps1 (W6 m c) (Proc.devRef .tc main_v104) (ix1 j) = _
  generalize W6 m c = W at a30 a1 a3 g0 g4 g5 g6 g7 g8 g9 hx ⊢
  dsimp only [hostOps1]
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne']
  rw [g5, g7]
  simp only [addf, Ideal.addf_def]
  exact congrArg₂ (· + ·) (Cert.Lib.LayoutReads.bslice_apply _ 2 (by decide) _ _ j) (Cert.Lib.LayoutReads.bslice_apply _ 2 (by decide) _ _ j)

end Cert.KernelIdeal.Val

end
-- ==== Proof.IdealSide.ReadoutRow.lean ====
/-
  The read-out row and its bias as the second region finds them: the 32×1 read-out weight laid as a 1×32 row (same entries,
  same order) and the one-entry bias as a 1×1 array.
-/
import proofs.«118658_j79585743995076_2_alg».proof.Proof.IdealSide.AfterResetGate

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The read-out row and bias -/

theorem w7_wl (c : Dev nD) (u : Fin 1) (k : Fin 32) :
    (W7 m c main_v105 : S1x32.Idx → Ideal .f32) (ix2 u k) = ((m ((c : Thread nD τ).loc main_arg8)) : S32x1.Idx → Ideal .f32) (ix2 k (0 : Fin 1)) := by
  have a30 := w6_v30 m c
  have a1 := w6_v1 m c
  have a3 := w6_v3 m c
  have g0 := w6_arg0 m c
  have g4 := w6_arg4 m c
  have g5 := w6_arg5 m c
  have g6 := w6_arg6 m c
  have g7 := w6_arg7 m c
  have g8 := w6_arg8 m c
  have g9 := w6_arg9 m c
  have hx := fun n j => w6_v45 m c n j
  show StableHlo.after hostOps1 (W6 m c) (Proc.devRef .tc main_v105) (ix2 u k) = _
  generalize W6 m c = W at a30 a1 a3 g0 g4 g5 g6 g7 g8 g9 hx ⊢
  dsimp only [hostOps1]
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne']
  rw [g8]
  exact Cert.Lib.LayoutReads.col_as_row_apply _ _ u k

theorem w7_bl (c : Dev nD) (u v : Fin 1) :
    (W7 m c main_v106 : S1x1.Idx → Ideal .f32) (ix2 u v) = ((m ((c : Thread nD τ).loc main_arg9)) : S1.Idx → Ideal .f32) (ix1 (0 : Fin 1)) := by
  have a30 := w6_v30 m c
  have a1 := w6_v1 m c
  have a3 := w6_v3 m c
  have g0 := w6_arg0 m c
  have g4 := w6_arg4 m c
  have g5 := w6_arg5 m c
  have g6 := w6_arg6 m c
  have g7 := w6_arg7 m c
  have g8 := w6_arg8 m c
  have g9 := w6_arg9 m c
  have hx := fun n j => w6_v45 m c n j
  show StableHlo.after hostOps1 (W6 m c) (Proc.devRef .tc main_v106) (ix2 u v) = _
  generalize W6 m c = W at a30 a1 a3 g0 g4 g5 g6 g7 g8 g9 hx ⊢
  dsimp only [hostOps1]
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne']
  rw [g9]
  exact Cert.Lib.LayoutReads.one_as_1x1_apply _ _ u v

end Cert.KernelIdeal.Val

end
-- ==== Proof.IdealSide.RefEntries.lean ====
/-
  The reference's six first-order aggregations (one per gate and per convolved signal) read at an entry: each is
      0 + Σ_{e : dst(e) = n} coef(e) · v(clamp src(e), j)
  with ONE coefficient column and ONE pair of index columns — the reference recomputes them for every convolution by the
  same operations of the same arguments, so the six copies are one.
-/
import proofs.«118658_j79585743995076_2_alg».proof.Proof.RefRead
import proofs.«118658_j79585743995076_2_alg».proof.Proof.IdealSide.SegmentColumns
import proofs.«118658_j79585743995076_2_alg».proof.Proof.IdealSide.SharedPrefix

set_option maxRecDepth 16384

noncomputable section

namespace Cert.KernelIdeal.Val

open Idealize.ShloMosaic Idealize.ShloMosaic.ValueIdx

/-- The plain aggregation in the reference's own spelling, at (n, j). -/
theorem ref_agg (a : FVec Ideal Cert.ReferenceIdeal.S1600000x1 .f32) (s d : IVec Cert.ReferenceIdeal.S1600000x1 32) (v : FVec Ideal Cert.ReferenceIdeal.S100000x32 .f32) (n : Fin 100000) (j : Fin 32) :
    Host.scatterAdd Cert.ReferenceIdeal.scatter_S100000x32_S1600000x1_S1600000x32_1_0_0_1
        (broadcastInDim Cert.ReferenceIdeal.S100000x32 ![] Cert.ReferenceIdeal.Gen.bcast_S_S100000x32 (constant Cert.ReferenceIdeal.S_ .f32 0x00000000#32)) d
        (mulf (broadcastInDim Cert.ReferenceIdeal.S1600000x32 ![0, 1] Cert.ReferenceIdeal.Gen.bcast_S1600000x1_S1600000x32_0_1 a)
          (Host.gather Cert.ReferenceIdeal.gather_S100000x32_S1600000x1_S1600000x32_1_0_n_n_0_1_132 v s)) (ix2 n j)
      = segSum a s d v n j := by
  rw [← scat32_ns, ← gath32_ns]
  exact agg_plain a s d v n j

variable (x0 : (⟨Cert.ReferenceIdeal.S100000x32, .f32⟩ : BufTy).Contents (Elt Ideal)) (x1 : (⟨Cert.ReferenceIdeal.S2x1600000, .i32⟩ : BufTy).Contents (Elt Ideal))
  (x2 : (⟨Cert.ReferenceIdeal.S1600000, .f32⟩ : BufTy).Contents (Elt Ideal)) (x3 : (⟨Cert.ReferenceIdeal.S100000x32, .f32⟩ : BufTy).Contents (Elt Ideal))
  (x4 : (⟨Cert.ReferenceIdeal.S3x2x32x32, .f32⟩ : BufTy).Contents (Elt Ideal)) (x5 : (⟨Cert.ReferenceIdeal.S3x32, .f32⟩ : BufTy).Contents (Elt Ideal))
  (x6 : (⟨Cert.ReferenceIdeal.S3x2x32x32, .f32⟩ : BufTy).Contents (Elt Ideal)) (x7 : (⟨Cert.ReferenceIdeal.S3x32, .f32⟩ : BufTy).Contents (Elt Ideal))
  (x8 : (⟨Cert.ReferenceIdeal.S32x1, .f32⟩ : BufTy).Contents (Elt Ideal)) (x9 : (⟨Cert.ReferenceIdeal.S1, .f32⟩ : BufTy).Contents (Elt Ideal))

theorem ref_t1_v47 (n : Fin 100000) (j : Fin 32) :
    (Cert.ReferenceIdeal.Read.val_main_v47 (F := Ideal) x0 x1 x2) (ix2 n j) = segSum (Cert.ReferenceIdeal.Read.val_main_v35 (F := Ideal) x1 x2) (Cert.ReferenceIdeal.Read.val_main_v41 (F := Ideal) x1) (Cert.ReferenceIdeal.Read.val_main_v46 (F := Ideal) x1) x0 n j := by
  simp only [Cert.ReferenceIdeal.Read.val_main_v47, Cert.ReferenceIdeal.Read.val_main_v44, Cert.ReferenceIdeal.Read.val_main_v43, Cert.ReferenceIdeal.Read.val_main_v42, Cert.ReferenceIdeal.Read.val_main_v45, Cert.ReferenceIdeal.Read.val_main_cst_9]
  refine (ref_agg _ _ _ _ n j).trans ?_
  simp only [Cert.ReferenceIdeal.Read.val_main_v35, Cert.ReferenceIdeal.Read.val_main_v46, Cert.ReferenceIdeal.Read.val_main_c_7, Cert.ReferenceIdeal.Read.val_main_v36, Cert.ReferenceIdeal.Read.val_main_v37, Cert.ReferenceIdeal.Read.val_main_c_8, Cert.ReferenceIdeal.Read.val_main_v38, Cert.ReferenceIdeal.Read.val_main_v39, Cert.ReferenceIdeal.Read.val_main_v40, Cert.ReferenceIdeal.Read.val_main_v41]

theorem ref_t1_v74 (n : Fin 100000) (j : Fin 32) :
    (Cert.ReferenceIdeal.Read.val_main_v74 (F := Ideal) x1 x2 x3) (ix2 n j) = segSum (Cert.ReferenceIdeal.Read.val_main_v35 (F := Ideal) x1 x2) (Cert.ReferenceIdeal.Read.val_main_v41 (F := Ideal) x1) (Cert.ReferenceIdeal.Read.val_main_v46 (F := Ideal) x1) x3 n j := by
  simp only [Cert.ReferenceIdeal.Read.val_main_v74, Cert.ReferenceIdeal.Read.val_main_v71, Cert.ReferenceIdeal.Read.val_main_v70, Cert.ReferenceIdeal.Read.val_main_v69, Cert.ReferenceIdeal.Read.val_main_v72, Cert.ReferenceIdeal.Read.val_main_cst_12]
  refine (ref_agg _ _ _ _ n j).trans ?_
  simp only [Cert.ReferenceIdeal.Read.val_main_v62, Cert.ReferenceIdeal.Read.val_main_v73, Cert.ReferenceIdeal.Read.val_main_c_10, Cert.ReferenceIdeal.Read.val_main_v63, Cert.ReferenceIdeal.Read.val_main_v64, Cert.ReferenceIdeal.Read.val_main_c_11, Cert.ReferenceIdeal.Read.val_main_v65, Cert.ReferenceIdeal.Read.val_main_v66, Cert.ReferenceIdeal.Read.val_main_v67, Cert.ReferenceIdeal.Read.val_main_v68, Cert.ReferenceIdeal.Read.val_main_v35, Cert.ReferenceIdeal.Read.val_main_v46, Cert.ReferenceIdeal.Read.val_main_c_7, Cert.ReferenceIdeal.Read.val_main_v36, Cert.ReferenceIdeal.Read.val_main_v37, Cert.ReferenceIdeal.Read.val_main_c_8, Cert.ReferenceIdeal.Read.val_main_v38, Cert.ReferenceIdeal.Read.val_main_v39, Cert.ReferenceIdeal.Read.val_main_v40, Cert.ReferenceIdeal.Read.val_main_v41]

theorem ref_t1_v108 (n : Fin 100000) (j : Fin 32) :
    (Cert.ReferenceIdeal.Read.val_main_v108 (F := Ideal) x0 x1 x2) (ix2 n j) = segSum (Cert.ReferenceIdeal.Read.val_main_v35 (F := Ideal) x1 x2) (Cert.ReferenceIdeal.Read.val_main_v41 (F := Ideal) x1) (Cert.ReferenceIdeal.Read.val_main_v46 (F := Ideal) x1) x0 n j := by
  simp only [Cert.ReferenceIdeal.Read.val_main_v108, Cert.ReferenceIdeal.Read.val_main_v105, Cert.ReferenceIdeal.Read.val_main_v104, Cert.ReferenceIdeal.Read.val_main_v103, Cert.ReferenceIdeal.Read.val_main_v106, Cert.ReferenceIdeal.Read.val_main_cst_17]
  refine (ref_agg _ _ _ _ n j).trans ?_
  simp only [Cert.ReferenceIdeal.Read.val_main_v96, Cert.ReferenceIdeal.Read.val_main_v107, Cert.ReferenceIdeal.Read.val_main_c_15, Cert.ReferenceIdeal.Read.val_main_v97, Cert.ReferenceIdeal.Read.val_main_v98, Cert.ReferenceIdeal.Read.val_main_c_16, Cert.ReferenceIdeal.Read.val_main_v99, Cert.ReferenceIdeal.Read.val_main_v100, Cert.ReferenceIdeal.Read.val_main_v101, Cert.ReferenceIdeal.Read.val_main_v102, Cert.ReferenceIdeal.Read.val_main_v35, Cert.ReferenceIdeal.Read.val_main_v46, Cert.ReferenceIdeal.Read.val_main_c_7, Cert.ReferenceIdeal.Read.val_main_v36, Cert.ReferenceIdeal.Read.val_main_v37, Cert.ReferenceIdeal.Read.val_main_c_8, Cert.ReferenceIdeal.Read.val_main_v38, Cert.ReferenceIdeal.Read.val_main_v39, Cert.ReferenceIdeal.Read.val_main_v40, Cert.ReferenceIdeal.Read.val_main_v41]

theorem ref_t1_v135 (n : Fin 100000) (j : Fin 32) :
    (Cert.ReferenceIdeal.Read.val_main_v135 (F := Ideal) x1 x2 x3) (ix2 n j) = segSum (Cert.ReferenceIdeal.Read.val_main_v35 (F := Ideal) x1 x2) (Cert.ReferenceIdeal.Read.val_main_v41 (F := Ideal) x1) (Cert.ReferenceIdeal.Read.val_main_v46 (F := Ideal) x1) x3 n j := by
  simp only [Cert.ReferenceIdeal.Read.val_main_v135, Cert.ReferenceIdeal.Read.val_main_v132, Cert.ReferenceIdeal.Read.val_main_v131, Cert.ReferenceIdeal.Read.val_main_v130, Cert.ReferenceIdeal.Read.val_main_v133, Cert.ReferenceIdeal.Read.val_main_cst_20]
  refine (ref_agg _ _ _ _ n j).trans ?_
  simp only [Cert.ReferenceIdeal.Read.val_main_v123, Cert.ReferenceIdeal.Read.val_main_v134, Cert.ReferenceIdeal.Read.val_main_c_18, Cert.ReferenceIdeal.Read.val_main_v124, Cert.ReferenceIdeal.Read.val_main_v125, Cert.ReferenceIdeal.Read.val_main_c_19, Cert.ReferenceIdeal.Read.val_main_v126, Cert.ReferenceIdeal.Read.val_main_v127, Cert.ReferenceIdeal.Read.val_main_v128, Cert.ReferenceIdeal.Read.val_main_v129, Cert.ReferenceIdeal.Read.val_main_v35, Cert.ReferenceIdeal.Read.val_main_v46, Cert.ReferenceIdeal.Read.val_main_c_7, Cert.ReferenceIdeal.Read.val_main_v36, Cert.ReferenceIdeal.Read.val_main_v37, Cert.ReferenceIdeal.Read.val_main_c_8, Cert.ReferenceIdeal.Read.val_main_v38, Cert.ReferenceIdeal.Read.val_main_v39, Cert.ReferenceIdeal.Read.val_main_v40, Cert.ReferenceIdeal.Read.val_main_v41]

theorem ref_t1_v170 (n : Fin 100000) (j : Fin 32) :
    (Cert.ReferenceIdeal.Read.val_main_v170 (F := Ideal) x0 x1 x2) (ix2 n j) = segSum (Cert.ReferenceIdeal.Read.val_main_v35 (F := Ideal) x1 x2) (Cert.ReferenceIdeal.Read.val_main_v41 (F := Ideal) x1) (Cert.ReferenceIdeal.Read.val_main_v46 (F := Ideal) x1) x0 n j := by
  simp only [Cert.ReferenceIdeal.Read.val_main_v170, Cert.ReferenceIdeal.Read.val_main_v167, Cert.ReferenceIdeal.Read.val_main_v166, Cert.ReferenceIdeal.Read.val_main_v165, Cert.ReferenceIdeal.Read.val_main_v168, Cert.ReferenceIdeal.Read.val_main_cst_25]
  refine (ref_agg _ _ _ _ n j).trans ?_
  simp only [Cert.ReferenceIdeal.Read.val_main_v158, Cert.ReferenceIdeal.Read.val_main_v169, Cert.ReferenceIdeal.Read.val_main_c_23, Cert.ReferenceIdeal.Read.val_main_v159, Cert.ReferenceIdeal.Read.val_main_v160, Cert.ReferenceIdeal.Read.val_main_c_24, Cert.ReferenceIdeal.Read.val_main_v161, Cert.ReferenceIdeal.Read.val_main_v162, Cert.ReferenceIdeal.Read.val_main_v163, Cert.ReferenceIdeal.Read.val_main_v164, Cert.ReferenceIdeal.Read.val_main_v35, Cert.ReferenceIdeal.Read.val_main_v46, Cert.ReferenceIdeal.Read.val_main_c_7, Cert.ReferenceIdeal.Read.val_main_v36, Cert.ReferenceIdeal.Read.val_main_v37, Cert.ReferenceIdeal.Read.val_main_c_8, Cert.ReferenceIdeal.Read.val_main_v38, Cert.ReferenceIdeal.Read.val_main_v39, Cert.ReferenceIdeal.Read.val_main_v40, Cert.ReferenceIdeal.Read.val_main_v41]

theorem ref_t1_v197 (n : Fin 100000) (j : Fin 32) :
    (Cert.ReferenceIdeal.Read.val_main_v197 (F := Ideal) x0 x1 x2 x3 x4 x5 x6 x7) (ix2 n j) = segSum (Cert.ReferenceIdeal.Read.val_main_v35 (F := Ideal) x1 x2) (Cert.ReferenceIdeal.Read.val_main_v41 (F := Ideal) x1) (Cert.ReferenceIdeal.Read.val_main_v46 (F := Ideal) x1) (Cert.ReferenceIdeal.Read.val_main_v153 (F := Ideal) x0 x1 x2 x3 x4 x5 x6 x7) n j := by
  simp only [Cert.ReferenceIdeal.Read.val_main_v197, Cert.ReferenceIdeal.Read.val_main_v194, Cert.ReferenceIdeal.Read.val_main_v193, Cert.ReferenceIdeal.Read.val_main_v192, Cert.ReferenceIdeal.Read.val_main_v195, Cert.ReferenceIdeal.Read.val_main_cst_28]
  refine (ref_agg _ _ _ _ n j).trans ?_
  simp only [Cert.ReferenceIdeal.Read.val_main_v185, Cert.ReferenceIdeal.Read.val_main_v196, Cert.ReferenceIdeal.Read.val_main_c_26, Cert.ReferenceIdeal.Read.val_main_v186, Cert.ReferenceIdeal.Read.val_main_v187, Cert.ReferenceIdeal.Read.val_main_c_27, Cert.ReferenceIdeal.Read.val_main_v188, Cert.ReferenceIdeal.Read.val_main_v189, Cert.ReferenceIdeal.Read.val_main_v190, Cert.ReferenceIdeal.Read.val_main_v191, Cert.ReferenceIdeal.Read.val_main_v35, Cert.ReferenceIdeal.Read.val_main_v46, Cert.ReferenceIdeal.Read.val_main_c_7, Cert.ReferenceIdeal.Read.val_main_v36, Cert.ReferenceIdeal.Read.val_main_v37, Cert.ReferenceIdeal.Read.val_main_c_8, Cert.ReferenceIdeal.Read.val_main_v38, Cert.ReferenceIdeal.Read.val_main_v39, Cert.ReferenceIdeal.Read.val_main_v40, Cert.ReferenceIdeal.Read.val_main_v41]

/-- The edge aggregation both programs use, as a map of node-feature arrays:
    T v (n, j) = 0 + Σ_{e : dst e = n} coef e · v(src e, j), the coefficient and the two index columns computed from the edge list and the edge weights. -/
abbrev aggT (e1 : (⟨Cert.ReferenceIdeal.S2x1600000, .i32⟩ : BufTy).Contents (Elt Ideal)) (e2 : (⟨Cert.ReferenceIdeal.S1600000, .f32⟩ : BufTy).Contents (Elt Ideal)) :
    ((⟨2, ![100000, 32]⟩ : Shape).Idx → Ideal .f32) → Fin 100000 → Fin 32 → Ideal .f32 :=
  fun v n k => segSum (Cert.ReferenceIdeal.Read.val_main_v35 (F := Ideal) e1 e2) (Cert.ReferenceIdeal.Read.val_main_v41 (F := Ideal) e1) (Cert.ReferenceIdeal.Read.val_main_v46 (F := Ideal) e1) v n k

end Cert.KernelIdeal.Val

end
-- ==== Proof.IdealSide.KernelResults.lean ====
/-
  The kernel program's two results read at an entry, in the shared mathematical form (Proof/IdealSide/GateSpec.lean): each
  128-term contraction of a packed row against a stacked weight, plus the summed bias, is regrouped into the four 32-term
  products and two biases of a gate (Proof/LibGateAlgebra.lean); the packed columns are x, h (or h ⊙ r), and their edge
  aggregations; the stacked rows are the gate's four weight matrices; the read-out row is the read-out weight's column.
-/
import proofs.«118658_j79585743995076_2_alg».proof.Proof.IdealSide.CandidateBlock
import proofs.«118658_j79585743995076_2_alg».proof.Proof.IdealSide.StackedWeights
import proofs.«118658_j79585743995076_2_alg».proof.Proof.IdealSide.UpdateWeights
import proofs.«118658_j79585743995076_2_alg».proof.Proof.IdealSide.CandidateWeights
import proofs.«118658_j79585743995076_2_alg».proof.Proof.IdealSide.ReadoutRow
import proofs.«118658_j79585743995076_2_alg».proof.Proof.IdealSide.KernelValues
import proofs.«118658_j79585743995076_2_alg».proof.Proof.IdealSide.RefEntries

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

/-- `hiddenRows` at node n, channel j. -/
theorem hiddenRows_apply (P Pc : Vec Ideal S100000x128 .f32) (H : Vec Ideal S100000x32 .f32) (Wz Wc : Vec Ideal S128x32 .f32) (bz bc : Vec Ideal S32 .f32)
    (n : Fin 100000) (j : Fin 32) :
    hiddenRows P Pc H Wz Wc bz bc (ix2 n j)
      = Ideal.logistic ((∑ k : Fin 128, P (ix2 n k) * Wz (ix2 k j)) + bz (ix1 j)) * H (ix2 n j)
        + ((Scalar.ofBits .f32 0x3F800000#32 : Ideal .f32) - Ideal.logistic ((∑ k : Fin 128, P (ix2 n k) * Wz (ix2 k j)) + bz (ix1 j)))
          * Ideal.tanh ((∑ k : Fin 128, Pc (ix2 n k) * Wc (ix2 k j)) + bc (ix1 j)) := rfl

/-- `outRows` at node n. -/
theorem outRows_apply (Hn : S100000x32.Idx → Ideal .f32) (wl : S1x32.Idx → Ideal .f32) (bl : S1x1.Idx → Ideal .f32) (n : Fin 100000) (u : Fin 1) :
    outRows Hn wl bl (ix2 n u)
      = softplusForm ((∑ c : Fin 32, FloatOps.maximumf (F := Ideal) (Hn (ix2 n c)) (FloatOps.ofBits .f32 0#32) * wl (ix2 (0 : Fin 1) c)) + bl (ix2 (0 : Fin 1) (0 : Fin 1))) := rfl

/-- The reset-gate region's result is the shared h ⊙ r, as a whole array. -/
theorem hr_array (c : Dev nD) :
    (W6 m c main_v62 : S100000x32.Idx → Ideal .f32) = hrSpec (aggT (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg6)) (m ((c : Thread nD τ).loc main_arg5)) (m ((c : Thread nD τ).loc main_arg7)) := by
  funext i
  obtain ⟨n, j, rfl⟩ : ∃ (n : Fin 100000) (j : Fin 32), i = ix2 n j := ⟨i 0, i 1, eq_ix2 i⟩
  exact hr_entry m c n j

/-- The new hidden state the kernel program returns, at (n, j). -/
theorem hidden_entry (c : Dev nD) (n : Fin 100000) (j : Fin 32) :
    hiddenK m c (ix2 n j) = hiddenSpec (aggT (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg6)) (m ((c : Thread nD τ).loc main_arg5)) (m ((c : Thread nD τ).loc main_arg7)) n j := by
  show hiddenRows (E7 m c main_v47) (E7 m c main_v76) (E7 m c main_arg3) (E7 m c main_v85) (E7 m c main_v99) (E7 m c main_v90) (E7 m c main_v104) (ix2 n j) = _
  rw [hiddenRows_apply]
  simp only [E7]
  rw [w7_arg3, w7_bz, w7_bc, w7_P, Cert.Lib.GateAlgebra.gate_regroup, Cert.Lib.GateAlgebra.gate_regroup]
  simp only [b3_P0 m c n, b3_P1 m c n, b3_P2 m c n, b3_P3 m c n, w7_Pc0 m c n, w7_Pc1 m c n, w7_Pc2 m c n, w7_Pc3 m c n,
    w7_Wz0 m c, w7_Wz1 m c, w7_Wz2 m c, w7_Wz3 m c, w7_Wc0 m c, w7_Wc1 m c, w7_Wc2 m c, w7_Wc3 m c]
  rw [hr_array]
  rfl

/-- The read-out the kernel program returns, at node n. -/
theorem out_entry (c : Dev nD) (n : Fin 100000) (u : Fin 1) :
    outK m c (ix2 n u) = softplusForm (logitSpec (aggT (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) n) := by
  show outRows (hiddenK m c) (E7 m c main_v105) (E7 m c main_v106) (ix2 n u) = _
  rw [outRows_apply]
  simp only [E7, w7_wl m c, w7_bl m c, hidden_entry m c]
  rfl

end Cert.KernelIdeal.Val

end
-- ==== Proof.LibRefReads.lean ====
/-
  Layout facts of the reference's spelling, read at an entry, for any element type, and two facts about the extended
  reals' reading of float words:
  * gate g's 2×32×32 pair of weights cut out of the 3×2×32×32 array and flattened, then order t's 32×32 matrix cut out of
    the pair and flattened: entry (k, j) is the weight at (g, t, k, j);
  * the float word 0x3F800000 is the number 1;
  * the soft-plus form with its exponent written 0 − |t − 0| is the one with the exponent written −|t − 0|.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Lib.RefReads

open Idealize.ShloMosaic Idealize.ShloMosaic.ValueIdx

variable {α : Type}

/-- One gate's, one order's 32×32 weight out of the 3×2×32×32 array, cut in two steps. -/
theorem wslice2_apply (A : (⟨4, ![3, 2, 32, 32]⟩ : Shape).Idx → α) (g t : ℕ) (hg : g < 3) (ht : t < 2)
    (hs1 : (⟨4, ![3, 2, 32, 32]⟩ : Shape).Slices ![g, 0, 0, 0] ⟨4, ![1, 2, 32, 32]⟩)
    (hc1 : (⟨4, ![1, 2, 32, 32]⟩ : Shape).ShapeCasts ⟨3, ![2, 32, 32]⟩)
    (hs2 : (⟨3, ![2, 32, 32]⟩ : Shape).Slices ![t, 0, 0] ⟨3, ![1, 32, 32]⟩)
    (hc2 : (⟨3, ![1, 32, 32]⟩ : Shape).ShapeCasts ⟨2, ![32, 32]⟩) (k j : Fin 32) :
    shapeCast ⟨2, ![32, 32]⟩ (extractStridedSlice ⟨3, ![1, 32, 32]⟩ ![t, 0, 0]
        (shapeCast ⟨3, ![2, 32, 32]⟩ (extractStridedSlice ⟨4, ![1, 2, 32, 32]⟩ ![g, 0, 0, 0] A hs1) hc1) hs2) hc2 (ix2 k j)
      = A (ix4 (⟨g, hg⟩ : Fin 3) (⟨t, ht⟩ : Fin 2) k j) := by
  refine (shapeCast_apply _ hc2 (ix2 k j) (ix3 (0 : Fin 1) k j) ?_).trans ?_
  · rw [Shape.rowMajor_val_three, Shape.rowMajor_val_two]
    show (0 * 32 + k.val) * 32 + j.val = k.val * 32 + j.val
    omega
  refine (extractStridedSlice_apply _ _ hs2 _ (ix3 (⟨t, ht⟩ : Fin 2) k j) fun b => ?_).trans ?_
  · match b with
    | ⟨0, _⟩ => show t = t + 0; omega
    | ⟨1, _⟩ => show k.val = 0 + k.val; omega
    | ⟨2, _⟩ => show j.val = 0 + j.val; omega
  refine (shapeCast_apply _ hc1 (ix3 (⟨t, ht⟩ : Fin 2) k j) (ix4 (0 : Fin 1) (⟨t, ht⟩ : Fin 2) k j) ?_).trans ?_
  · rw [Shape.rowMajor_val_four, Shape.rowMajor_val_three]
    show ((0 * 2 + t) * 32 + k.val) * 32 + j.val = (t * 32 + k.val) * 32 + j.val
    omega
  refine extractStridedSlice_apply _ A hs1 _ (ix4 (⟨g, hg⟩ : Fin 3) (⟨t, ht⟩ : Fin 2) k j) fun b => ?_
  match b with
  | ⟨0, _⟩ => show g = g + 0; omega
  | ⟨1, _⟩ => show t = 0 + t; omega
  | ⟨2, _⟩ => show k.val = 0 + k.val; omega
  | ⟨3, _⟩ => show j.val = 0 + j.val; omega

/-- The float word 0x3F800000 read exactly is 1. -/
theorem one_f32 : Ideal.ofBits .f32 0x3F800000#32 = 1 := by
  simp [Ideal.ofBits, Ideal.ieee, -EReal.coe_mul]
  norm_num

/-- On the extended reals 0 − y is −y. -/
theorem zero_word_sub (y : EReal) : Ideal.ofBits .f32 0x00000000#32 - y = -y := by
  rw [Ideal.ofBits_zero_f32, zero_sub]

end Cert.Lib.RefReads

end
-- ==== Proof.RefGates.lean ====
/-
  The reference read at an entry, in the shared mathematical form (Proof/IdealSide/GateSpec.lean). Each of its six ChebConv
  terms is two 32-term products (the features and their edge aggregation against the two orders' weight matrices, each cut
  out of the 3×2×32×32 stack in two steps) plus a bias row repeated down the nodes; a gate is the sum of its x-term and
  h-term; σ is spelt 1 / (1 + e^(−·)); the new hidden state is z ⊙ h + (1 − z) ⊙ tanh(·); the read-out is the soft-plus form
  of max(h', 0)·w + β.
-/
import proofs.«118658_j79585743995076_2_alg».proof.Proof.RefRead
import proofs.«118658_j79585743995076_2_alg».proof.Proof.IdealSide.RefEntries
import proofs.«118658_j79585743995076_2_alg».proof.Proof.IdealSide.GateSpec
import proofs.«118658_j79585743995076_2_alg».proof.Proof.LibRefReads
import proofs.«118658_j79585743995076_2_alg».proof.Proof.LibRows
import proofs.«118658_j79585743995076_2_alg».proof.Proof.LibLayoutReads

set_option maxRecDepth 16384

noncomputable section

namespace Cert.RefSide

open Cert.ReferenceIdeal Cert.ReferenceIdeal.Read Cert.KernelIdeal.Val
open Idealize.ShloMosaic Idealize.ShloMosaic.ValueIdx

/-! ## The two products' shapes: a sum over the 32 contracted channels -/

theorem ref_dot_apply (A : FVec Ideal S100000x32 .f32) (B : FVec Ideal S32x32 .f32) (n : Fin 100000) (j : Fin 32) :
    Host.dotGeneral (F := Ideal) dot_S100000x32_S32x32_S100000x32_1_0_0_1_n_n none A B (ix2 n j) = ∑ k : Fin 32, A (ix2 n k) * B (ix2 k j) := by
  simp only [Host.dotGeneral]
  rw [Ideal.dotGeneral_apply, ← Equiv.sum_comp (ValueIdx.contrEquiv1 dot_S100000x32_S32x32_S100000x32_1_0_0_1_n_n 32 rfl rfl).symm]
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx (ix2 n j) ((ValueIdx.contrEquiv1 dot_S100000x32_S32x32_S100000x32_1_0_0_1_n_n 32 rfl rfl).symm k) = ix2 n k := funext fun a => Fin.ext (by
    match a with
    | ⟨0, _⟩ => exact lhs_main_v50_0 (ix2 n j) _
    | ⟨1, _⟩ => exact (lhs_main_v50_1 (ix2 n j) _).trans hk)
  have er : dot_S100000x32_S32x32_S100000x32_1_0_0_1_n_n.rhsIdx (ix2 n j) ((ValueIdx.contrEquiv1 dot_S100000x32_S32x32_S100000x32_1_0_0_1_n_n 32 rfl rfl).symm k) = ix2 k j := funext fun a => Fin.ext (by
    match a with
    | ⟨0, _⟩ => exact (rhs_main_v50_0 (ix2 n j) _).trans hk
    | ⟨1, _⟩ => exact rhs_main_v50_1 (ix2 n j) _)
  rw [el, er]

theorem ref_dot1_apply (A : FVec Ideal S100000x32 .f32) (B : FVec Ideal S32x1 .f32) (n : Fin 100000) (j : Fin 1) :
    Host.dotGeneral (F := Ideal) dot_S100000x32_S32x1_S100000x1_1_0_0_1_n_n none A B (ix2 n j) = ∑ k : Fin 32, A (ix2 n k) * B (ix2 k j) := by
  simp only [Host.dotGeneral]
  rw [Ideal.dotGeneral_apply, ← Equiv.sum_comp (ValueIdx.contrEquiv1 dot_S100000x32_S32x1_S100000x1_1_0_0_1_n_n 32 rfl rfl).symm]
  refine Finset.sum_congr rfl fun k _ => ?_
  have hk := ValueIdx.contrEquiv1_symm_val dot_S100000x32_S32x1_S100000x1_1_0_0_1_n_n 32 rfl rfl k
  have el : dot_S100000x32_S32x1_S100000x1_1_0_0_1_n_n.lhsIdx (ix2 n j) ((ValueIdx.contrEquiv1 dot_S100000x32_S32x1_S100000x1_1_0_0_1_n_n 32 rfl rfl).symm k) = ix2 n k := funext fun a => Fin.ext (by
    match a with
    | ⟨0, _⟩ => exact lhs_main_v216_0 (ix2 n j) _
    | ⟨1, _⟩ => exact (lhs_main_v216_1 (ix2 n j) _).trans hk)
  have er : dot_S100000x32_S32x1_S100000x1_1_0_0_1_n_n.rhsIdx (ix2 n j) ((ValueIdx.contrEquiv1 dot_S100000x32_S32x1_S100000x1_1_0_0_1_n_n 32 rfl rfl).symm k) = ix2 k j := funext fun a => Fin.ext (by
    match a with
    | ⟨0, _⟩ => exact (rhs_main_v216_0 (ix2 n j) _).trans hk
    | ⟨1, _⟩ => exact rhs_main_v216_1 (ix2 n j) _)
  rw [el, er]

variable (x0 : (⟨S100000x32, .f32⟩ : BufTy).Contents (Elt Ideal)) (x1 : (⟨S2x1600000, .i32⟩ : BufTy).Contents (Elt Ideal))
  (x2 : (⟨S1600000, .f32⟩ : BufTy).Contents (Elt Ideal)) (x3 : (⟨S100000x32, .f32⟩ : BufTy).Contents (Elt Ideal))
  (x4 : (⟨S3x2x32x32, .f32⟩ : BufTy).Contents (Elt Ideal)) (x5 : (⟨S3x32, .f32⟩ : BufTy).Contents (Elt Ideal))
  (x6 : (⟨S3x2x32x32, .f32⟩ : BufTy).Contents (Elt Ideal)) (x7 : (⟨S3x32, .f32⟩ : BufTy).Contents (Elt Ideal))
  (x8 : (⟨S32x1, .f32⟩ : BufTy).Contents (Elt Ideal)) (x9 : (⟨S1, .f32⟩ : BufTy).Contents (Elt Ideal))

/-! ## Weights, biases and products, one operation at a time -/

theorem w_v49 (k j : Fin 32) : (val_main_v49 (F := Ideal) x4) (ix2 k j) = x4 (ix4 (⟨0, by decide⟩ : Fin 3) (⟨0, by decide⟩ : Fin 2) k j) := by
  unfold val_main_v49 val_main_v48 val_main_v32 val_main_v31
  exact Cert.Lib.RefReads.wslice2_apply x4 0 0 (by decide) (by decide) _ _ _ _ k j

theorem w_v52 (k j : Fin 32) : (val_main_v52 (F := Ideal) x4) (ix2 k j) = x4 (ix4 (⟨0, by decide⟩ : Fin 3) (⟨1, by decide⟩ : Fin 2) k j) := by
  unfold val_main_v52 val_main_v51 val_main_v32 val_main_v31
  exact Cert.Lib.RefReads.wslice2_apply x4 0 1 (by decide) (by decide) _ _ _ _ k j

theorem w_v76 (k j : Fin 32) : (val_main_v76 (F := Ideal) x6) (ix2 k j) = x6 (ix4 (⟨0, by decide⟩ : Fin 3) (⟨0, by decide⟩ : Fin 2) k j) := by
  unfold val_main_v76 val_main_v75 val_main_v59 val_main_v58
  exact Cert.Lib.RefReads.wslice2_apply x6 0 0 (by decide) (by decide) _ _ _ _ k j

theorem w_v79 (k j : Fin 32) : (val_main_v79 (F := Ideal) x6) (ix2 k j) = x6 (ix4 (⟨0, by decide⟩ : Fin 3) (⟨1, by decide⟩ : Fin 2) k j) := by
  unfold val_main_v79 val_main_v78 val_main_v59 val_main_v58
  exact Cert.Lib.RefReads.wslice2_apply x6 0 1 (by decide) (by decide) _ _ _ _ k j

theorem b_v56 (n : Fin 100000) (j : Fin 32) : (val_main_v56 (F := Ideal) x5) (ix2 n j) = x5 (ix2 (⟨0, by decide⟩ : Fin 3) j) := by
  unfold val_main_v56 val_main_v55 val_main_v34 val_main_v33
  rw [Cert.Lib.Rows.broadcastInDim_1b_ab_apply, Cert.Lib.Rows.broadcastInDim_b_1b_apply]
  exact Cert.Lib.LayoutReads.bslice_apply x5 0 (by decide) _ _ j

theorem b_v83 (n : Fin 100000) (j : Fin 32) : (val_main_v83 (F := Ideal) x7) (ix2 n j) = x7 (ix2 (⟨0, by decide⟩ : Fin 3) j) := by
  unfold val_main_v83 val_main_v82 val_main_v61 val_main_v60
  rw [Cert.Lib.Rows.broadcastInDim_1b_ab_apply, Cert.Lib.Rows.broadcastInDim_b_1b_apply]
  exact Cert.Lib.LayoutReads.bslice_apply x7 0 (by decide) _ _ j

theorem d_v50 (n : Fin 100000) (j : Fin 32) : (val_main_v50 (F := Ideal) x0 x4) (ix2 n j) = ∑ k : Fin 32, x0 (ix2 n k) * (val_main_v49 (F := Ideal) x4) (ix2 k j) := by
  unfold val_main_v50
  exact ref_dot_apply _ _ n j

theorem d_v53 (n : Fin 100000) (j : Fin 32) : (val_main_v53 (F := Ideal) x0 x1 x2 x4) (ix2 n j) = ∑ k : Fin 32, (val_main_v47 (F := Ideal) x0 x1 x2) (ix2 n k) * (val_main_v52 (F := Ideal) x4) (ix2 k j) := by
  unfold val_main_v53
  exact ref_dot_apply _ _ n j

theorem d_v77 (n : Fin 100000) (j : Fin 32) : (val_main_v77 (F := Ideal) x3 x6) (ix2 n j) = ∑ k : Fin 32, x3 (ix2 n k) * (val_main_v76 (F := Ideal) x6) (ix2 k j) := by
  unfold val_main_v77
  exact ref_dot_apply _ _ n j

theorem d_v80 (n : Fin 100000) (j : Fin 32) : (val_main_v80 (F := Ideal) x1 x2 x3 x6) (ix2 n j) = ∑ k : Fin 32, (val_main_v74 (F := Ideal) x1 x2 x3) (ix2 n k) * (val_main_v79 (F := Ideal) x6) (ix2 k j) := by
  unfold val_main_v80
  exact ref_dot_apply _ _ n j

theorem w_v110 (k j : Fin 32) : (val_main_v110 (F := Ideal) x4) (ix2 k j) = x4 (ix4 (⟨1, by decide⟩ : Fin 3) (⟨0, by decide⟩ : Fin 2) k j) := by
  unfold val_main_v110 val_main_v109 val_main_v93 val_main_v92
  exact Cert.Lib.RefReads.wslice2_apply x4 1 0 (by decide) (by decide) _ _ _ _ k j

theorem w_v113 (k j : Fin 32) : (val_main_v113 (F := Ideal) x4) (ix2 k j) = x4 (ix4 (⟨1, by decide⟩ : Fin 3) (⟨1, by decide⟩ : Fin 2) k j) := by
  unfold val_main_v113 val_main_v112 val_main_v93 val_main_v92
  exact Cert.Lib.RefReads.wslice2_apply x4 1 1 (by decide) (by decide) _ _ _ _ k j

theorem w_v137 (k j : Fin 32) : (val_main_v137 (F := Ideal) x6) (ix2 k j) = x6 (ix4 (⟨1, by decide⟩ : Fin 3) (⟨0, by decide⟩ : Fin 2) k j) := by
  unfold val_main_v137 val_main_v136 val_main_v120 val_main_v119
  exact Cert.Lib.RefReads.wslice2_apply x6 1 0 (by decide) (by decide) _ _ _ _ k j

theorem w_v140 (k j : Fin 32) : (val_main_v140 (F := Ideal) x6) (ix2 k j) = x6 (ix4 (⟨1, by decide⟩ : Fin 3) (⟨1, by decide⟩ : Fin 2) k j) := by
  unfold val_main_v140 val_main_v139 val_main_v120 val_main_v119
  exact Cert.Lib.RefReads.wslice2_apply x6 1 1 (by decide) (by decide) _ _ _ _ k j

theorem b_v117 (n : Fin 100000) (j : Fin 32) : (val_main_v117 (F := Ideal) x5) (ix2 n j) = x5 (ix2 (⟨1, by decide⟩ : Fin 3) j) := by
  unfold val_main_v117 val_main_v116 val_main_v95 val_main_v94
  rw [Cert.Lib.Rows.broadcastInDim_1b_ab_apply, Cert.Lib.Rows.broadcastInDim_b_1b_apply]
  exact Cert.Lib.LayoutReads.bslice_apply x5 1 (by decide) _ _ j

theorem b_v144 (n : Fin 100000) (j : Fin 32) : (val_main_v144 (F := Ideal) x7) (ix2 n j) = x7 (ix2 (⟨1, by decide⟩ : Fin 3) j) := by
  unfold val_main_v144 val_main_v143 val_main_v122 val_main_v121
  rw [Cert.Lib.Rows.broadcastInDim_1b_ab_apply, Cert.Lib.Rows.broadcastInDim_b_1b_apply]
  exact Cert.Lib.LayoutReads.bslice_apply x7 1 (by decide) _ _ j

theorem d_v111 (n : Fin 100000) (j : Fin 32) : (val_main_v111 (F := Ideal) x0 x4) (ix2 n j) = ∑ k : Fin 32, x0 (ix2 n k) * (val_main_v110 (F := Ideal) x4) (ix2 k j) := by
  unfold val_main_v111
  exact ref_dot_apply _ _ n j

theorem d_v114 (n : Fin 100000) (j : Fin 32) : (val_main_v114 (F := Ideal) x0 x1 x2 x4) (ix2 n j) = ∑ k : Fin 32, (val_main_v108 (F := Ideal) x0 x1 x2) (ix2 n k) * (val_main_v113 (F := Ideal) x4) (ix2 k j) := by
  unfold val_main_v114
  exact ref_dot_apply _ _ n j

theorem d_v138 (n : Fin 100000) (j : Fin 32) : (val_main_v138 (F := Ideal) x3 x6) (ix2 n j) = ∑ k : Fin 32, x3 (ix2 n k) * (val_main_v137 (F := Ideal) x6) (ix2 k j) := by
  unfold val_main_v138
  exact ref_dot_apply _ _ n j

theorem d_v141 (n : Fin 100000) (j : Fin 32) : (val_main_v141 (F := Ideal) x1 x2 x3 x6) (ix2 n j) = ∑ k : Fin 32, (val_main_v135 (F := Ideal) x1 x2 x3) (ix2 n k) * (val_main_v140 (F := Ideal) x6) (ix2 k j) := by
  unfold val_main_v141
  exact ref_dot_apply _ _ n j

theorem w_v172 (k j : Fin 32) : (val_main_v172 (F := Ideal) x4) (ix2 k j) = x4 (ix4 (⟨2, by decide⟩ : Fin 3) (⟨0, by decide⟩ : Fin 2) k j) := by
  unfold val_main_v172 val_main_v171 val_main_v155 val_main_v154
  exact Cert.Lib.RefReads.wslice2_apply x4 2 0 (by decide) (by decide) _ _ _ _ k j

theorem w_v175 (k j : Fin 32) : (val_main_v175 (F := Ideal) x4) (ix2 k j) = x4 (ix4 (⟨2, by decide⟩ : Fin 3) (⟨1, by decide⟩ : Fin 2) k j) := by
  unfold val_main_v175 val_main_v174 val_main_v155 val_main_v154
  exact Cert.Lib.RefReads.wslice2_apply x4 2 1 (by decide) (by decide) _ _ _ _ k j

theorem w_v199 (k j : Fin 32) : (val_main_v199 (F := Ideal) x6) (ix2 k j) = x6 (ix4 (⟨2, by decide⟩ : Fin 3) (⟨0, by decide⟩ : Fin 2) k j) := by
  unfold val_main_v199 val_main_v198 val_main_v182 val_main_v181
  exact Cert.Lib.RefReads.wslice2_apply x6 2 0 (by decide) (by decide) _ _ _ _ k j

theorem w_v202 (k j : Fin 32) : (val_main_v202 (F := Ideal) x6) (ix2 k j) = x6 (ix4 (⟨2, by decide⟩ : Fin 3) (⟨1, by decide⟩ : Fin 2) k j) := by
  unfold val_main_v202 val_main_v201 val_main_v182 val_main_v181
  exact Cert.Lib.RefReads.wslice2_apply x6 2 1 (by decide) (by decide) _ _ _ _ k j

theorem b_v179 (n : Fin 100000) (j : Fin 32) : (val_main_v179 (F := Ideal) x5) (ix2 n j) = x5 (ix2 (⟨2, by decide⟩ : Fin 3) j) := by
  unfold val_main_v179 val_main_v178 val_main_v157 val_main_v156
  rw [Cert.Lib.Rows.broadcastInDim_1b_ab_apply, Cert.Lib.Rows.broadcastInDim_b_1b_apply]
  exact Cert.Lib.LayoutReads.bslice_apply x5 2 (by decide) _ _ j

theorem b_v206 (n : Fin 100000) (j : Fin 32) : (val_main_v206 (F := Ideal) x7) (ix2 n j) = x7 (ix2 (⟨2, by decide⟩ : Fin 3) j) := by
  unfold val_main_v206 val_main_v205 val_main_v184 val_main_v183
  rw [Cert.Lib.Rows.broadcastInDim_1b_ab_apply, Cert.Lib.Rows.broadcastInDim_b_1b_apply]
  exact Cert.Lib.LayoutReads.bslice_apply x7 2 (by decide) _ _ j

theorem d_v173 (n : Fin 100000) (j : Fin 32) : (val_main_v173 (F := Ideal) x0 x4) (ix2 n j) = ∑ k : Fin 32, x0 (ix2 n k) * (val_main_v172 (F := Ideal) x4) (ix2 k j) := by
  unfold val_main_v173
  exact ref_dot_apply _ _ n j

theorem d_v176 (n : Fin 100000) (j : Fin 32) : (val_main_v176 (F := Ideal) x0 x1 x2 x4) (ix2 n j) = ∑ k : Fin 32, (val_main_v170 (F := Ideal) x0 x1 x2) (ix2 n k) * (val_main_v175 (F := Ideal) x4) (ix2 k j) := by
  unfold val_main_v176
  exact ref_dot_apply _ _ n j

theorem d_v200 (n : Fin 100000) (j : Fin 32) : (val_main_v200 (F := Ideal) x0 x1 x2 x3 x4 x5 x6 x7) (ix2 n j) = ∑ k : Fin 32, (val_main_v153 (F := Ideal) x0 x1 x2 x3 x4 x5 x6 x7) (ix2 n k) * (val_main_v199 (F := Ideal) x6) (ix2 k j) := by
  unfold val_main_v200
  exact ref_dot_apply _ _ n j

theorem d_v203 (n : Fin 100000) (j : Fin 32) : (val_main_v203 (F := Ideal) x0 x1 x2 x3 x4 x5 x6 x7) (ix2 n j) = ∑ k : Fin 32, (val_main_v197 (F := Ideal) x0 x1 x2 x3 x4 x5 x6 x7) (ix2 n k) * (val_main_v202 (F := Ideal) x6) (ix2 k j) := by
  unfold val_main_v203
  exact ref_dot_apply _ _ n j

/-! ## The gates -/

/-- Gate 0's pre-activation as the reference computes it, at (n, j). -/
theorem ref_gate0 (n : Fin 100000) (j : Fin 32) :
    (val_main_v85 (F := Ideal) x0 x1 x2 x3 x4 x5 x6 x7) (ix2 n j) = gatePre x4 x6 x5 x7 (⟨0, by decide⟩ : Fin 3) (asN32 x0) (asN32 x3) (aggT x1 x2 x0) (aggT x1 x2 x3) n j := by
  rw [val_main_v85_apply, val_main_v57_apply, val_main_v54_apply, val_main_v84_apply, val_main_v81_apply]
  rw [d_v50, d_v53, d_v77, d_v80, b_v56, b_v83]
  simp only [w_v49, w_v52, w_v76, w_v79, ref_t1_v47, ref_t1_v74]
  rfl

/-- Gate 1's pre-activation as the reference computes it, at (n, j). -/
theorem ref_gate1 (n : Fin 100000) (j : Fin 32) :
    (val_main_v146 (F := Ideal) x0 x1 x2 x3 x4 x5 x6 x7) (ix2 n j) = gatePre x4 x6 x5 x7 (⟨1, by decide⟩ : Fin 3) (asN32 x0) (asN32 x3) (aggT x1 x2 x0) (aggT x1 x2 x3) n j := by
  rw [val_main_v146_apply, val_main_v118_apply, val_main_v115_apply, val_main_v145_apply, val_main_v142_apply]
  rw [d_v111, d_v114, d_v138, d_v141, b_v117, b_v144]
  simp only [w_v110, w_v113, w_v137, w_v140, ref_t1_v108, ref_t1_v135]
  rfl

/-- σ of gate 0, the reference's 1 / (1 + e^(−·)), at (n, j). -/
theorem ref_sig0 (n : Fin 100000) (j : Fin 32) :
    (val_main_v91 (F := Ideal) x0 x1 x2 x3 x4 x5 x6 x7) (ix2 n j) = Ideal.logistic (gatePre x4 x6 x5 x7 (⟨0, by decide⟩ : Fin 3) (asN32 x0) (asN32 x3) (aggT x1 x2 x0) (aggT x1 x2 x3) n j) := by
  rw [val_main_v91_apply, val_main_v90_apply, val_main_cst_14_apply, val_main_v89_apply, val_main_v88_apply, val_main_cst_13_apply, val_main_v87_apply, val_main_v86_apply, ref_gate0]
  rw [show (FloatOps.ofBits .f32 0x3F800000#32 : Ideal .f32) = 1 from Cert.Lib.RefReads.one_f32]
  rfl

/-- σ of gate 1, the reference's 1 / (1 + e^(−·)), at (n, j). -/
theorem ref_sig1 (n : Fin 100000) (j : Fin 32) :
    (val_main_v152 (F := Ideal) x0 x1 x2 x3 x4 x5 x6 x7) (ix2 n j) = Ideal.logistic (gatePre x4 x6 x5 x7 (⟨1, by decide⟩ : Fin 3) (asN32 x0) (asN32 x3) (aggT x1 x2 x0) (aggT x1 x2 x3) n j) := by
  rw [val_main_v152_apply, val_main_v151_apply, val_main_cst_22_apply, val_main_v150_apply, val_main_v149_apply, val_main_cst_21_apply, val_main_v148_apply, val_main_v147_apply, ref_gate1]
  rw [show (FloatOps.ofBits .f32 0x3F800000#32 : Ideal .f32) = 1 from Cert.Lib.RefReads.one_f32]
  rfl

/-- The reference's h ⊙ r is the shared one, as a whole array. -/
theorem ref_hr : val_main_v153 (F := Ideal) x0 x1 x2 x3 x4 x5 x6 x7 = hrSpec (aggT x1 x2) x0 x3 x4 x6 x5 x7 := by
  funext i
  obtain ⟨n, j, rfl⟩ : ∃ (n : Fin 100000) (j : Fin 32), i = ix2 n j := ⟨i 0, i 1, eq_ix2 i⟩
  rw [val_main_v153_apply, ref_sig1]
  rfl

/-- Gate 2's pre-activation as the reference computes it, at (n, j). -/
theorem ref_gate2 (n : Fin 100000) (j : Fin 32) :
    (val_main_v208 (F := Ideal) x0 x1 x2 x3 x4 x5 x6 x7) (ix2 n j) = gatePre x4 x6 x5 x7 (⟨2, by decide⟩ : Fin 3) (asN32 x0) (asN32 (val_main_v153 (F := Ideal) x0 x1 x2 x3 x4 x5 x6 x7)) (aggT x1 x2 x0) (aggT x1 x2 (val_main_v153 (F := Ideal) x0 x1 x2 x3 x4 x5 x6 x7)) n j := by
  rw [val_main_v208_apply, val_main_v180_apply, val_main_v177_apply, val_main_v207_apply, val_main_v204_apply]
  rw [d_v173, d_v176, d_v200, d_v203, b_v179, b_v206]
  simp only [w_v172, w_v175, w_v199, w_v202, ref_t1_v170, ref_t1_v197]
  rfl

/-- The candidate's pre-activation, at (n, j). -/
theorem ref_cand (n : Fin 100000) (j : Fin 32) : (val_main_v208 (F := Ideal) x0 x1 x2 x3 x4 x5 x6 x7) (ix2 n j) = candSpec (aggT x1 x2) x0 x3 x4 x6 x5 x7 n j := by
  rw [ref_gate2, ref_hr]
  rfl

/-- The new hidden state, at (n, j). -/
theorem ref_hidden (n : Fin 100000) (j : Fin 32) : (val_main_v214 (F := Ideal) x0 x1 x2 x3 x4 x5 x6 x7) (ix2 n j) = hiddenSpec (aggT x1 x2) x0 x3 x4 x6 x5 x7 n j := by
  rw [val_main_v214_apply, val_main_v210_apply, val_main_v213_apply, val_main_v212_apply, val_main_v211_apply, val_main_cst_29_apply, val_main_v209_apply, ref_sig0, ref_cand]
  rfl

/-! ## The read-out -/

/-- The read-out's logit, at node n. -/
theorem ref_logit (n : Fin 100000) (u : Fin 1) : (val_main_v219 (F := Ideal) x0 x1 x2 x3 x4 x5 x6 x7 x8 x9) (ix2 n u) = logitSpec (aggT x1 x2) x0 x3 x4 x6 x5 x7 x8 x9 n := by
  obtain rfl : u = 0 := Subsingleton.elim _ _
  rw [val_main_v219_apply]
  unfold val_main_v216 val_main_v218 val_main_v217
  rw [ref_dot1_apply, Cert.Lib.Rows.broadcastInDim_1b_ab_apply, Cert.Lib.Rows.broadcastInDim_b_1b_apply]
  simp only [val_main_v215_apply, val_main_call2_v0_apply, val_main_call2_cst_apply, ref_hidden]
  rfl

/-- The soft-plus form as the reference spells it, on one extended real: `max t 0 + log(1 + e^{-|t - 0|})`, guarded by
    the comparison of `t - 0` with itself. -/
def refSoftplus (t : Ideal .f32) : Ideal .f32 :=
  Scalar.select (FloatOps.cmpf CmpFPredicate.une (FloatOps.subf t (FloatOps.ofBits .f32 0x00000000#32)) (FloatOps.subf t (FloatOps.ofBits .f32 0x00000000#32)))
    (FloatOps.addf t (FloatOps.ofBits .f32 0x00000000#32))
    (FloatOps.addf (FloatOps.maximumf t (FloatOps.ofBits .f32 0x00000000#32))
      (FloatOps.hostUnary .log1p (FloatOps.hostUnary .exp (FloatOps.hostNegf (FloatOps.hostAbsf (FloatOps.subf t (FloatOps.ofBits .f32 0x00000000#32)))))))

theorem ref_out_form (i : S100000x1.Idx) : (val_main_v220 (F := Ideal) x0 x1 x2 x3 x4 x5 x6 x7 x8 x9) i = refSoftplus ((val_main_v219 (F := Ideal) x0 x1 x2 x3 x4 x5 x6 x7 x8 x9) i) := by
  simp only [val_main_v220_apply, val_main_call3_v4_apply, val_main_call3_v6_apply, val_main_call3_v11_apply, val_main_call3_v1_apply, val_main_call3_v10_apply, val_main_call3_v9_apply, val_main_call3_v8_apply, val_main_call3_v7_apply, val_main_call3_v3_apply, val_main_call3_v0_apply, val_main_call3_v2_apply, val_main_call3_v5_apply, val_main_call3_cst_apply]
  rfl

/-- The read-out, at node n. -/
theorem ref_out (n : Fin 100000) (u : Fin 1) : (val_main_v220 (F := Ideal) x0 x1 x2 x3 x4 x5 x6 x7 x8 x9) (ix2 n u) = refSoftplus (logitSpec (aggT x1 x2) x0 x3 x4 x6 x5 x7 x8 x9 n) := by
  rw [ref_out_form, ref_logit]

end Cert.RefSide

end
-- ==== Proof.lean ====
/-
  The certificate of the graph-convolutional GRU step: a Pallas implementation (two row-tiled kernels around plain segment
  sums) against its jnp reference.
  * Frames. Each kernel program runs through five stretches of host operations, the reset-gate region, one more stretch and
    the update/candidate region; the buffer contents at every boundary are a fold from the launch memory, no host operation
    writes an argument and a region only reads one, so the arguments end as launched. The reference is host operations only:
    its frame is its run with the results dropped.
  * The idealization rewrote nothing, so `preserves` is trivial.
  * Equality of results over the extended reals (`algebraic`). Both programs are read entry by entry into one form
    (Proof/IdealSide/GateSpec.lean): a gate's pre-activation is four 32-term products and two biases; the reset product is
    h ⊙ σ(gate 1); the new hidden state is z ⊙ h + (1 − z) ⊙ tanh(gate 2 of x and h ⊙ r) with z = σ(gate 0); the read-out is
    the soft-plus form of Σ_c max(h'(n,c), 0)·w(c) + β. The kernel side (Proof/IdealSide/KernelResults.lean) regroups each
    128-term contraction of a packed row into those four products — only commutativity and associativity of the sum, so no
    finiteness is used; the reference side is Proof/RefGates.lean. The edge aggregation is the same sum on both sides
    (Proof/IdealSide/SegmentColumns.lean), the fused 64-wide one read half by half.
-/
import proofs.«118658_j79585743995076_2_alg».proof.Defs
import proofs.«118658_j79585743995076_2_alg».proof.Proof.Gen.Kernel
import proofs.«118658_j79585743995076_2_alg».proof.Proof.Gen.KernelIdeal
import proofs.«118658_j79585743995076_2_alg».proof.Proof.Gen.ReferenceIdeal
import proofs.«118658_j79585743995076_2_alg».proof.Proof.Gen.Pre_finite_inputs
import proofs.«118658_j79585743995076_2_alg».proof.Proof.BitsSide.TwoRegionRun
import proofs.«118658_j79585743995076_2_alg».proof.Proof.IdealSide.TwoRegionRun
import proofs.«118658_j79585743995076_2_alg».proof.Proof.RefRun
import proofs.«118658_j79585743995076_2_alg».proof.Proof.IdealSide.KernelValues
import proofs.«118658_j79585743995076_2_alg».proof.Proof.IdealSide.SharedPrefix
import proofs.«118658_j79585743995076_2_alg».proof.Proof.IdealSide.SegmentColumns
import proofs.«118658_j79585743995076_2_alg».proof.Proof.LibGateAlgebra
import proofs.«118658_j79585743995076_2_alg».proof.Proof.IdealSide.KernelResults
import proofs.«118658_j79585743995076_2_alg».proof.Proof.RefGates
import Idealize.ShloMosaic.Adequacy
import Idealize.ShloMosaic.Init

noncomputable section

namespace Cert.Proof

open Idealize.ShloMosaic Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The two spellings of the soft-plus form agree: they differ only in writing the exponent 0 − |t − 0| or −|t − 0|, and
    in which of the two not-equal tests (the same on the extended reals) guards the not-a-number case. -/
theorem softplus_forms (t : Ideal .f32) : Cert.KernelIdeal.Val.softplusForm t = Cert.RefSide.refSoftplus t := by
  have hz : ∀ y : Ideal .f32, (FloatOps.ofBits .f32 0#32 : Ideal .f32) - y = -y := fun y => Cert.Lib.RefReads.zero_word_sub y
  unfold Cert.KernelIdeal.Val.softplusForm Cert.RefSide.refSoftplus
  rw [hz]
  rfl

theorem algebraic : Cert.algebraic_KernelIdeal_ReferenceIdeal := by
  intro m ρ m' ρ' _ hagree
  -- the kernel program's results named (Proof/IdealSide/KernelValues.lean); the reference's results at its run's terms
  refine ⟨fun c => Cert.KernelIdeal.Val.outK m c, fun c => Cert.KernelIdeal.Val.hiddenK m c, Cert.KernelIdeal.Val.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the read-out: both sides are the soft-plus form of Σ_c max(h'(n,c), 0)·w(c) + β, entry by entry
    obtain ⟨a0, a1, a2, a3, a4, a5, a6, a7, a8, a9⟩ := hagree c
    rw [Cert.ReferenceIdeal.Read.val_main_v220_eq, a0, a1, a2, a3, a4, a5, a6, a7, a8, a9]
    funext i
    obtain ⟨n, u, rfl⟩ : ∃ (n : Fin 100000) (u : Fin 1), i = Idealize.ShloMosaic.ValueIdx.ix2 n u := ⟨i 0, i 1, Idealize.ShloMosaic.ValueIdx.eq_ix2 i⟩
    rw [Cert.RefSide.ref_out]
    exact ((Cert.KernelIdeal.Val.out_entry m c n u).trans (softplus_forms _)).symm
  · -- the new hidden state: the reference's six 32-wide ChebConv terms per gate against the kernel's packed 128-wide
    -- contraction (Proof/LibGateAlgebra.lean), its aggregations against the halves of the fused one
    -- (Proof/IdealSide/SegmentColumns.lean), the shared edge coefficient by Proof/IdealSide/SharedPrefix.lean
    obtain ⟨a0, a1, a2, a3, a4, a5, a6, a7, a8, a9⟩ := hagree c
    rw [Cert.ReferenceIdeal.Read.val_main_v214_eq, a0, a1, a2, a3, a4, a5, a6, a7]
    funext i
    obtain ⟨n, j, rfl⟩ : ∃ (n : Fin 100000) (j : Fin 32), i = Idealize.ShloMosaic.ValueIdx.ix2 n j := ⟨i 0, i 1, Idealize.ShloMosaic.ValueIdx.eq_ix2 i⟩
    rw [Cert.RefSide.ref_hidden]
    exact (Cert.KernelIdeal.Val.hidden_entry m c n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
